-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v162)) (v1 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_v160) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_v296) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S21845x256 : Shape := ⟨2, ![21845, 256]⟩
abbrev S256x1024 : Shape := ⟨2, ![256, 1024]⟩
abbrev S1024 : Shape := ⟨1, ![1024]⟩
abbrev S_ : Shape := ⟨0, ![]⟩

class Facts : Prop where
  bcast_S_S21845x256 : S_.BroadcastsInDim S21845x256 (![] : Fin 0 → Fin S21845x256.rank)
  reducesTo_S21845x256_S_d0_1 : S21845x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S21845x256 .f32) (main_arg1 : FVec F S256x1024 .f32) (main_arg2 : FVec F S1024 .f32) (main_arg3 : FVec F S256x1024 .f32) (main_arg4 : FVec F S1024 .f32) : IVec S_ 1 :=
  let main_v0 : FVec F S21845x256 .f32 := Host.absf main_arg0
  let main_cst : FVec F S_ .f32 := constant S_ .f32 0x7F800000#32
  let main_v1 : FVec F S21845x256 .f32 := broadcastInDim S21845x256 ![] bcast_S_S21845x256 main_cst
  let main_v2 : IVec S21845x256 1 := cmpf .olt main_v0 main_v1
  let main_c : IVec S_ 1 := constantI S_ 1 1#1
  let main_v3 : IVec S_ 1 := (fun x v => Host.reduce IntOp.andi x v reducesTo_S21845x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_v13 main_v16
-- ==== Kernel.lean ====
abbrev S21845x256 : Shape := ⟨2, ![21845, 256]⟩
abbrev S256x1024 : Shape := ⟨2, ![256, 1024]⟩
abbrev S1024 : Shape := ⟨1, ![1024]⟩
abbrev S1x1024 : Shape := ⟨2, ![1, 1024]⟩
abbrev S16384x256 : Shape := ⟨2, ![16384, 256]⟩
abbrev S1024x256 : Shape := ⟨2, ![1024, 256]⟩
abbrev S1024x1024 : Shape := ⟨2, ![1024, 1024]⟩
abbrev S4096x256 : Shape := ⟨2, ![4096, 256]⟩
abbrev S512x256 : Shape := ⟨2, ![512, 256]⟩
abbrev S2048x256 : Shape := ⟨2, ![2048, 256]⟩
abbrev S512x1024 : Shape := ⟨2, ![512, 1024]⟩
abbrev S512x4x256 : Shape := ⟨3, ![512, 4, 256]⟩
abbrev S256x256 : Shape := ⟨2, ![256, 256]⟩
abbrev S256x4x256 : Shape := ⟨3, ![256, 4, 256]⟩
abbrev S64x256 : Shape := ⟨2, ![64, 256]⟩
abbrev S64x4x256 : Shape := ⟨3, ![64, 4, 256]⟩
abbrev S_ : Shape := ⟨0, ![]⟩
abbrev S64x1024 : Shape := ⟨2, ![64, 1024]⟩
abbrev S16x256 : Shape := ⟨2, ![16, 256]⟩
abbrev S16x4x256 : Shape := ⟨3, ![16, 4, 256]⟩
abbrev S16x1024 : Shape := ⟨2, ![16, 1024]⟩
abbrev S4x256 : Shape := ⟨2, ![4, 256]⟩
abbrev S4x4x256 : Shape := ⟨3, ![4, 4, 256]⟩
abbrev S4x1024 : Shape := ⟨2, ![4, 1024]⟩
abbrev S1x256 : Shape := ⟨2, ![1, 256]⟩
abbrev S1x4x256 : Shape := ⟨3, ![1, 4, 256]⟩

abbrev nBuf : Space → Nat
  | .hbm => 204
  | .vmem => 42
  | .smem => 0
  | _ => 0

abbrev hbmTy0_0 (i : Nat) : BufTy := match i % 128 with
  | 0 => ⟨S21845x256, .f32⟩
  | 1 => ⟨S256x1024, .f32⟩
  | 2 => ⟨S1024, .f32⟩
  | 3 => ⟨S256x1024, .f32⟩
  | 4 => ⟨S1024, .f32⟩
  | 5 => ⟨S1024, .f32⟩
  | 6 => ⟨S1x1024, .f32⟩
  | 7 => ⟨S256x1024, .bf16⟩
  | 8 => ⟨S256x1024, .bf16⟩
  | 9 => ⟨S16384x256, .f32⟩
  | 10 => ⟨S16384x256, .f32⟩
  | 11 => ⟨S16384x256, .f32⟩
  | 12 => ⟨S4096x256, .f32⟩
  | 13 => ⟨S4096x256, .f32⟩
  | 14 => ⟨S4096x256, .f32⟩
  | 15 => ⟨S1024x256, .f32⟩
  | 16 => ⟨S1024x256, .f32⟩
  | 17 => ⟨S1024x256, .f32⟩
  | 18 => ⟨S256x256, .f32⟩
  | 19 => ⟨S256x256, .f32⟩
  | 20 => ⟨S256x256, .f32⟩
  | 21 => ⟨S64x256, .f32⟩
  | 22 => ⟨S64x4x256, .f32⟩
  | 23 => ⟨S_, .f32⟩
  | 24 => ⟨S64x256, .f32⟩
  | 25 => ⟨S64x4x256, .f32⟩
  | 26 => ⟨S_, .f32⟩
  | 27 => ⟨S64x256, .f32⟩
  | 28 => ⟨S64x1024, .f32⟩
  | 29 => ⟨S64x1024, .f32⟩
  | 30 => ⟨S64x1024, .f32⟩
  | 31 => ⟨S64x1024, .f32⟩
  | 32 => ⟨S64x1024, .f32⟩
  | 33 => ⟨S64x256, .f32⟩
  | 34 => ⟨S64x256, .f32⟩
  | 35 => ⟨S64x256, .f32⟩
  | 36 => ⟨S64x256, .f32⟩
  | 37 => ⟨S64x256, .f32⟩
  | 38 => ⟨S64x256, .f32⟩
  | 39 => ⟨S_, .f32⟩
  | 40 => ⟨S64x256, .f32⟩
  | 41 => ⟨S64x256, .f32⟩
  | 42 => ⟨S_, .f32⟩
  | 43 => ⟨S64x256, .f32⟩
  | 44 => ⟨S64x256, .f32⟩
  | 45 => ⟨S64x256, .f32⟩
  | 46 => ⟨S64x256, .f32⟩
  | 47 => ⟨S_, .f32⟩
  | 48 => ⟨S64x256, .f32⟩
  | 49 => ⟨S64x256, .f32⟩
  | 50 => ⟨S_, .f32⟩
  | 51 => ⟨S64x256, .f32⟩
  | 52 => ⟨S64x256, .f32⟩
  | 53 => ⟨S64x256, .f32⟩
  | 54 => ⟨S64x256, .f32⟩
  | 55 => ⟨S64x256, .f32⟩
  | 56 => ⟨S_, .f32⟩
  | 57 => ⟨S64x256, .f32⟩
  | 58 => ⟨S64x256, .f32⟩
  | 59 => ⟨S_, .f32⟩
  | 60 => ⟨S64x256, .f32⟩
  | 61 => ⟨S64x256, .f32⟩
  | 62 => ⟨S64x256, .f32⟩
  | 63 => ⟨S64x256, .f32⟩
  | 64 => ⟨S64x256, .f32⟩
  | 65 => ⟨S64x256, .f32⟩
  | 66 => ⟨S64x256, .f32⟩
  | 67 => ⟨S16x256, .f32⟩
  | 68 => ⟨S16x4x256, .f32⟩
  | 69 => ⟨S_, .f32⟩
  | 70 => ⟨S16x256, .f32⟩
  | 71 => ⟨S16x4x256, .f32⟩
  | 72 => ⟨S_, .f32⟩
  | 73 => ⟨S16x256, .f32⟩
  | 74 => ⟨S16x1024, .f32⟩
  | 75 => ⟨S16x1024, .f32⟩
  | 76 => ⟨S16x1024, .f32⟩
  | 77 => ⟨S16x1024, .f32⟩
  | 78 => ⟨S16x1024, .f32⟩
  | 79 => ⟨S16x256, .f32⟩
  | 80 => ⟨S16x256, .f32⟩
  | 81 => ⟨S16x256, .f32⟩
  | 82 => ⟨S16x256, .f32⟩
  | 83 => ⟨S16x256, .f32⟩
  | 84 => ⟨S16x256, .f32⟩
  | 85 => ⟨S_, .f32⟩
  | 86 => ⟨S16x256, .f32⟩
  | 87 => ⟨S16x256, .f32⟩
  | 88 => ⟨S_, .f32⟩
  | 89 => ⟨S16x256, .f32⟩
  | 90 => ⟨S16x256, .f32⟩
  | 91 => ⟨S16x256, .f32⟩
  | 92 => ⟨S16x256, .f32⟩
  | 93 => ⟨S_, .f32⟩
  | 94 => ⟨S16x256, .f32⟩
  | 95 => ⟨S16x256, .f32⟩
  | 96 => ⟨S_, .f32⟩
  | 97 => ⟨S16x256, .f32⟩
  | 98 => ⟨S16x256, .f32⟩
  | 99 => ⟨S16x256, .f32⟩
  | 100 => ⟨S16x256, .f32⟩
  | 101 => ⟨S16x256, .f32⟩
  | 102 => ⟨S_, .f32⟩
  | 103 => ⟨S16x256, .f32⟩
  | 104 => ⟨S16x256, .f32⟩
  | 105 => ⟨S_, .f32⟩
  | 106 => ⟨S16x256, .f32⟩
  | 107 => ⟨S16x256, .f32⟩
  | 108 => ⟨S16x256, .f32⟩
  | 109 => ⟨S16x256, .f32⟩
  | 110 => ⟨S16x256, .f32⟩
  | 111 => ⟨S16x256, .f32⟩
  | 112 => ⟨S16x256, .f32⟩
  | 113 => ⟨S4x256, .f32⟩
  | 114 => ⟨S4x4x256, .f32⟩
  | 115 => ⟨S_, .f32⟩
  | 116 => ⟨S4x256, .f32⟩
  | 117 => ⟨S4x4x256, .f32⟩
  | 118 => ⟨S_, .f32⟩
  | 119 => ⟨S4x256, .f32⟩
  | 120 => ⟨S4x1024, .f32⟩
  | 121 => ⟨S4x1024, .f32⟩
  | 122 => ⟨S4x1024, .f32⟩
  | 123 => ⟨S4x1024, .f32⟩
  | 124 => ⟨S4x1024, .f32⟩
  | 125 => ⟨S4x256, .f32⟩
  | 126 => ⟨S4x256, .f32⟩
  | 127 => ⟨S4x256, .f32⟩
  | _ => ⟨S21845x256, .f32⟩

abbrev hbmTy0_1 (i : Nat) : BufTy := match i % 128 with
  | 0 => ⟨S4x256, .f32⟩
  | 1 => ⟨S4x256, .f32⟩
  | 2 => ⟨S4x256, .f32⟩
  | 3 => ⟨S_, .f32⟩
  | 4 => ⟨S4x256, .f32⟩
  | 5 => ⟨S4x256, .f32⟩
  | 6 => ⟨S_, .f32⟩
  | 7 => ⟨S4x256, .f32⟩
  | 8 => ⟨S4x256, .f32⟩
  | 9 => ⟨S4x256, .f32⟩
  | 10 => ⟨S4x256, .f32⟩
  | 11 => ⟨S_, .f32⟩
  | 12 => ⟨S4x256, .f32⟩
  | 13 => ⟨S4x256, .f32⟩
  | 14 => ⟨S_, .f32⟩
  | 15 => ⟨S4x256, .f32⟩
  | 16 => ⟨S4x256, .f32⟩
  | 17 => ⟨S4x256, .f32⟩
  | 18 => ⟨S4x256, .f32⟩
  | 19 => ⟨S4x256, .f32⟩
  | 20 => ⟨S_, .f32⟩
  | 21 => ⟨S4x256, .f32⟩
  | 22 => ⟨S4x256, .f32⟩
  | 23 => ⟨S_, .f32⟩
  | 24 => ⟨S4x256, .f32⟩
  | 25 => ⟨S4x256, .f32⟩
  | 26 => ⟨S4x256, .f32⟩
  | 27 => ⟨S4x256, .f32⟩
  | 28 => ⟨S4x256, .f32⟩
  | 29 => ⟨S4x256, .f32⟩
  | 30 => ⟨S4x256, .f32⟩
  | 31 => ⟨S1x256, .f32⟩
  | 32 => ⟨S1x4x256, .f32⟩
  | 33 => ⟨S_, .f32⟩
  | 34 => ⟨S1x256, .f32⟩
  | 35 => ⟨S1x4x256, .f32⟩
  | 36 => ⟨S_, .f32⟩
  | 37 => ⟨S1x256, .f32⟩
  | 38 => ⟨S1x1024, .f32⟩
  | 39 => ⟨S1x1024, .f32⟩
  | 40 => ⟨S1x1024, .f32⟩
  | 41 => ⟨S1x1024, .f32⟩
  | 42 => ⟨S1x256, .f32⟩
  | 43 => ⟨S1x256, .f32⟩
  | 44 => ⟨S1x256, .f32⟩
  | 45 => ⟨S1x256, .f32⟩
  | 46 => ⟨S1x256, .f32⟩
  | 47 => ⟨S1x256, .f32⟩
  | 48 => ⟨S_, .f32⟩
  | 49 => ⟨S1x256, .f32⟩
  | 50 => ⟨S1x256, .f32⟩
  | 51 => ⟨S_, .f32⟩
  | 52 => ⟨S1x256, .f32⟩
  | 53 => ⟨S1x256, .f32⟩
  | 54 => ⟨S1x256, .f32⟩
  | 55 => ⟨S1x256, .f32⟩
  | 56 => ⟨S_, .f32⟩
  | 57 => ⟨S1x256, .f32⟩
  | 58 => ⟨S1x256, .f32⟩
  | 59 => ⟨S_, .f32⟩
  | 60 => ⟨S1x256, .f32⟩
  | 61 => ⟨S1x256, .f32⟩
  | 62 => ⟨S1x256, .f32⟩
  | 63 => ⟨S1x256, .f32⟩
  | 64 => ⟨S1x256, .f32⟩
  | 65 => ⟨S_, .f32⟩
  | 66 => ⟨S1x256, .f32⟩
  | 67 => ⟨S1x256, .f32⟩
  | 68 => ⟨S_, .f32⟩
  | 69 => ⟨S1x256, .f32⟩
  | 70 => ⟨S1x256, .f32⟩
  | 71 => ⟨S1x256, .f32⟩
  | 72 => ⟨S1x256, .f32⟩
  | 73 => ⟨S1x256, .f32⟩
  | 74 => ⟨S1x256, .f32⟩
  | 75 => ⟨S1x256, .f32⟩
  | _ => ⟨S21845x256, .f32⟩

abbrev hbmTy (i : Nat) : BufTy := match i / 128 with
  | 0 => hbmTy0_0 i
  | 1 => hbmTy0_1 i
  | _ => ⟨S21845x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1x1024, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S512x256, .f32⟩
  | .local _ .vmem, ⟨9, _⟩ => ⟨S512x256, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S256x1024, .bf16⟩
  | .local _ .vmem, ⟨24, _⟩ => ⟨S256x1024, .bf16⟩
  | .local _ .vmem, ⟨25, _⟩ => ⟨S1x1024, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S256x256, .f32⟩
  | .local _ .vmem, ⟨35, _⟩ => ⟨S256x1024, .bf16⟩
  | .local _ .vmem, ⟨36, _⟩ => ⟨S256x1024, .bf16⟩
  | .local _ .vmem, ⟨37, _⟩ => ⟨S1x1024, .f32⟩
  | .local _ .vmem, ⟨38, _⟩ => ⟨S1024x256, .f32⟩
  | .local _ .vmem, ⟨39, _⟩ => ⟨S1024x256, .f32⟩
  | .local _ .vmem, ⟨40, _⟩ => ⟨S256x256, .f32⟩
  | .local _ .vmem, ⟨41, _⟩ => ⟨S256x256, .f32⟩
  | _, _ => ⟨S21845x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_15 : Ref sig .tc := ⟨.hbm, 115, rfl⟩
abbrev main_v90 : Ref sig .tc := ⟨.hbm, 116, rfl⟩
abbrev main_v91 : Ref sig .tc := ⟨.hbm, 117, rfl⟩
abbrev main_cst_16 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_17 : Ref sig .tc := ⟨.hbm, 131, rfl⟩
abbrev main_v104 : Ref sig .tc := ⟨.hbm, 132, rfl⟩
abbrev main_v105 : Ref sig .tc := ⟨.hbm, 133, rfl⟩
abbrev main_cst_18 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_19 : Ref sig .tc := ⟨.hbm, 139, rfl⟩
abbrev main_v110 : Ref sig .tc := ⟨.hbm, 140, rfl⟩
abbrev main_v111 : Ref sig .tc := ⟨.hbm, 141, rfl⟩
abbrev main_cst_20 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_21 : Ref sig .tc := ⟨.hbm, 148, rfl⟩
abbrev main_v117 : Ref sig .tc := ⟨.hbm, 149, rfl⟩
abbrev main_v118 : Ref sig .tc := ⟨.hbm, 150, rfl⟩
abbrev main_cst_22 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_23 : Ref sig .tc := ⟨.hbm, 161, rfl⟩
abbrev main_v128 : Ref sig .tc := ⟨.hbm, 162, rfl⟩
abbrev main_v129 : Ref sig .tc := ⟨.hbm, 163, rfl⟩
abbrev main_cst_24 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_25 : Ref sig .tc := ⟨.hbm, 176, rfl⟩
abbrev main_v141 : Ref sig .tc := ⟨.hbm, 177, rfl⟩
abbrev main_v142 : Ref sig .tc := ⟨.hbm, 178, rfl⟩
abbrev main_cst_26 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_27 : Ref sig .tc := ⟨.hbm, 184, rfl⟩
abbrev main_v147 : Ref sig .tc := ⟨.hbm, 185, rfl⟩
abbrev main_v148 : Ref sig .tc := ⟨.hbm, 186, rfl⟩
abbrev main_cst_28 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_29 : Ref sig .tc := ⟨.hbm, 193, rfl⟩
abbrev main_v154 : Ref sig .tc := ⟨.hbm, 194, rfl⟩
abbrev main_v155 : Ref sig .tc := ⟨.hbm, 195, rfl⟩
abbrev main_cst_30 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S256x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1024x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

class Facts₀ : Prop where
  shapeCasts_S1024_S1x1024 : S1024.ShapeCasts S1x1024
  bitsLt_bf16_f32 : FTy.bits .bf16 < FTy.bits .f32
  slices_S21845x256_S16384x256_5461_0 : S21845x256.Slices ![5461, 0] S16384x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  slices_S21845x256_S4096x256_1365_0 : S21845x256.Slices ![1365, 0] S4096x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S2048x256_S512x4x256 : S2048x256.ShapeCasts S512x4x256
  reduces_S512x4x256_S512x256 : S512x4x256.Reduces [1] S512x256
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  slices_S21845x256_S1024x256_341_0 : S21845x256.Slices ![341, 0] S1024x256
  slices_S21845x256_S256x256_85_0 : S21845x256.Slices ![85, 0] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1024x256_S256x4x256 : S1024x256.ShapeCasts S256x4x256
  reduces_S256x4x256_S256x256 : S256x4x256.Reduces [1] S256x256
  broadcasts_S1x1024_S256x1024 : S1x1024.Broadcasts S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  slices_S21845x256_S64x256_21_0 : S21845x256.Slices ![21, 0] S64x256
  shapeCasts_S256x256_S64x4x256 : S256x256.ShapeCasts S64x4x256
  reducesTo_S64x4x256_S64x256_d1 : S64x4x256.ReducesTo [1] S64x256
  h_S_ : 0 < S_.numel
  bcast_S1x1024_S64x1024_0_1 : S1x1024.BroadcastsInDim S64x1024 (![0, 1] : Fin 2 → Fin S64x1024.rank)
  slices_S64x1024_S64x256_0_0 : S64x1024.Slices ![0, 0] S64x256
  slices_S64x1024_S64x256_0_256 : S64x1024.Slices ![0, 256] S64x256
  slices_S64x1024_S64x256_0_512 : S64x1024.Slices ![0, 512] S64x256
  slices_S64x1024_S64x256_0_768 : S64x1024.Slices ![0, 768] S64x256
  bcast_S_S64x256 : S_.BroadcastsInDim S64x256 (![] : Fin 0 → Fin S64x256.rank)
  slices_S21845x256_S16x256_5_0 : S21845x256.Slices ![5, 0] S16x256
  shapeCasts_S64x256_S16x4x256 : S64x256.ShapeCasts S16x4x256
  reducesTo_S16x4x256_S16x256_d1 : S16x4x256.ReducesTo [1] S16x256
  bcast_S1x1024_S16x1024_0_1 : S1x1024.BroadcastsInDim S16x1024 (![0, 1] : Fin 2 → Fin S16x1024.rank)
  slices_S16x1024_S16x256_0_0 : S16x1024.Slices ![0, 0] S16x256
  slices_S16x1024_S16x256_0_256 : S16x1024.Slices ![0, 256] S16x256
  slices_S16x1024_S16x256_0_512 : S16x1024.Slices ![0, 512] S16x256
  slices_S16x1024_S16x256_0_768 : S16x1024.Slices ![0, 768] S16x256
  bcast_S_S16x256 : S_.BroadcastsInDim S16x256 (![] : Fin 0 → Fin S16x256.rank)
  slices_S21845x256_S4x256_1_0 : S21845x256.Slices ![1, 0] S4x256
  shapeCasts_S16x256_S4x4x256 : S16x256.ShapeCasts S4x4x256
  reducesTo_S4x4x256_S4x256_d1 : S4x4x256.ReducesTo [1] S4x256
  bcast_S1x1024_S4x1024_0_1 : S1x1024.BroadcastsInDim S4x1024 (![0, 1] : Fin 2 → Fin S4x1024.rank)
  slices_S4x1024_S4x256_0_0 : S4x1024.Slices ![0, 0] S4x256
  slices_S4x1024_S4x256_0_256 : S4x1024.Slices ![0, 256] S4x256
  slices_S4x1024_S4x256_0_512 : S4x1024.Slices ![0, 512] S4x256
  slices_S4x1024_S4x256_0_768 : S4x1024.Slices ![0, 768] S4x256
  bcast_S_S4x256 : S_.BroadcastsInDim S4x256 (![] : Fin 0 → Fin S4x256.rank)
  slices_S21845x256_S1x256_0_0 : S21845x256.Slices ![0, 0] S1x256
  shapeCasts_S4x256_S1x4x256 : S4x256.ShapeCasts S1x4x256
  reducesTo_S1x4x256_S1x256_d1 : S1x4x256.ReducesTo [1] S1x256
  slices_S1x1024_S1x256_0_0 : S1x1024.Slices ![0, 0] S1x256
  slices_S1x1024_S1x256_0_256 : S1x1024.Slices ![0, 256] S1x256
  slices_S1x1024_S1x256_0_512 : S1x1024.Slices ![0, 512] S1x256
  slices_S1x1024_S1x256_0_768 : S1x1024.Slices ![0, 768] S1x256
  bcast_S_S1x256 : S_.BroadcastsInDim S1x256 (![] : Fin 0 → Fin S1x256.rank)
  dot_S1024x256_S256x1024_S1024x1024_1_0_0_1_n_n_wf : DotDims.WF S1024x256 S256x1024 S1024x1024 [1] [0] [0] [1] [] []
  dot_S512x256_S256x1024_S512x1024_1_0_0_1_n_n_wf : DotDims.WF S512x256 S256x1024 S512x1024 [1] [0] [0] [1] [] []
  dot_S256x256_S256x1024_S256x1024_1_0_0_1_n_n_wf : DotDims.WF S256x256 S256x1024 S256x1024 [1] [0] [0] [1] [] []
  dot_S64x256_S256x1024_S64x1024_1_0_0_1_n_n_wf : DotDims.WF S64x256 S256x1024 S64x1024 [1] [0] [0] [1] [] []
  dot_S16x256_S256x1024_S16x1024_1_0_0_1_n_n_wf : DotDims.WF S16x256 S256x1024 S16x1024 [1] [0] [0] [1] [] []
  dot_S4x256_S256x1024_S4x1024_1_0_0_1_n_n_wf : DotDims.WF S4x256 S256x1024 S4x1024 [1] [0] [0] [1] [] []
  dot_S1x256_S256x1024_S1x1024_1_0_0_1_n_n_wf : DotDims.WF S1x256 S256x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .f32 = 32 ∨ (Rect.block (s := S16384x256) S1024x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S16384x256.size a
  hwx1_4 : ∀ i : grid1.Coords, EltTy.bits .f32 = 32 ∨ (Rect.block (s := S16384x256) S2048x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S16384x256.size a
  hwx1_5 : ∀ i : grid1.Coords, EltTy.bits .f32 = 32 ∨ (Rect.block (s := S16384x256) S2048x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S4096x256.size a
  hwx1_6 : ∀ i : grid1.Coords, EltTy.bits .f32 = 32 ∨ (Rect.block (s := S4096x256) S512x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S4096x256.size a
  hwx1_7 : ∀ i : grid1.Coords, EltTy.bits .f32 = 32 ∨ (Rect.block (s := S4096x256) S512x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S1024x256.size a
  hwx2_0 : ∀ i : grid2.Coords, EltTy.bits .f32 = 32 ∨ (Rect.block (s := S1024x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x1024.size a
  hwx2_1 : ∀ i : grid2.Coords, EltTy.bits .bf16 = 32 ∨ (Rect.block (s := S256x1024) S256x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S256x1024.size a
  hwx2_2 : ∀ i : grid2.Coords, EltTy.bits .bf16 = 32 ∨ (Rect.block (s := S256x1024) S256x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x256.size a ≤ S4096x256.size a
  hwx2_4 : ∀ i : grid2.Coords, EltTy.bits .f32 = 32 ∨ (Rect.block (s := S4096x256) S2048x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x256.size a ≤ S4096x256.size a
  hwx2_5 : ∀ i : grid2.Coords, EltTy.bits .f32 = 32 ∨ (Rect.block (s := S4096x256) S2048x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x256.size a ≤ S1024x256.size a
  hwx2_6 : ∀ i : grid2.Coords, EltTy.bits .f32 = 32 ∨ (Rect.block (s := S1024x256) S512x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x256.size a ≤ S1024x256.size a
  hwx2_7 : ∀ i : grid2.Coords, EltTy.bits .f32 = 32 ∨ (Rect.block (s := S1024x256) S512x256.size (cc2_transform_7 i) (hinb2_7 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S256x256.size a
  hwx3_0 : ∀ i : grid3.Coords, EltTy.bits .f32 = 32 ∨ (Rect.block (s := S256x256) S256x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x1024.size a ≤ S256x1024.size a
  hwx3_1 : ∀ i : grid3.Coords, EltTy.bits .bf16 = 32 ∨ (Rect.block (s := S256x1024) S256x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S256x1024.size a
  hwx3_2 : ∀ i : grid3.Coords, EltTy.bits .bf16 = 32 ∨ (Rect.block (s := S256x1024) S256x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 false = 1
  hreads3_4 : ∀ i i' : grid3.Coords, (∀ a, reads3_4 a = true → i a = i' a) → cc3_transform_4 i = cc3_transform_4 i'
  hinb3_4 : ∀ (i : grid3.Coords) a, (cc3_transform_4 i a + 1) * S1024x256.size a ≤ S1024x256.size a
  hwx3_4 : ∀ i : grid3.Coords, EltTy.bits .f32 = 32 ∨ (Rect.block (s := S1024x256) S1024x256.size (cc3_transform_4 i) (hinb3_4 i)).WholeWords (EltTy.packing .f32)
  hstage3_5 : ∀ j, (stage3_5 j).IsWhole
  nbuf3_5 : grid3.bufCount reads3_5 false = 1
  hreads3_5 : ∀ i i' : grid3.Coords, (∀ a, reads3_5 a = true → i a = i' a) → cc3_transform_5 i = cc3_transform_5 i'
  hinb3_5 : ∀ (i : grid3.Coords) a, (cc3_transform_5 i a + 1) * S1024x256.size a ≤ S1024x256.size a
  hwx3_5 : ∀ i : grid3.Coords, EltTy.bits .f32 = 32 ∨ (Rect.block (s := S1024x256) S1024x256.size (cc3_transform_5 i) (hinb3_5 i)).WholeWords (EltTy.packing .f32)
  hstage3_6 : ∀ j, (stage3_6 j).IsWhole
  nbuf3_6 : grid3.bufCount reads3_6 false = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 false = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .f32 = 32 ∨ (Rect.block (s := S256x256) S256x256.size (cc3_transform_7 i) (hinb3_7 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf
def dot_S4x256_S256x1024_S4x1024_1_0_0_1_n_n : DotDims S4x256 S256x1024 S4x1024 where
  lhsContracting := [1]
  rhsContracting := [0]
  lhsNonContracting := [0]
  rhsNonContracting := [1]
  lhsBatch := []
  rhsBatch := []
  wf := dot_S4x256_S256x1024_S4x1024_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf

abbrev win0_0 : Pipeline.Window sig grid0 :=
  Pipeline.Window.ofSpec (Memref.whole main_v4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S2048x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S2048x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_0) S512x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v7_1) S512x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v8) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S256x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7_0) S2048x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v7_1) S2048x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v9_0) S512x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v9_1) S512x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v10) S256x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v2) S256x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S256x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v9_0) S1024x256.size cc3_transform_4 reads3_4 false false 1 stage3_4 sem3_4
    hrank3 hreads3_4 hinb3_4 nbuf3_4 (Memref.isWhole_whole _) hwx3_4 hstage3_4

abbrev win3_5 : Pipeline.Window sig grid3 :=
  Pipeline.Window.ofSpec (Memref.whole main_v9_1) S1024x256.size cc3_transform_5 reads3_5 false false 1 stage3_5 sem3_5
    hrank3 hreads3_5 hinb3_5 nbuf3_5 (Memref.isWhole_whole _) hwx3_5 hstage3_5

abbrev win3_6 : Pipeline.Window sig grid3 :=
  Pipeline.Window.ofSpec (Memref.whole main_v11_0) S256x256.size cc3_transform_6 reads3_6 true false 1 stage3_6 sem3_6
    hrank3 hreads3_6 hinb3_6 nbuf3_6 (Memref.isWhole_whole _) hwx3_6 hstage3_6

abbrev win3_7 : Pipeline.Window sig grid3 :=
  Pipeline.Window.ofSpec (Memref.whole main_v11_1) S256x256.size cc3_transform_7 reads3_7 true false 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S21845x256 : Shape := ⟨2, ![21845, 256]⟩
abbrev S256x1024 : Shape := ⟨2, ![256, 1024]⟩
abbrev S1024 : Shape := ⟨1, ![1024]⟩
abbrev S21845x1024 : Shape := ⟨2, ![21845, 1024]⟩
abbrev S1x1024 : Shape := ⟨2, ![1, 1024]⟩
abbrev S16384x1024 : Shape := ⟨2, ![16384, 1024]⟩
abbrev S16384x256 : Shape := ⟨2, ![16384, 256]⟩
abbrev S_ : Shape := ⟨0, ![]⟩
abbrev S4096x4x256 : Shape := ⟨3, ![4096, 4, 256]⟩
abbrev S4096x256 : Shape := ⟨2, ![4096, 256]⟩
abbrev S4096x1024 : Shape := ⟨2, ![4096, 1024]⟩
abbrev S1024x4x256 : Shape := ⟨3, ![1024, 4, 256]⟩
abbrev S1024x256 : Shape := ⟨2, ![1024, 256]⟩
abbrev S1024x1024 : Shape := ⟨2, ![1024, 1024]⟩
abbrev S256x4x256 : Shape := ⟨3, ![256, 4, 256]⟩
abbrev S256x256 : Shape := ⟨2, ![256, 256]⟩
abbrev S64x4x256 : Shape := ⟨3, ![64, 4, 256]⟩
abbrev S64x256 : Shape := ⟨2, ![64, 256]⟩
abbrev S64x1024 : Shape := ⟨2, ![64, 1024]⟩
abbrev S16x4x256 : Shape := ⟨3, ![16, 4, 256]⟩
abbrev S16x256 : Shape := ⟨2, ![16, 256]⟩
abbrev S16x1024 : Shape := ⟨2, ![16, 1024]⟩
abbrev S4x4x256 : Shape := ⟨3, ![4, 4, 256]⟩
abbrev S4x256 : Shape := ⟨2, ![4, 256]⟩
abbrev S4x1024 : Shape := ⟨2, ![4, 1024]⟩
abbrev S1x4x256 : Shape := ⟨3, ![1, 4, 256]⟩
abbrev S1x256 : Shape := ⟨2, ![1, 256]⟩

abbrev nBuf : Space → Nat
  | .hbm => 366
  | .vmem => 0
  | .smem => 0
  | _ => 0

abbrev hbmTy0_0 (i : Nat) : BufTy := match i % 128 with
  | 0 => ⟨S21845x256, .f32⟩
  | 1 => ⟨S256x1024, .f32⟩
  | 2 => ⟨S1024, .f32⟩
  | 3 => ⟨S256x1024, .f32⟩
  | 4 => ⟨S1024, .f32⟩
  | 5 => ⟨S21845x1024, .f32⟩
  | 6 => ⟨S1x1024, .f32⟩
  | 7 => ⟨S21845x1024, .f32⟩
  | 8 => ⟨S21845x1024, .f32⟩
  | 9 => ⟨S16384x1024, .f32⟩
  | 10 => ⟨S1x1024, .f32⟩
  | 11 => ⟨S16384x1024, .f32⟩
  | 12 => ⟨S16384x1024, .f32⟩
  | 13 => ⟨S16384x256, .f32⟩
  | 14 => ⟨S16384x256, .f32⟩
  | 15 => ⟨S16384x256, .f32⟩
  | 16 => ⟨S16384x256, .f32⟩
  | 17 => ⟨S16384x256, .f32⟩
  | 18 => ⟨S16384x256, .f32⟩
  | 19 => ⟨S_, .f32⟩
  | 20 => ⟨S16384x256, .f32⟩
  | 21 => ⟨S16384x256, .f32⟩
  | 22 => ⟨S_, .f32⟩
  | 23 => ⟨S16384x256, .f32⟩
  | 24 => ⟨S16384x256, .f32⟩
  | 25 => ⟨S16384x256, .f32⟩
  | 26 => ⟨S16384x256, .f32⟩
  | 27 => ⟨S_, .f32⟩
  | 28 => ⟨S16384x256, .f32⟩
  | 29 => ⟨S16384x256, .f32⟩
  | 30 => ⟨S_, .f32⟩
  | 31 => ⟨S16384x256, .f32⟩
  | 32 => ⟨S16384x256, .f32⟩
  | 33 => ⟨S16384x256, .f32⟩
  | 34 => ⟨S16384x256, .f32⟩
  | 35 => ⟨S16384x256, .f32⟩
  | 36 => ⟨S_, .f32⟩
  | 37 => ⟨S16384x256, .f32⟩
  | 38 => ⟨S16384x256, .f32⟩
  | 39 => ⟨S_, .f32⟩
  | 40 => ⟨S16384x256, .f32⟩
  | 41 => ⟨S16384x256, .f32⟩
  | 42 => ⟨S16384x256, .f32⟩
  | 43 => ⟨S16384x256, .f32⟩
  | 44 => ⟨S16384x256, .f32⟩
  | 45 => ⟨S4096x4x256, .f32⟩
  | 46 => ⟨S_, .f32⟩
  | 47 => ⟨S4096x256, .f32⟩
  | 48 => ⟨S4096x4x256, .f32⟩
  | 49 => ⟨S_, .f32⟩
  | 50 => ⟨S4096x256, .f32⟩
  | 51 => ⟨S4096x1024, .f32⟩
  | 52 => ⟨S4096x1024, .f32⟩
  | 53 => ⟨S4096x1024, .f32⟩
  | 54 => ⟨S1x1024, .f32⟩
  | 55 => ⟨S4096x1024, .f32⟩
  | 56 => ⟨S4096x1024, .f32⟩
  | 57 => ⟨S4096x256, .f32⟩
  | 58 => ⟨S4096x256, .f32⟩
  | 59 => ⟨S4096x256, .f32⟩
  | 60 => ⟨S4096x256, .f32⟩
  | 61 => ⟨S4096x256, .f32⟩
  | 62 => ⟨S4096x256, .f32⟩
  | 63 => ⟨S_, .f32⟩
  | 64 => ⟨S4096x256, .f32⟩
  | 65 => ⟨S4096x256, .f32⟩
  | 66 => ⟨S_, .f32⟩
  | 67 => ⟨S4096x256, .f32⟩
  | 68 => ⟨S4096x256, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S4096x256, .f32⟩
  | 78 => ⟨S4096x256, .f32⟩
  | 79 => ⟨S4096x256, .f32⟩
  | 80 => ⟨S_, .f32⟩
  | 81 => ⟨S4096x256, .f32⟩
  | 82 => ⟨S4096x256, .f32⟩
  | 83 => ⟨S_, .f32⟩
  | 84 => ⟨S4096x256, .f32⟩
  | 85 => ⟨S4096x256, .f32⟩
  | 86 => ⟨S4096x256, .f32⟩
  | 87 => ⟨S4096x256, .f32⟩
  | 88 => ⟨S4096x256, .f32⟩
  | 89 => ⟨S4096x256, .f32⟩
  | 90 => ⟨S4096x256, .f32⟩
  | 91 => ⟨S1024x4x256, .f32⟩
  | 92 => ⟨S_, .f32⟩
  | 93 => ⟨S1024x256, .f32⟩
  | 94 => ⟨S1024x4x256, .f32⟩
  | 95 => ⟨S_, .f32⟩
  | 96 => ⟨S1024x256, .f32⟩
  | 97 => ⟨S1024x1024, .f32⟩
  | 98 => ⟨S1024x1024, .f32⟩
  | 99 => ⟨S1024x1024, .f32⟩
  | 100 => ⟨S1x1024, .f32⟩
  | 101 => ⟨S1024x1024, .f32⟩
  | 102 => ⟨S1024x1024, .f32⟩
  | 103 => ⟨S1024x256, .f32⟩
  | 104 => ⟨S1024x256, .f32⟩
  | 105 => ⟨S1024x256, .f32⟩
  | 106 => ⟨S1024x256, .f32⟩
  | 107 => ⟨S1024x256, .f32⟩
  | 108 => ⟨S1024x256, .f32⟩
  | 109 => ⟨S_, .f32⟩
  | 110 => ⟨S1024x256, .f32⟩
  | 111 => ⟨S1024x256, .f32⟩
  | 112 => ⟨S_, .f32⟩
  | 113 => ⟨S1024x256, .f32⟩
  | 114 => ⟨S1024x256, .f32⟩
  | 115 => ⟨S1024x256, .f32⟩
  | 116 => ⟨S1024x256, .f32⟩
  | 117 => ⟨S_, .f32⟩
  | 118 => ⟨S1024x256, .f32⟩
  | 119 => ⟨S1024x256, .f32⟩
  | 120 => ⟨S_, .f32⟩
  | 121 => ⟨S1024x256, .f32⟩
  | 122 => ⟨S1024x256, .f32⟩
  | 123 => ⟨S1024x256, .f32⟩
  | 124 => ⟨S1024x256, .f32⟩
  | 125 => ⟨S1024x256, .f32⟩
  | 126 => ⟨S_, .f32⟩
  | 127 => ⟨S1024x256, .f32⟩
  | _ => ⟨S21845x256, .f32⟩

abbrev hbmTy0_1 (i : Nat) : BufTy := match i % 128 with
  | 0 => ⟨S1024x256, .f32⟩
  | 1 => ⟨S_, .f32⟩
  | 2 => ⟨S1024x256, .f32⟩
  | 3 => ⟨S1024x256, .f32⟩
  | 4 => ⟨S1024x256, .f32⟩
  | 5 => ⟨S1024x256, .f32⟩
  | 6 => ⟨S1024x256, .f32⟩
  | 7 => ⟨S1024x256, .f32⟩
  | 8 => ⟨S1024x256, .f32⟩
  | 9 => ⟨S256x4x256, .f32⟩
  | 10 => ⟨S_, .f32⟩
  | 11 => ⟨S256x256, .f32⟩
  | 12 => ⟨S256x4x256, .f32⟩
  | 13 => ⟨S_, .f32⟩
  | 14 => ⟨S256x256, .f32⟩
  | 15 => ⟨S256x1024, .f32⟩
  | 16 => ⟨S256x1024, .f32⟩
  | 17 => ⟨S256x1024, .f32⟩
  | 18 => ⟨S1x1024, .f32⟩
  | 19 => ⟨S256x1024, .f32⟩
  | 20 => ⟨S256x1024, .f32⟩
  | 21 => ⟨S256x256, .f32⟩
  | 22 => ⟨S256x256, .f32⟩
  | 23 => ⟨S256x256, .f32⟩
  | 24 => ⟨S256x256, .f32⟩
  | 25 => ⟨S256x256, .f32⟩
  | 26 => ⟨S256x256, .f32⟩
  | 27 => ⟨S_, .f32⟩
  | 28 => ⟨S256x256, .f32⟩
  | 29 => ⟨S256x256, .f32⟩
  | 30 => ⟨S_, .f32⟩
  | 31 => ⟨S256x256, .f32⟩
  | 32 => ⟨S256x256, .f32⟩
  | 33 => ⟨S256x256, .f32⟩
  | 34 => ⟨S256x256, .f32⟩
  | 35 => ⟨S_, .f32⟩
  | 36 => ⟨S256x256, .f32⟩
  | 37 => ⟨S256x256, .f32⟩
  | 38 => ⟨S_, .f32⟩
  | 39 => ⟨S256x256, .f32⟩
  | 40 => ⟨S256x256, .f32⟩
  | 41 => ⟨S256x256, .f32⟩
  | 42 => ⟨S256x256, .f32⟩
  | 43 => ⟨S256x256, .f32⟩
  | 44 => ⟨S_, .f32⟩
  | 45 => ⟨S256x256, .f32⟩
  | 46 => ⟨S256x256, .f32⟩
  | 47 => ⟨S_, .f32⟩
  | 48 => ⟨S256x256, .f32⟩
  | 49 => ⟨S256x256, .f32⟩
  | 50 => ⟨S256x256, .f32⟩
  | 51 => ⟨S256x256, .f32⟩
  | 52 => ⟨S256x256, .f32⟩
  | 53 => ⟨S256x256, .f32⟩
  | 54 => ⟨S256x256, .f32⟩
  | 55 => ⟨S64x4x256, .f32⟩
  | 56 => ⟨S_, .f32⟩
  | 57 => ⟨S64x256, .f32⟩
  | 58 => ⟨S64x4x256, .f32⟩
  | 59 => ⟨S_, .f32⟩
  | 60 => ⟨S64x256, .f32⟩
  | 61 => ⟨S64x1024, .f32⟩
  | 62 => ⟨S64x1024, .f32⟩
  | 63 => ⟨S64x1024, .f32⟩
  | 64 => ⟨S1x1024, .f32⟩
  | 65 => ⟨S64x1024, .f32⟩
  | 66 => ⟨S64x1024, .f32⟩
  | 67 => ⟨S64x256, .f32⟩
  | 68 => ⟨S64x256, .f32⟩
  | 69 => ⟨S64x256, .f32⟩
  | 70 => ⟨S64x256, .f32⟩
  | 71 => ⟨S64x256, .f32⟩
  | 72 => ⟨S64x256, .f32⟩
  | 73 => ⟨S_, .f32⟩
  | 74 => ⟨S64x256, .f32⟩
  | 75 => ⟨S64x256, .f32⟩
  | 76 => ⟨S_, .f32⟩
  | 77 => ⟨S64x256, .f32⟩
  | 78 => ⟨S64x256, .f32⟩
  | 79 => ⟨S64x256, .f32⟩
  | 80 => ⟨S64x256, .f32⟩
  | 81 => ⟨S_, .f32⟩
  | 82 => ⟨S64x256, .f32⟩
  | 83 => ⟨S64x256, .f32⟩
  | 84 => ⟨S_, .f32⟩
  | 85 => ⟨S64x256, .f32⟩
  | 86 => ⟨S64x256, .f32⟩
  | 87 => ⟨S64x256, .f32⟩
  | 88 => ⟨S64x256, .f32⟩
  | 89 => ⟨S64x256, .f32⟩
  | 90 => ⟨S_, .f32⟩
  | 91 => ⟨S64x256, .f32⟩
  | 92 => ⟨S64x256, .f32⟩
  | 93 => ⟨S_, .f32⟩
  | 94 => ⟨S64x256, .f32⟩
  | 95 => ⟨S64x256, .f32⟩
  | 96 => ⟨S64x256, .f32⟩
  | 97 => ⟨S64x256, .f32⟩
  | 98 => ⟨S64x256, .f32⟩
  | 99 => ⟨S64x256, .f32⟩
  | 100 => ⟨S64x256, .f32⟩
  | 101 => ⟨S16x4x256, .f32⟩
  | 102 => ⟨S_, .f32⟩
  | 103 => ⟨S16x256, .f32⟩
  | 104 => ⟨S16x4x256, .f32⟩
  | 105 => ⟨S_, .f32⟩
  | 106 => ⟨S16x256, .f32⟩
  | 107 => ⟨S16x1024, .f32⟩
  | 108 => ⟨S16x1024, .f32⟩
  | 109 => ⟨S16x1024, .f32⟩
  | 110 => ⟨S1x1024, .f32⟩
  | 111 => ⟨S16x1024, .f32⟩
  | 112 => ⟨S16x1024, .f32⟩
  | 113 => ⟨S16x256, .f32⟩
  | 114 => ⟨S16x256, .f32⟩
  | 115 => ⟨S16x256, .f32⟩
  | 116 => ⟨S16x256, .f32⟩
  | 117 => ⟨S16x256, .f32⟩
  | 118 => ⟨S16x256, .f32⟩
  | 119 => ⟨S_, .f32⟩
  | 120 => ⟨S16x256, .f32⟩
  | 121 => ⟨S16x256, .f32⟩
  | 122 => ⟨S_, .f32⟩
  | 123 => ⟨S16x256, .f32⟩
  | 124 => ⟨S16x256, .f32⟩
  | 125 => ⟨S16x256, .f32⟩
  | 126 => ⟨S16x256, .f32⟩
  | 127 => ⟨S_, .f32⟩
  | _ => ⟨S21845x256, .f32⟩

abbrev hbmTy0_2 (i : Nat) : BufTy := match i % 128 with
  | 0 => ⟨S16x256, .f32⟩
  | 1 => ⟨S16x256, .f32⟩
  | 2 => ⟨S_, .f32⟩
  | 3 => ⟨S16x256, .f32⟩
  | 4 => ⟨S16x256, .f32⟩
  | 5 => ⟨S16x256, .f32⟩
  | 6 => ⟨S16x256, .f32⟩
  | 7 => ⟨S16x256, .f32⟩
  | 8 => ⟨S_, .f32⟩
  | 9 => ⟨S16x256, .f32⟩
  | 10 => ⟨S16x256, .f32⟩
  | 11 => ⟨S_, .f32⟩
  | 12 => ⟨S16x256, .f32⟩
  | 13 => ⟨S16x256, .f32⟩
  | 14 => ⟨S16x256, .f32⟩
  | 15 => ⟨S16x256, .f32⟩
  | 16 => ⟨S16x256, .f32⟩
  | 17 => ⟨S16x256, .f32⟩
  | 18 => ⟨S16x256, .f32⟩
  | 19 => ⟨S4x4x256, .f32⟩
  | 20 => ⟨S_, .f32⟩
  | 21 => ⟨S4x256, .f32⟩
  | 22 => ⟨S4x4x256, .f32⟩
  | 23 => ⟨S_, .f32⟩
  | 24 => ⟨S4x256, .f32⟩
  | 25 => ⟨S4x1024, .f32⟩
  | 26 => ⟨S4x1024, .f32⟩
  | 27 => ⟨S4x1024, .f32⟩
  | 28 => ⟨S1x1024, .f32⟩
  | 29 => ⟨S4x1024, .f32⟩
  | 30 => ⟨S4x1024, .f32⟩
  | 31 => ⟨S4x256, .f32⟩
  | 32 => ⟨S4x256, .f32⟩
  | 33 => ⟨S4x256, .f32⟩
  | 34 => ⟨S4x256, .f32⟩
  | 35 => ⟨S4x256, .f32⟩
  | 36 => ⟨S4x256, .f32⟩
  | 37 => ⟨S_, .f32⟩
  | 38 => ⟨S4x256, .f32⟩
  | 39 => ⟨S4x256, .f32⟩
  | 40 => ⟨S_, .f32⟩
  | 41 => ⟨S4x256, .f32⟩
  | 42 => ⟨S4x256, .f32⟩
  | 43 => ⟨S4x256, .f32⟩
  | 44 => ⟨S4x256, .f32⟩
  | 45 => ⟨S_, .f32⟩
  | 46 => ⟨S4x256, .f32⟩
  | 47 => ⟨S4x256, .f32⟩
  | 48 => ⟨S_, .f32⟩
  | 49 => ⟨S4x256, .f32⟩
  | 50 => ⟨S4x256, .f32⟩
  | 51 => ⟨S4x256, .f32⟩
  | 52 => ⟨S4x256, .f32⟩
  | 53 => ⟨S4x256, .f32⟩
  | 54 => ⟨S_, .f32⟩
  | 55 => ⟨S4x256, .f32⟩
  | 56 => ⟨S4x256, .f32⟩
  | 57 => ⟨S_, .f32⟩
  | 58 => ⟨S4x256, .f32⟩
  | 59 => ⟨S4x256, .f32⟩
  | 60 => ⟨S4x256, .f32⟩
  | 61 => ⟨S4x256, .f32⟩
  | 62 => ⟨S4x256, .f32⟩
  | 63 => ⟨S4x256, .f32⟩
  | 64 => ⟨S4x256, .f32⟩
  | 65 => ⟨S1x4x256, .f32⟩
  | 66 => ⟨S_, .f32⟩
  | 67 => ⟨S1x256, .f32⟩
  | 68 => ⟨S1x4x256, .f32⟩
  | 69 => ⟨S_, .f32⟩
  | 70 => ⟨S1x256, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x256, .f32⟩
  | 77 => ⟨S1x256, .f32⟩
  | 78 => ⟨S1x256, .f32⟩
  | 79 => ⟨S1x256, .f32⟩
  | 80 => ⟨S1x256, .f32⟩
  | 81 => ⟨S1x256, .f32⟩
  | 82 => ⟨S_, .f32⟩
  | 83 => ⟨S1x256, .f32⟩
  | 84 => ⟨S1x256, .f32⟩
  | 85 => ⟨S_, .f32⟩
  | 86 => ⟨S1x256, .f32⟩
  | 87 => ⟨S1x256, .f32⟩
  | 88 => ⟨S1x256, .f32⟩
  | 89 => ⟨S1x256, .f32⟩
  | 90 => ⟨S_, .f32⟩
  | 91 => ⟨S1x256, .f32⟩
  | 92 => ⟨S1x256, .f32⟩
  | 93 => ⟨S_, .f32⟩
  | 94 => ⟨S1x256, .f32⟩
  | 95 => ⟨S1x256, .f32⟩
  | 96 => ⟨S1x256, .f32⟩
  | 97 => ⟨S1x256, .f32⟩
  | 98 => ⟨S1x256, .f32⟩
  | 99 => ⟨S_, .f32⟩
  | 100 => ⟨S1x256, .f32⟩
  | 101 => ⟨S1x256, .f32⟩
  | 102 => ⟨S_, .f32⟩
  | 103 => ⟨S1x256, .f32⟩
  | 104 => ⟨S1x256, .f32⟩
  | 105 => ⟨S1x256, .f32⟩
  | 106 => ⟨S1x256, .f32⟩
  | 107 => ⟨S1x256, .f32⟩
  | 108 => ⟨S1x256, .f32⟩
  | 109 => ⟨S1x256, .f32⟩
  | _ => ⟨S21845x256, .f32⟩

abbrev hbmTy (i : Nat) : BufTy := match i / 128 with
  | 0 => hbmTy0_0 i
  | 1 => hbmTy0_1 i
  | 2 => hbmTy0_2 i
  | _ => ⟨S21845x256, .f32⟩

abbrev bufTy : (tb : Table) → Fin (tcTables nBuf tb) → BufTy
  | .hbm, ⟨i, _⟩ => hbmTy i
  | _, _ => ⟨S21845x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_15 : Ref sig .tc := ⟨.hbm, 109, rfl⟩
abbrev main_v88 : Ref sig .tc := ⟨.hbm, 110, rfl⟩
abbrev main_v89 : Ref sig .tc := ⟨.hbm, 111, rfl⟩
abbrev main_cst_16 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_17 : Ref sig .tc := ⟨.hbm, 117, rfl⟩
abbrev main_v94 : Ref sig .tc := ⟨.hbm, 118, rfl⟩
abbrev main_v95 : Ref sig .tc := ⟨.hbm, 119, rfl⟩
abbrev main_cst_18 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_19 : Ref sig .tc := ⟨.hbm, 126, rfl⟩
abbrev main_v101 : Ref sig .tc := ⟨.hbm, 127, rfl⟩
abbrev main_v102 : Ref sig .tc := ⟨.hbm, 128, rfl⟩
abbrev main_cst_20 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_21 : Ref sig .tc := ⟨.hbm, 138, rfl⟩
abbrev main_v111 : Ref sig .tc := ⟨.hbm, 139, rfl⟩
abbrev main_v112 : Ref sig .tc := ⟨.hbm, 140, rfl⟩
abbrev main_cst_22 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_23 : Ref sig .tc := ⟨.hbm, 155, rfl⟩
abbrev main_v126 : Ref sig .tc := ⟨.hbm, 156, rfl⟩
abbrev main_v127 : Ref sig .tc := ⟨.hbm, 157, rfl⟩
abbrev main_cst_24 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_cst_25 : Ref sig .tc := ⟨.hbm, 163, rfl⟩
abbrev main_v132 : Ref sig .tc := ⟨.hbm, 164, rfl⟩
abbrev main_v133 : Ref sig .tc := ⟨.hbm, 165, rfl⟩
abbrev main_cst_26 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_27 : Ref sig .tc := ⟨.hbm, 172, rfl⟩
abbrev main_v139 : Ref sig .tc := ⟨.hbm, 173, rfl⟩
abbrev main_v140 : Ref sig .tc := ⟨.hbm, 174, rfl⟩
abbrev main_cst_28 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_29 : Ref sig .tc := ⟨.hbm, 184, rfl⟩
abbrev main_v149 : Ref sig .tc := ⟨.hbm, 185, rfl⟩
abbrev main_v150 : Ref sig .tc := ⟨.hbm, 186, rfl⟩
abbrev main_cst_30 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_31 : Ref sig .tc := ⟨.hbm, 201, rfl⟩
abbrev main_v164 : Ref sig .tc := ⟨.hbm, 202, rfl⟩
abbrev main_v165 : Ref sig .tc := ⟨.hbm, 203, rfl⟩
abbrev main_cst_32 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_33 : Ref sig .tc := ⟨.hbm, 209, rfl⟩
abbrev main_v170 : Ref sig .tc := ⟨.hbm, 210, rfl⟩
abbrev main_v171 : Ref sig .tc := ⟨.hbm, 211, rfl⟩
abbrev main_cst_34 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_cst_35 : Ref sig .tc := ⟨.hbm, 218, rfl⟩
abbrev main_v177 : Ref sig .tc := ⟨.hbm, 219, rfl⟩
abbrev main_v178 : Ref sig .tc := ⟨.hbm, 220, rfl⟩
abbrev main_cst_36 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_cst_37 : Ref sig .tc := ⟨.hbm, 230, rfl⟩
abbrev main_v187 : Ref sig .tc := ⟨.hbm, 231, rfl⟩
abbrev main_v188 : Ref sig .tc := ⟨.hbm, 232, rfl⟩
abbrev main_cst_38 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_cst_39 : Ref sig .tc := ⟨.hbm, 247, rfl⟩
abbrev main_v202 : Ref sig .tc := ⟨.hbm, 248, rfl⟩
abbrev main_v203 : Ref sig .tc := ⟨.hbm, 249, rfl⟩
abbrev main_cst_40 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_cst_41 : Ref sig .tc := ⟨.hbm, 255, rfl⟩
abbrev main_v208 : Ref sig .tc := ⟨.hbm, 256, rfl⟩
abbrev main_v209 : Ref sig .tc := ⟨.hbm, 257, rfl⟩
abbrev main_cst_42 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_cst_43 : Ref sig .tc := ⟨.hbm, 264, rfl⟩
abbrev main_v215 : Ref sig .tc := ⟨.hbm, 265, rfl⟩
abbrev main_v216 : Ref sig .tc := ⟨.hbm, 266, rfl⟩
abbrev main_cst_44 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_cst_45 : Ref sig .tc := ⟨.hbm, 276, rfl⟩
abbrev main_v225 : Ref sig .tc := ⟨.hbm, 277, rfl⟩
abbrev main_v226 : Ref sig .tc := ⟨.hbm, 278, rfl⟩
abbrev main_cst_46 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_cst_47 : Ref sig .tc := ⟨.hbm, 293, rfl⟩
abbrev main_v240 : Ref sig .tc := ⟨.hbm, 294, rfl⟩
abbrev main_v241 : Ref sig .tc := ⟨.hbm, 295, rfl⟩
abbrev main_cst_48 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_cst_49 : Ref sig .tc := ⟨.hbm, 301, rfl⟩
abbrev main_v246 : Ref sig .tc := ⟨.hbm, 302, rfl⟩
abbrev main_v247 : Ref sig .tc := ⟨.hbm, 303, rfl⟩
abbrev main_cst_50 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_cst_51 : Ref sig .tc := ⟨.hbm, 310, rfl⟩
abbrev main_v253 : Ref sig .tc := ⟨.hbm, 311, rfl⟩
abbrev main_v254 : Ref sig .tc := ⟨.hbm, 312, rfl⟩
abbrev main_cst_52 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_cst_53 : Ref sig .tc := ⟨.hbm, 322, rfl⟩
abbrev main_v263 : Ref sig .tc := ⟨.hbm, 323, rfl⟩
abbrev main_v264 : Ref sig .tc := ⟨.hbm, 324, rfl⟩
abbrev main_cst_54 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_cst_55 : Ref sig .tc := ⟨.hbm, 338, rfl⟩
abbrev main_v277 : Ref sig .tc := ⟨.hbm, 339, rfl⟩
abbrev main_v278 : Ref sig .tc := ⟨.hbm, 340, rfl⟩
abbrev main_cst_56 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_cst_57 : Ref sig .tc := ⟨.hbm, 346, rfl⟩
abbrev main_v283 : Ref sig .tc := ⟨.hbm, 347, rfl⟩
abbrev main_v284 : Ref sig .tc := ⟨.hbm, 348, rfl⟩
abbrev main_cst_58 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_cst_59 : Ref sig .tc := ⟨.hbm, 355, rfl⟩
abbrev main_v290 : Ref sig .tc := ⟨.hbm, 356, rfl⟩
abbrev main_v291 : Ref sig .tc := ⟨.hbm, 357, rfl⟩
abbrev main_cst_60 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S21845x1024_0_1 : S1x1024.BroadcastsInDim S21845x1024 (![0, 1] : Fin 2 → Fin S21845x1024.rank)
  slices_S21845x1024_S16384x1024_5461_0 : S21845x1024.Slices ![5461, 0] S16384x1024
  bcast_S1x1024_S16384x1024_0_1 : S1x1024.BroadcastsInDim S16384x1024 (![0, 1] : Fin 2 → Fin S16384x1024.rank)
  slices_S16384x1024_S16384x256_0_0 : S16384x1024.Slices ![0, 0] S16384x256
  slices_S16384x1024_S16384x256_0_256 : S16384x1024.Slices ![0, 256] S16384x256
  slices_S16384x1024_S16384x256_0_512 : S16384x1024.Slices ![0, 512] S16384x256
  slices_S16384x1024_S16384x256_0_768 : S16384x1024.Slices ![0, 768] S16384x256
  bcast_S_S16384x256 : S_.BroadcastsInDim S16384x256 (![] : Fin 0 → Fin S16384x256.rank)
  shapeCasts_S16384x256_S4096x4x256 : S16384x256.ShapeCasts S4096x4x256
  reducesTo_S4096x4x256_S4096x256_d1 : S4096x4x256.ReducesTo [1] S4096x256
  h_S_ : 0 < S_.numel
  slices_S21845x1024_S4096x1024_1365_0 : S21845x1024.Slices ![1365, 0] S4096x1024
  bcast_S1x1024_S4096x1024_0_1 : S1x1024.BroadcastsInDim S4096x1024 (![0, 1] : Fin 2 → Fin S4096x1024.rank)
  slices_S4096x1024_S4096x256_0_0 : S4096x1024.Slices ![0, 0] S4096x256
  slices_S4096x1024_S4096x256_0_256 : S4096x1024.Slices ![0, 256] S4096x256
  slices_S4096x1024_S4096x256_0_512 : S4096x1024.Slices ![0, 512] S4096x256
  slices_S4096x1024_S4096x256_0_768 : S4096x1024.Slices ![0, 768] S4096x256
  bcast_S_S4096x256 : S_.BroadcastsInDim S4096x256 (![] : Fin 0 → Fin S4096x256.rank)
  shapeCasts_S4096x256_S1024x4x256 : S4096x256.ShapeCasts S1024x4x256
  reducesTo_S1024x4x256_S1024x256_d1 : S1024x4x256.ReducesTo [1] S1024x256
  slices_S21845x1024_S1024x1024_341_0 : S21845x1024.Slices ![341, 0] S1024x1024
  bcast_S1x1024_S1024x1024_0_1 : S1x1024.BroadcastsInDim S1024x1024 (![0, 1] : Fin 2 → Fin S1024x1024.rank)
  slices_S1024x1024_S1024x256_0_0 : S1024x1024.Slices ![0, 0] S1024x256
  slices_S1024x1024_S1024x256_0_256 : S1024x1024.Slices ![0, 256] S1024x256
  slices_S1024x1024_S1024x256_0_512 : S1024x1024.Slices ![0, 512] S1024x256
  slices_S1024x1024_S1024x256_0_768 : S1024x1024.Slices ![0, 768] S1024x256
  bcast_S_S1024x256 : S_.BroadcastsInDim S1024x256 (![] : Fin 0 → Fin S1024x256.rank)
  shapeCasts_S1024x256_S256x4x256 : S1024x256.ShapeCasts S256x4x256
  reducesTo_S256x4x256_S256x256_d1 : S256x4x256.ReducesTo [1] S256x256
  slices_S21845x1024_S256x1024_85_0 : S21845x1024.Slices ![85, 0] S256x1024
  bcast_S1x1024_S256x1024_0_1 : S1x1024.BroadcastsInDim S256x1024 (![0, 1] : Fin 2 → Fin S256x1024.rank)
  slices_S256x1024_S256x256_0_0 : S256x1024.Slices ![0, 0] S256x256
  slices_S256x1024_S256x256_0_256 : S256x1024.Slices ![0, 256] S256x256
  slices_S256x1024_S256x256_0_512 : S256x1024.Slices ![0, 512] S256x256
  slices_S256x1024_S256x256_0_768 : S256x1024.Slices ![0, 768] S256x256
  bcast_S_S256x256 : S_.BroadcastsInDim S256x256 (![] : Fin 0 → Fin S256x256.rank)
  shapeCasts_S256x256_S64x4x256 : S256x256.ShapeCasts S64x4x256
  reducesTo_S64x4x256_S64x256_d1 : S64x4x256.ReducesTo [1] S64x256
  slices_S21845x1024_S64x1024_21_0 : S21845x1024.Slices ![21, 0] S64x1024
  bcast_S1x1024_S64x1024_0_1 : S1x1024.BroadcastsInDim S64x1024 (![0, 1] : Fin 2 → Fin S64x1024.rank)
  slices_S64x1024_S64x256_0_0 : S64x1024.Slices ![0, 0] S64x256
  slices_S64x1024_S64x256_0_256 : S64x1024.Slices ![0, 256] S64x256
  slices_S64x1024_S64x256_0_512 : S64x1024.Slices ![0, 512] S64x256
  slices_S64x1024_S64x256_0_768 : S64x1024.Slices ![0, 768] S64x256
  bcast_S_S64x256 : S_.BroadcastsInDim S64x256 (![] : Fin 0 → Fin S64x256.rank)
  shapeCasts_S64x256_S16x4x256 : S64x256.ShapeCasts S16x4x256
  reducesTo_S16x4x256_S16x256_d1 : S16x4x256.ReducesTo [1] S16x256
  slices_S21845x1024_S16x1024_5_0 : S21845x1024.Slices ![5, 0] S16x1024
  bcast_S1x1024_S16x1024_0_1 : S1x1024.BroadcastsInDim S16x1024 (![0, 1] : Fin 2 → Fin S16x1024.rank)
  slices_S16x1024_S16x256_0_0 : S16x1024.Slices ![0, 0] S16x256
  slices_S16x1024_S16x256_0_256 : S16x1024.Slices ![0, 256] S16x256
  slices_S16x1024_S16x256_0_512 : S16x1024.Slices ![0, 512] S16x256
  slices_S16x1024_S16x256_0_768 : S16x1024.Slices ![0, 768] S16x256
  bcast_S_S16x256 : S_.BroadcastsInDim S16x256 (![] : Fin 0 → Fin S16x256.rank)
  shapeCasts_S16x256_S4x4x256 : S16x256.ShapeCasts S4x4x256
  reducesTo_S4x4x256_S4x256_d1 : S4x4x256.ReducesTo [1] S4x256
  slices_S21845x1024_S4x1024_1_0 : S21845x1024.Slices ![1, 0] S4x1024
  bcast_S1x1024_S4x1024_0_1 : S1x1024.BroadcastsInDim S4x1024 (![0, 1] : Fin 2 → Fin S4x1024.rank)
  slices_S4x1024_S4x256_0_0 : S4x1024.Slices ![0, 0] S4x256
  slices_S4x1024_S4x256_0_256 : S4x1024.Slices ![0, 256] S4x256
  slices_S4x1024_S4x256_0_512 : S4x1024.Slices ![0, 512] S4x256
  slices_S4x1024_S4x256_0_768 : S4x1024.Slices ![0, 768] S4x256
  bcast_S_S4x256 : S_.BroadcastsInDim S4x256 (![] : Fin 0 → Fin S4x256.rank)
  shapeCasts_S4x256_S1x4x256 : S4x256.ShapeCasts S1x4x256
  reducesTo_S1x4x256_S1x256_d1 : S1x4x256.ReducesTo [1] S1x256
  slices_S21845x1024_S1x1024_0_0 : S21845x1024.Slices ![0, 0] S1x1024
  slices_S1x1024_S1x256_0_0 : S1x1024.Slices ![0, 0] S1x256
  slices_S1x1024_S1x256_0_256 : S1x1024.Slices ![0, 256] S1x256
  slices_S1x1024_S1x256_0_512 : S1x1024.Slices ![0, 512] S1x256
  slices_S1x1024_S1x256_0_768 : S1x1024.Slices ![0, 768] S1x256
  bcast_S_S1x256 : S_.BroadcastsInDim S1x256 (![] : Fin 0 → Fin S1x256.rank)
  dot_S21845x256_S256x1024_S21845x1024_1_0_0_1_n_n_wf : DotDims.WF S21845x256 S256x1024 S21845x1024 [1] [0] [0] [1] [] []
  dot_S4096x256_S256x1024_S4096x1024_1_0_0_1_n_n_wf : DotDims.WF S4096x256 S256x1024 S4096x1024 [1] [0] [0] [1] [] []
  dot_S1024x256_S256x1024_S1024x1024_1_0_0_1_n_n_wf : DotDims.WF S1024x256 S256x1024 S1024x1024 [1] [0] [0] [1] [] []
  dot_S256x256_S256x1024_S256x1024_1_0_0_1_n_n_wf : DotDims.WF S256x256 S256x1024 S256x1024 [1] [0] [0] [1] [] []
  dot_S64x256_S256x1024_S64x1024_1_0_0_1_n_n_wf : DotDims.WF S64x256 S256x1024 S64x1024 [1] [0] [0] [1] [] []
  dot_S16x256_S256x1024_S16x1024_1_0_0_1_n_n_wf : DotDims.WF S16x256 S256x1024 S16x1024 [1] [0] [0] [1] [] []
  dot_S4x256_S256x1024_S4x1024_1_0_0_1_n_n_wf : DotDims.WF S4x256 S256x1024 S4x1024 [1] [0] [0] [1] [] []
  dot_S1x256_S256x1024_S1x1024_1_0_0_1_n_n_wf : DotDims.WF S1x256 S256x1024 S1x1024 [1] [0] [0] [1] [] []

variable [Facts₀]

def dot_S21845x256_S256x1024_S21845x1024_1_0_0_1_n_n : DotDims S21845x256 S256x1024 S21845x1024 where
  lhsContracting := [1]
  rhsContracting := [0]
  lhsNonContracting := [0]
  rhsNonContracting := [1]
  lhsBatch := []
  rhsBatch := []
  wf := dot_S21845x256_S256x1024_S21845x1024_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf
def dot_S4x256_S256x1024_S4x1024_1_0_0_1_n_n : DotDims S4x256 S256x1024 S4x1024 where
  lhsContracting := [1]
  rhsContracting := [0]
  lhsNonContracting := [0]
  rhsNonContracting := [1]
  lhsBatch := []
  rhsBatch := []
  wf := dot_S4x256_S256x1024_S4x1024_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf

class Facts : Prop extends Facts₀ where

variable [Facts]
-- ==== Proof.TreeSpec.lean ====
/-
  The function both programs compute: a complete 4-ary tree of depth 8 (levels 0..7, level l of 4^l nodes, 21845 nodes in
  all, node rows stored level after level) evaluated bottom-up with the child-sum Tree-LSTM cell, on the extended reals.

  A node with embedding row e, children hidden-state sum s and children cell-state sum t has the pre-activation row
      iou = e·wx + bx + s·wh + bh          (1024 columns: four gates of 256 columns each, in the order i, o, u, f)
  and the states
      c = σ(i) · tanh(u) + σ(f) · t,        h = σ(o) · tanh(c),            σ(x) = 1 / (1 + e^(−x)).
  A leaf has no children: its pre-activation is e·wx + bx + bh and its cell state σ(i) · tanh(u).
  Everything is stated over plain functions of literal-size finite index types.
-/
import Idealize.ShloMosaic.PureOps.Ideal
import Idealize.ShloMosaic.PureOps.Ideal.Laws
import Idealize.ShloMosaic.Lib.ValueIdx

noncomputable section

namespace Cert.TreeSpec

open Idealize.ShloMosaic Idealize.ShloMosaic.ValueIdx

/-- A two-axis array as a function of its row and its column. -/
def cur2 {a b : ℕ} (x : (⟨2, ![a, b]⟩ : Shape).Idx → EReal) (p : Fin a) (q : Fin b) : EReal := x (ix2 p q)

/-- A function of a row and a column as a two-axis array. -/
def toArr2 {a b : ℕ} (f : Fin a → Fin b → EReal) : (⟨2, ![a, b]⟩ : Shape).Idx → EReal := fun i => f (i 0) (i 1)

theorem toArr2_ix2 {a b : ℕ} (f : Fin a → Fin b → EReal) (p : Fin a) (q : Fin b) : toArr2 f (ix2 p q) = f p q := rfl

/-- An array that agrees with f at every row and column is f's array. -/
theorem eq_toArr2 {a b : ℕ} (x : (⟨2, ![a, b]⟩ : Shape).Idx → EReal) (f : Fin a → Fin b → EReal)
    (h : ∀ p q, x (ix2 p q) = f p q) : x = toArr2 f := by
  funext i
  rw [eq_ix2 i]
  exact h _ _

/-- A one-axis array as a function of its one coordinate. -/
def cur1 {a : ℕ} (x : (⟨1, ![a]⟩ : Shape).Idx → EReal) (p : Fin a) : EReal := x (ix1 p)

/-- The logistic function on the extended reals, 1 / (1 + e^(−x)). -/
def sgm (x : EReal) : EReal := Ideal.div 1 (1 + Ideal.exp (-x))

/-- The logistic function as one operation is this expression. -/
theorem logistic_eq (x : EReal) : Ideal.logistic x = sgm x := rfl

/-- The word of the float 1.0 denotes the number one. -/
theorem ofBits_one : Ideal.ofBits .f32 0x3F800000#32 = 1 := by
  simp [Ideal.ofBits, Ideal.ieee, -EReal.coe_mul]; norm_num

/-- Column j of the gate that starts at column o of a 1024-wide pre-activation row. -/
def col (o : ℕ) (ho : o ≤ 768) (j : Fin 256) : Fin 1024 := ⟨o + j.val, by have := j.isLt; omega⟩

/-- A 256-entry row times a 256×1024 weight matrix, at column q. -/
def proj (w : Fin 256 → Fin 1024 → EReal) (e : Fin 256 → EReal) (q : Fin 1024) : EReal := ∑ k : Fin 256, e k * w k q

/-- The sum over the four children of node r (rows 4r .. 4r+3 of the level below), at column k. -/
def sum4 {m n : ℕ} (hm : m = 4 * n) (x : Fin m → Fin 256 → EReal) (r : Fin n) (k : Fin 256) : EReal :=
  ∑ a : Fin 4, x ⟨4 * r.val + a.val, by have := r.isLt; have := a.isLt; omega⟩ k

section Cell

variable (wx wh : Fin 256 → Fin 1024 → EReal) (bx bh : Fin 1024 → EReal)

/-- A leaf's pre-activation row. -/
def iouLeaf (e : Fin 256 → EReal) (q : Fin 1024) : EReal := (proj wx e q + bx q) + bh q

/-- An internal node's pre-activation row; s is the sum of its children's hidden states. -/
def iouNode (e s : Fin 256 → EReal) (q : Fin 1024) : EReal := ((proj wx e q + bx q) + proj wh s q) + bh q

/-- With the two biases added first the leaf's pre-activation is the same: addition of extended reals is associative. -/
theorem iouLeaf_presummed (e : Fin 256 → EReal) (q : Fin 1024) :
    proj wx e q + (bx q + bh q) = iouLeaf wx bx bh e q := by
  unfold iouLeaf; rw [add_assoc]

/-- With the two projections added first and the two biases added first the node's pre-activation is the same:
    addition of extended reals is associative and commutative. -/
theorem iouNode_presummed (e s : Fin 256 → EReal) (q : Fin 1024) :
    (proj wx e q + proj wh s q) + (bx q + bh q) = iouNode wx wh bx bh e s q := by
  unfold iouNode; abel

/-- A leaf's cell state from its pre-activation row. -/
def cellLeaf (iou : Fin 1024 → EReal) (j : Fin 256) : EReal :=
  sgm (iou (col 0 (by omega) j)) * Ideal.tanh (iou (col 512 (by omega) j))

/-- An internal node's cell state from its pre-activation row and the sum t of its children's cell states. -/
def cellNode (iou : Fin 1024 → EReal) (t : Fin 256 → EReal) (j : Fin 256) : EReal :=
  sgm (iou (col 0 (by omega) j)) * Ideal.tanh (iou (col 512 (by omega) j)) + sgm (iou (col 768 (by omega) j)) * t j

/-- A node's hidden state from its pre-activation row and its cell state. -/
def hid (iou : Fin 1024 → EReal) (c : Fin 256 → EReal) (j : Fin 256) : EReal :=
  sgm (iou (col 256 (by omega) j)) * Ideal.tanh (c j)

/-- The cell states of a level of leaves with embedding rows E. -/
def leafC {n : ℕ} (E : Fin n → Fin 256 → EReal) (r : Fin n) (j : Fin 256) : EReal :=
  cellLeaf (iouLeaf wx bx bh (E r)) j

/-- The hidden states of a level of leaves. -/
def leafH {n : ℕ} (E : Fin n → Fin 256 → EReal) (r : Fin n) (j : Fin 256) : EReal :=
  hid (iouLeaf wx bx bh (E r)) (leafC wx bx bh E r) j

/-- The cell states of a level of n internal nodes with embedding rows E over the level below (m = 4n nodes, hidden
    states hp, cell states cp). -/
def nodeC {m n : ℕ} (hm : m = 4 * n) (E : Fin n → Fin 256 → EReal) (hp cp : Fin m → Fin 256 → EReal)
    (r : Fin n) (j : Fin 256) : EReal :=
  cellNode (iouNode wx wh bx bh (E r) (sum4 hm hp r)) (sum4 hm cp r) j

/-- The hidden states of a level of internal nodes. -/
def nodeH {m n : ℕ} (hm : m = 4 * n) (E : Fin n → Fin 256 → EReal) (hp cp : Fin m → Fin 256 → EReal)
    (r : Fin n) (j : Fin 256) : EReal :=
  hid (iouNode wx wh bx bh (E r) (sum4 hm hp r)) (nodeC wx wh bx bh hm E hp cp r) j

end Cell

section Tree

variable (E : Fin 21845 → Fin 256 → EReal) (wx wh : Fin 256 → Fin 1024 → EReal) (bx bh : Fin 1024 → EReal)

/-- The n embedding rows that start at row off: one level's nodes. -/
def rows (off n : ℕ) (h : off + n ≤ 21845) (r : Fin n) : Fin 256 → EReal :=
  E ⟨off + r.val, by have := r.isLt; omega⟩

def C7 : Fin 16384 → Fin 256 → EReal := leafC wx bx bh (rows E 5461 16384 (by norm_num))
def H7 : Fin 16384 → Fin 256 → EReal := leafH wx bx bh (rows E 5461 16384 (by norm_num))
def C6 : Fin 4096 → Fin 256 → EReal :=
  nodeC wx wh bx bh (by norm_num) (rows E 1365 4096 (by norm_num)) (H7 E wx bx bh) (C7 E wx bx bh)
def H6 : Fin 4096 → Fin 256 → EReal :=
  nodeH wx wh bx bh (by norm_num) (rows E 1365 4096 (by norm_num)) (H7 E wx bx bh) (C7 E wx bx bh)
def C5 : Fin 1024 → Fin 256 → EReal :=
  nodeC wx wh bx bh (by norm_num) (rows E 341 1024 (by norm_num)) (H6 E wx wh bx bh) (C6 E wx wh bx bh)
def H5 : Fin 1024 → Fin 256 → EReal :=
  nodeH wx wh bx bh (by norm_num) (rows E 341 1024 (by norm_num)) (H6 E wx wh bx bh) (C6 E wx wh bx bh)
def C4 : Fin 256 → Fin 256 → EReal :=
  nodeC wx wh bx bh (by norm_num) (rows E 85 256 (by norm_num)) (H5 E wx wh bx bh) (C5 E wx wh bx bh)
def H4 : Fin 256 → Fin 256 → EReal :=
  nodeH wx wh bx bh (by norm_num) (rows E 85 256 (by norm_num)) (H5 E wx wh bx bh) (C5 E wx wh bx bh)
def C3 : Fin 64 → Fin 256 → EReal :=
  nodeC wx wh bx bh (by norm_num) (rows E 21 64 (by norm_num)) (H4 E wx wh bx bh) (C4 E wx wh bx bh)
def H3 : Fin 64 → Fin 256 → EReal :=
  nodeH wx wh bx bh (by norm_num) (rows E 21 64 (by norm_num)) (H4 E wx wh bx bh) (C4 E wx wh bx bh)
def C2 : Fin 16 → Fin 256 → EReal :=
  nodeC wx wh bx bh (by norm_num) (rows E 5 16 (by norm_num)) (H3 E wx wh bx bh) (C3 E wx wh bx bh)
def H2 : Fin 16 → Fin 256 → EReal :=
  nodeH wx wh bx bh (by norm_num) (rows E 5 16 (by norm_num)) (H3 E wx wh bx bh) (C3 E wx wh bx bh)
def C1 : Fin 4 → Fin 256 → EReal :=
  nodeC wx wh bx bh (by norm_num) (rows E 1 4 (by norm_num)) (H2 E wx wh bx bh) (C2 E wx wh bx bh)
def H1 : Fin 4 → Fin 256 → EReal :=
  nodeH wx wh bx bh (by norm_num) (rows E 1 4 (by norm_num)) (H2 E wx wh bx bh) (C2 E wx wh bx bh)
def C0 : Fin 1 → Fin 256 → EReal :=
  nodeC wx wh bx bh (by norm_num) (rows E 0 1 (by norm_num)) (H1 E wx wh bx bh) (C1 E wx wh bx bh)
def H0 : Fin 1 → Fin 256 → EReal :=
  nodeH wx wh bx bh (by norm_num) (rows E 0 1 (by norm_num)) (H1 E wx wh bx bh) (C1 E wx wh bx bh)

end Tree

end Cert.TreeSpec

end
-- ==== Proof.HostIdx.lean ====
/-
  The host operations of one tree level, each read at a row p and a column: the logistic function as the host program spells it
  (negate, exponential, add one, divide one by it), a gate's 256 columns cut out of the 1024-wide pre-activation,
  the sum of every node's four children (the array of 4n rows recast as n × 4 rows and summed over the middle axis, from
  zero), a matrix product as the sum over the contracted coordinate, and the bias row spread over the rows. All generic
  in the number n of nodes of the level.
-/
import proofs.«148979_j61349312856636_2_alg».proof.Proof.TreeSpec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.HostIdx

open Idealize.ShloMosaic Idealize.ShloMosaic.ValueIdx Cert.TreeSpec

/-- The host's logistic function of an array, entry by entry: one divided by one plus the exponential of the negated
    entry. -/
theorem sig_apply {t : Shape} (dims : Fin 0 → Fin t.rank) (h : (⟨0, ![]⟩ : Shape).BroadcastsInDim t dims)
    (x : FVec Ideal t .f32) (j : t.Idx) :
    Host.divf (broadcastInDim t dims h (constant (F := Ideal) ⟨0, ![]⟩ .f32 0x3F800000#32))
      (addf (broadcastInDim t dims h (constant (F := Ideal) ⟨0, ![]⟩ .f32 0x3F800000#32)) (Host.exp (Host.negf x))) j
      = sgm (x j) := by
  show Ideal.div (Ideal.ofBits .f32 0x3F800000#32) (Ideal.ofBits .f32 0x3F800000#32 + Ideal.exp (-(x j))) = _
  rw [ofBits_one]
  rfl

/-- The 256 columns of one gate, cut out of the pre-activation array. -/
theorem colSlice_apply {n : ℕ} (o : ℕ) (ho : o ≤ 768) (x : (⟨2, ![n, 1024]⟩ : Shape).Idx → EReal)
    (h : (⟨2, ![n, 1024]⟩ : Shape).Slices ![0, o] ⟨2, ![n, 256]⟩) (p : Fin n) (j : Fin 256) :
    extractStridedSlice ⟨2, ![n, 256]⟩ ![0, o] x h (ix2 p j) = x (ix2 p (col o ho j)) := by
  refine extractStridedSlice_apply _ x h (ix2 p j) _ fun a => ?_
  match a with
  | ⟨0, _⟩ => show p.val = 0 + p.val; omega
  | ⟨1, _⟩ => rfl

/-- Rows off .. off+n-1 of an array, cut out by a unit-stride slice, read at row p and column q. -/
theorem rowSlice_apply {N n k : ℕ} (off : ℕ) (hoff : off + n ≤ N) (x : (⟨2, ![N, k]⟩ : Shape).Idx → EReal)
    (h : (⟨2, ![N, k]⟩ : Shape).Slices ![off, 0] ⟨2, ![n, k]⟩) (p : Fin n) (q : Fin k) :
    extractStridedSlice ⟨2, ![n, k]⟩ ![off, 0] x h (ix2 p q) = x (ix2 ⟨off + p.val, by have := p.isLt; omega⟩ q) := by
  refine extractStridedSlice_apply _ x h (ix2 p q) _ fun a => ?_
  match a with
  | ⟨0, _⟩ => rfl
  | ⟨1, _⟩ => show q.val = 0 + q.val; omega

/-- An array is the array of its own function of row and column, and conversely. -/
theorem toArr2_cur2 {a b : ℕ} (x : (⟨2, ![a, b]⟩ : Shape).Idx → EReal) : toArr2 (cur2 x) = x := by
  funext i
  rw [eq_ix2 i]
  rfl

theorem cur2_toArr2 {a b : ℕ} (f : Fin a → Fin b → EReal) : cur2 (toArr2 f) = f := rfl

/-- The children's sum: the array of the level below (k = 4n rows) recast as n × 4 × 256 and summed over its middle
    axis from zero is, at node p, the sum of rows 4p .. 4p+3. -/
theorem sum4_apply {n k : ℕ} (hk : k = 4 * n) (x : (⟨2, ![k, 256]⟩ : Shape).Idx → EReal)
    (hc : (⟨2, ![k, 256]⟩ : Shape).ShapeCasts ⟨3, ![n, 4, 256]⟩)
    (hr : (⟨3, ![n, 4, 256]⟩ : Shape).ReducesTo [1] ⟨2, ![n, 256]⟩)
    (hS : 0 < (⟨0, ![]⟩ : Shape).numel) (p : Fin n) (j : Fin 256) :
    Host.reduceAdd (shapeCast ⟨3, ![n, 4, 256]⟩ x hc) (constant (F := Ideal) ⟨0, ![]⟩ .f32 0x00000000#32) hr hS (ix2 p j)
      = sum4 hk (cur2 x) p j := by
  have hR : (⟨3, ![n, 4, 256]⟩ : Shape).Reduces [1] ⟨2, ![n, 256]⟩ := ⟨hr.1, Nat.two_pos, hr.2⟩
  show Ideal.hostReduceAdd hr (shapeCast ⟨3, ![n, 4, 256]⟩ x hc) (Ideal.ofBits .f32 0x00000000#32) (ix2 p j) = _
  rw [Ideal.hostReduceAdd_single hr hR, Ideal.ofBits_zero_f32, zero_add]
  unfold sum4
  refine Finset.sum_congr rfl fun a _ => ?_
  have ha : a.val < 4 := a.isLt
  refine shapeCast_apply x hc _ (ix2 ⟨4 * p.val + a.val, by have := p.isLt; omega⟩ j) ?_
  rw [Shape.rowMajor_val_two, Shape.rowMajor_val_three]
  show (4 * p.val + a.val) * 256 + j.val = (p.val * 4 + a.val) * 256 + j.val
  omega

/-- A plain product of n × 256 by 256 × 1024 on the host, at row p and column q. -/
theorem dot_apply {n : ℕ} (D : DotDims ⟨2, ![n, 256]⟩ ⟨2, ![256, 1024]⟩ ⟨2, ![n, 1024]⟩)
    (hD : D = DotDims.plain n 256 1024) (A : FVec Ideal ⟨2, ![n, 256]⟩ .f32) (B : FVec Ideal ⟨2, ![256, 1024]⟩ .f32)
    (p : Fin n) (q : Fin 1024) :
    Host.dotGeneral D none A B (ix2 p q) = proj (cur2 B) (cur2 A p) q := by
  subst hD
  rw [StackMember.dotGeneral_plain_apply]
  rfl

/-- The bias row spread over n rows. -/
theorem biasRows_apply {n : ℕ} (h : (⟨2, ![1, 1024]⟩ : Shape).BroadcastsInDim ⟨2, ![n, 1024]⟩ ![0, 1])
    (b : (⟨2, ![1, 1024]⟩ : Shape).Idx → EReal) (p : Fin n) (q : Fin 1024) :
    broadcastInDim ⟨2, ![n, 1024]⟩ ![0, 1] h b (ix2 p q) = b (ix2 (0 : Fin 1) q) := by
  refine broadcastInDim_apply _ h b (ix2 p q) (ix2 (0 : Fin 1) q) fun a => ?_
  match a with
  | ⟨0, _⟩ => rfl
  | ⟨1, _⟩ => rfl

/-! ## The cell, from the pre-activation array -/

/-- The host's logistic function of an array: one divided by one plus the exponential of the negation. -/
def hostSig {t : Shape} (dims : Fin 0 → Fin t.rank) (h : (⟨0, ![]⟩ : Shape).BroadcastsInDim t dims)
    (x : FVec Ideal t .f32) : FVec Ideal t .f32 :=
  Host.divf (broadcastInDim t dims h (constant (F := Ideal) ⟨0, ![]⟩ .f32 0x3F800000#32))
    (addf (broadcastInDim t dims h (constant (F := Ideal) ⟨0, ![]⟩ .f32 0x3F800000#32)) (Host.exp (Host.negf x)))

theorem hostSig_apply {t : Shape} (dims : Fin 0 → Fin t.rank) (h : (⟨0, ![]⟩ : Shape).BroadcastsInDim t dims)
    (x : FVec Ideal t .f32) (j : t.Idx) : hostSig dims h x j = sgm (x j) := sig_apply dims h x j

/-- A leaf's cell-state array from the pre-activation array: input gate times candidate. -/
def hostCLeaf {n : ℕ} (dims : Fin 0 → Fin 2) (h1 : (⟨0, ![]⟩ : Shape).BroadcastsInDim ⟨2, ![n, 256]⟩ dims)
    (s0 : (⟨2, ![n, 1024]⟩ : Shape).Slices ![0, 0] ⟨2, ![n, 256]⟩)
    (s2 : (⟨2, ![n, 1024]⟩ : Shape).Slices ![0, 512] ⟨2, ![n, 256]⟩)
    (iou : FVec Ideal ⟨2, ![n, 1024]⟩ .f32) : FVec Ideal ⟨2, ![n, 256]⟩ .f32 :=
  mulf (hostSig dims h1 (extractStridedSlice ⟨2, ![n, 256]⟩ ![0, 0] iou s0))
    (Host.tanh (extractStridedSlice ⟨2, ![n, 256]⟩ ![0, 512] iou s2))

/-- A node's cell-state array from the pre-activation array and the children's cell-state sum t: input gate times
    candidate plus forget gate times t. -/
def hostC {n : ℕ} (dims : Fin 0 → Fin 2) (h1 : (⟨0, ![]⟩ : Shape).BroadcastsInDim ⟨2, ![n, 256]⟩ dims)
    (s0 : (⟨2, ![n, 1024]⟩ : Shape).Slices ![0, 0] ⟨2, ![n, 256]⟩)
    (s2 : (⟨2, ![n, 1024]⟩ : Shape).Slices ![0, 512] ⟨2, ![n, 256]⟩)
    (s3 : (⟨2, ![n, 1024]⟩ : Shape).Slices ![0, 768] ⟨2, ![n, 256]⟩)
    (iou : FVec Ideal ⟨2, ![n, 1024]⟩ .f32) (t : FVec Ideal ⟨2, ![n, 256]⟩ .f32) : FVec Ideal ⟨2, ![n, 256]⟩ .f32 :=
  addf (hostCLeaf dims h1 s0 s2 iou) (mulf (hostSig dims h1 (extractStridedSlice ⟨2, ![n, 256]⟩ ![0, 768] iou s3)) t)

/-- A node's hidden-state array from the pre-activation array and the cell-state array: output gate times tanh. -/
def hostH {n : ℕ} (dims : Fin 0 → Fin 2) (h1 : (⟨0, ![]⟩ : Shape).BroadcastsInDim ⟨2, ![n, 256]⟩ dims)
    (s1 : (⟨2, ![n, 1024]⟩ : Shape).Slices ![0, 256] ⟨2, ![n, 256]⟩)
    (iou : FVec Ideal ⟨2, ![n, 1024]⟩ .f32) (cc : FVec Ideal ⟨2, ![n, 256]⟩ .f32) : FVec Ideal ⟨2, ![n, 256]⟩ .f32 :=
  mulf (hostSig dims h1 (extractStridedSlice ⟨2, ![n, 256]⟩ ![0, 256] iou s1)) (Host.tanh cc)

theorem hostCLeaf_apply {n : ℕ} (dims : Fin 0 → Fin 2) (h1 : (⟨0, ![]⟩ : Shape).BroadcastsInDim ⟨2, ![n, 256]⟩ dims)
    (s0 : (⟨2, ![n, 1024]⟩ : Shape).Slices ![0, 0] ⟨2, ![n, 256]⟩)
    (s2 : (⟨2, ![n, 1024]⟩ : Shape).Slices ![0, 512] ⟨2, ![n, 256]⟩)
    (iou : FVec Ideal ⟨2, ![n, 1024]⟩ .f32) (p : Fin n) (j : Fin 256) :
    hostCLeaf dims h1 s0 s2 iou (ix2 p j) = cellLeaf (cur2 iou p) j := by
  show hostSig dims h1 _ (ix2 p j) * Ideal.tanh (extractStridedSlice ⟨2, ![n, 256]⟩ ![0, 512] iou s2 (ix2 p j)) = _
  rw [hostSig_apply, colSlice_apply 0 (by omega), colSlice_apply 512 (by omega)]
  rfl

theorem hostC_apply {n : ℕ} (dims : Fin 0 → Fin 2) (h1 : (⟨0, ![]⟩ : Shape).BroadcastsInDim ⟨2, ![n, 256]⟩ dims)
    (s0 : (⟨2, ![n, 1024]⟩ : Shape).Slices ![0, 0] ⟨2, ![n, 256]⟩)
    (s2 : (⟨2, ![n, 1024]⟩ : Shape).Slices ![0, 512] ⟨2, ![n, 256]⟩)
    (s3 : (⟨2, ![n, 1024]⟩ : Shape).Slices ![0, 768] ⟨2, ![n, 256]⟩)
    (iou : FVec Ideal ⟨2, ![n, 1024]⟩ .f32) (t : FVec Ideal ⟨2, ![n, 256]⟩ .f32) (p : Fin n) (j : Fin 256) :
    hostC dims h1 s0 s2 s3 iou t (ix2 p j) = cellNode (cur2 iou p) (cur2 t p) j := by
  show hostCLeaf dims h1 s0 s2 iou (ix2 p j) + hostSig dims h1 _ (ix2 p j) * t (ix2 p j) = _
  rw [hostCLeaf_apply, hostSig_apply, colSlice_apply 768 (by omega)]
  rfl

theorem hostH_apply {n : ℕ} (dims : Fin 0 → Fin 2) (h1 : (⟨0, ![]⟩ : Shape).BroadcastsInDim ⟨2, ![n, 256]⟩ dims)
    (s1 : (⟨2, ![n, 1024]⟩ : Shape).Slices ![0, 256] ⟨2, ![n, 256]⟩)
    (iou : FVec Ideal ⟨2, ![n, 1024]⟩ .f32) (cc : FVec Ideal ⟨2, ![n, 256]⟩ .f32) (p : Fin n) (j : Fin 256) :
    hostH dims h1 s1 iou cc (ix2 p j) = hid (cur2 iou p) (cur2 cc p) j := by
  show hostSig dims h1 _ (ix2 p j) * Ideal.tanh (cc (ix2 p j)) = _
  rw [hostSig_apply, colSlice_apply 256 (by omega)]
  rfl

end Cert.HostIdx

end
-- ==== Proof.KRun.lean ====
/-
  The idealized kernel's run with its two results named. The program is nine segments: a stretch of host operations, then
  four times a kernel region followed by a stretch of host operations. Every weakly fair execution from any memory with
  zero counters terminates without a fault, and in the final state every buffer the TensorCore owns holds the contents at
  the last segment boundary — in particular the two result buffers, the hidden and cell states of the root, hold what the
  last stretch of host operations leaves there, and the five argument arrays are as launched.
-/
import proofs.«148979_j61349312856636_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the root's hidden state and cell state end at the last boundary's contents of their buffers, the arguments
    end as launched. -/
theorem run_results : θ_run defs (onTc (τ := τ) (main (F := F))) ⟨m, fun _ => 0, ρ⟩ (fun r => ∀ c : Dev nD,
      r.2.mem ((c.tc : Thread nD τ).loc main_v162) = W9 m ρ c (Proc.devRef .tc main_v162)
      ∧ r.2.mem ((c.tc : Thread nD τ).loc main_v160) = W9 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v162 (by decide)),
       h c _ (mem_uc main_v160 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.KernelIdeal.Run

end
-- ==== Proof.KBound.lean ====
/-
  What the kernel regions and the last stretch of host operations find in the buffers they read. The program's first
  stretch adds the two biases into one row, passes the two weight matrices through a change of float format (the identity
  on extended reals) and cuts the leaves' rows out of the embedding table; before each later region one more row range of
  the embedding table is cut out (level l's 4^l rows start at row (4^l - 1) / 3). No other operation writes these buffers
  and no region writes back an array it only reads, so each is found later as it was left.
-/
import proofs.«148979_j61349312856636_2_alg».proof.Proof.Gen.KernelIdeal.Frame
import proofs.«148979_j61349312856636_2_alg».proof.Proof.TreeSpec
import proofs.«148979_j61349312856636_2_alg».proof.Proof.HostIdx
import Idealize.ShloMosaic.Lib.Pipeline.Value
import Idealize.ShloMosaic.Lib.ValueLayout
import Idealize.ShloMosaic.Lib.StableHlo.Run

set_option maxRecDepth 16384

noncomputable section

namespace Cert.KernelIdeal.Bound

open Cert.KernelIdeal Cert.KernelIdeal.Gen Cert.TreeSpec Cert.HostIdx
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The argument arrays as plain functions -/

/-- The embedding table: 21845 rows of 256 entries. -/
def aE : Fin 21845 → Fin 256 → EReal := cur2 (m ((c : Thread nD τ).loc main_arg0) : S21845x256.Idx → EReal)
/-- The input weights. -/
def aWx : Fin 256 → Fin 1024 → EReal := cur2 (m ((c : Thread nD τ).loc main_arg1) : S256x1024.Idx → EReal)
/-- The input bias. -/
def aBx : Fin 1024 → EReal := cur1 (m ((c : Thread nD τ).loc main_arg2) : S1024.Idx → EReal)
/-- The recurrent weights. -/
def aWh : Fin 256 → Fin 1024 → EReal := cur2 (m ((c : Thread nD τ).loc main_arg3) : S256x1024.Idx → EReal)
/-- The recurrent bias. -/
def aBh : Fin 1024 → EReal := cur1 (m ((c : Thread nD τ).loc main_arg4) : S1024.Idx → EReal)

/-- The rows of one level cut out of the embedding table are that level's rows. -/
theorem rowSlice_rows {n : ℕ} (off : ℕ) (hoff : off + n ≤ 21845)
    (h : (⟨2, ![21845, 256]⟩ : Shape).Slices ![off, 0] ⟨2, ![n, 256]⟩) :
    extractStridedSlice ⟨2, ![n, 256]⟩ ![off, 0] (m ((c : Thread nD τ).loc main_arg0) : S21845x256.Idx → EReal) h
      = toArr2 (rows (aE m c) off n hoff) := by
  refine eq_toArr2 _ _ fun p q => ?_
  rw [rowSlice_apply off hoff]
  rfl

/-! ## A buffer that a stretch of host operations does not write, and an array a region only reads, keep their contents -/

theorem keep0 (b : Ref sig .tc) (h0 : b ≠ main_v0) (h1 : b ≠ main_v1) (h2 : b ≠ main_v2) (h3 : b ≠ main_v3) (h4 : b ≠ main_v4) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

theorem keep1 (b : Ref sig .tc) (h : b ≠ main_v6) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne h))

theorem keep2 (b : Ref sig .tc) (h : b ≠ main_v8) : W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne h))

theorem keep3 (b : Ref sig .tc) (h : b ≠ main_v10) : W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.unary_writes, Finset.mem_singleton]
    exact StableHlo.devRef_ne_of_ne h))

theorem in0 (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

theorem in1 (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

theorem in2 (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

theorem in3 (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-! ## The embedding table, found as launched at every boundary -/

theorem W2_arg0 : W2 m ρ c (Proc.devRef .tc main_arg0) = m ((c : Thread nD τ).loc main_arg0) :=
  (W2_of_ne m ρ c main_arg0 (by decide)).trans
    ((keep0 m ρ c main_arg0 (by decide) (by decide) (by decide) (by decide) (by decide)).trans rfl)
theorem W4_arg0 : W4 m ρ c (Proc.devRef .tc main_arg0) = m ((c : Thread nD τ).loc main_arg0) :=
  (W4_of_ne m ρ c main_arg0 (by decide)).trans ((keep1 m ρ c main_arg0 (by decide)).trans (W2_arg0 m ρ c))
theorem W6_arg0 : W6 m ρ c (Proc.devRef .tc main_arg0) = m ((c : Thread nD τ).loc main_arg0) :=
  (W6_of_ne m ρ c main_arg0 (by decide)).trans ((keep2 m ρ c main_arg0 (by decide)).trans (W4_arg0 m ρ c))
theorem W8_arg0 : W8 m ρ c (Proc.devRef .tc main_arg0) = m ((c : Thread nD τ).loc main_arg0) :=
  (W8_of_ne m ρ c main_arg0 (by decide)).trans ((keep3 m ρ c main_arg0 (by decide)).trans (W6_arg0 m ρ c))

/-! ## The two weight arguments at the last boundary -/

theorem W8_arg1 : W8 m ρ c (Proc.devRef .tc main_arg1) = m ((c : Thread nD τ).loc main_arg1) :=
  (W8_of_ne m ρ c main_arg1 (by decide)).trans ((keep3 m ρ c main_arg1 (by decide)).trans
    ((W6_of_ne m ρ c main_arg1 (by decide)).trans ((keep2 m ρ c main_arg1 (by decide)).trans
      ((W4_of_ne m ρ c main_arg1 (by decide)).trans ((keep1 m ρ c main_arg1 (by decide)).trans
        ((W2_of_ne m ρ c main_arg1 (by decide)).trans
          ((keep0 m ρ c main_arg1 (by decide) (by decide) (by decide) (by decide) (by decide)).trans rfl)))))))
theorem W8_arg3 : W8 m ρ c (Proc.devRef .tc main_arg3) = m ((c : Thread nD τ).loc main_arg3) :=
  (W8_of_ne m ρ c main_arg3 (by decide)).trans ((keep3 m ρ c main_arg3 (by decide)).trans
    ((W6_of_ne m ρ c main_arg3 (by decide)).trans ((keep2 m ρ c main_arg3 (by decide)).trans
      ((W4_of_ne m ρ c main_arg3 (by decide)).trans ((keep1 m ρ c main_arg3 (by decide)).trans
        ((W2_of_ne m ρ c main_arg3 (by decide)).trans
          ((keep0 m ρ c main_arg3 (by decide) (by decide) (by decide) (by decide) (by decide)).trans rfl)))))))

/-! ## What the first stretch leaves -/

/-- The leaves' embedding rows. -/
theorem W1_v4 : (W1 m ρ c (Proc.devRef .tc main_v4) : S16384x256.Idx → EReal)
    = toArr2 (rows (aE m c) 5461 16384 (by norm_num)) := by
  have e : (W1 m ρ c (Proc.devRef .tc main_v4) : S16384x256.Idx → EReal)
      = extractStridedSlice S16384x256 ![5461, 0] (m ((c : Thread nD τ).loc main_arg0) : S21845x256.Idx → EReal)
          slices_S21845x256_S16384x256_5461_0 := by
    show StableHlo.after hostOps0 (W0 m ρ c) (Proc.devRef .tc main_v4) = _
    after_results
    try rfl
  rw [e]
  exact rowSlice_rows m c 5461 (by norm_num) _

/-- The input weights, through the change of format. -/
theorem W1_v2 : (W1 m ρ c (Proc.devRef .tc main_v2) : S256x1024.Idx → EReal) = toArr2 (aWx m c) := by
  have e : (W1 m ρ c (Proc.devRef .tc main_v2) : FVec Ideal S256x1024 .bf16)
      = (truncf (F := Ideal) .bf16 (m ((c : Thread nD τ).loc main_arg1) : FVec Ideal S256x1024 .f32) bitsLt_bf16_f32 : FVec Ideal S256x1024 .bf16) := by
    show StableHlo.after hostOps0 (W0 m ρ c) (Proc.devRef .tc main_v2) = _
    after_results
    try rfl
  rw [e]
  exact (toArr2_cur2 _).symm

/-- The recurrent weights, through the change of format. -/
theorem W1_v3 : (W1 m ρ c (Proc.devRef .tc main_v3) : S256x1024.Idx → EReal) = toArr2 (aWh m c) := by
  have e : (W1 m ρ c (Proc.devRef .tc main_v3) : FVec Ideal S256x1024 .bf16)
      = (truncf (F := Ideal) .bf16 (m ((c : Thread nD τ).loc main_arg3) : FVec Ideal S256x1024 .f32) bitsLt_bf16_f32 : FVec Ideal S256x1024 .bf16) := by
    show StableHlo.after hostOps0 (W0 m ρ c) (Proc.devRef .tc main_v3) = _
    after_results
    try rfl
  rw [e]
  exact (toArr2_cur2 _).symm

/-- The one bias row: the two biases added. -/
theorem W1_v1 (u : Fin 1) (q : Fin 1024) :
    (W1 m ρ c (Proc.devRef .tc main_v1) : S1x1024.Idx → EReal) (ix2 u q) = aBx m c q + aBh m c q := by
  have e : (W1 m ρ c (Proc.devRef .tc main_v1) : FVec Ideal S1x1024 .f32)
      = (shapeCast S1x1024 (addf (F := Ideal) (m ((c : Thread nD τ).loc main_arg2) : FVec Ideal S1024 .f32)
          (m ((c : Thread nD τ).loc main_arg4) : FVec Ideal S1024 .f32)) shapeCasts_S1024_S1x1024 : FVec Ideal S1x1024 .f32) := by
    show StableHlo.after hostOps0 (W0 m ρ c) (Proc.devRef .tc main_v1) = _
    after_results
    try rfl
  rw [e, shapeCast_a_1a_apply]
  rfl

end Cert.KernelIdeal.Bound

end
-- ==== Proof.Pay.lean ====
/-
  What one grid point's body computes, read entry by entry: the values the leaf kernel and the three level kernels store
  (their cell-state and hidden-state blocks) as the Tree-LSTM cell of the point's input blocks. Row r of a block of tm
  parent nodes has its four children in rows 4r .. 4r+3 of the block of 4·tm child rows; the pre-activation row is the
  embedding row times wx, plus (for a level kernel) the children's hidden-state sum times wh, plus the one bias row the
  kernel is handed (the two biases already added).
-/
import proofs.«148979_j61349312856636_2_alg».proof.Proof.Gen.KernelIdeal.Skeleton
import proofs.«148979_j61349312856636_2_alg».proof.Proof.TreeSpec
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Pay

open Idealize.ShloMosaic Idealize.ShloMosaic.ValueIdx Cert.KernelIdeal Cert.KernelIdeal.Gen Cert.TreeSpec

/-- Row r of a leaf block's pre-activation: the embedding row times wx plus the bias row. -/
def iouLeafBlk {n : ℕ} (x0 : (⟨2, ![n, 256]⟩ : Shape).Idx → EReal) (wx : (⟨2, ![256, 1024]⟩ : Shape).Idx → EReal)
    (b : (⟨2, ![1, 1024]⟩ : Shape).Idx → EReal) (r : Fin n) (q : Fin 1024) : EReal :=
  proj (cur2 wx) (cur2 x0 r) q + cur2 b 0 q

/-- Row r of a level block's pre-activation: the embedding row times wx, plus the sum of the four child hidden-state
    rows times wh, plus the bias row. -/
def iouNodeBlk {n m : ℕ} (hm : m = 4 * n) (x0 : (⟨2, ![n, 256]⟩ : Shape).Idx → EReal)
    (wx wh : (⟨2, ![256, 1024]⟩ : Shape).Idx → EReal) (b : (⟨2, ![1, 1024]⟩ : Shape).Idx → EReal)
    (hp : (⟨2, ![m, 256]⟩ : Shape).Idx → EReal) (r : Fin n) (q : Fin 1024) : EReal :=
  (proj (cur2 wx) (cur2 x0 r) q + proj (cur2 wh) (sum4 hm (cur2 hp) r) q) + cur2 b 0 q

/-! ## The operations of a body, each read at one entry -/

/-- The logistic function applied entry by entry. -/
private theorem logistic_at {s : Shape} (a : FVec Ideal s .f32) (i : s.Idx) : logistic a i = sgm (a i) := rfl

/-- The hyperbolic tangent applied entry by entry. -/
private theorem tanh_at {s : Shape} (a : FVec Ideal s .f32) (i : s.Idx) : tanh a i = Ideal.tanh (a i) := rfl

/-- A product of an m×256 matrix A by a 256×1024 matrix B, accumulated into zero, at row a and column b: the row of A
    (known entry by entry as e) times B. -/
private theorem matmul0_proj {m : ℕ} {φ₁ φ₂ : FTy}
    (D : DotDims ⟨2, ![m, 256]⟩ ⟨2, ![256, 1024]⟩ ⟨2, ![m, 1024]⟩) (hD : D = DotDims.plain m 256 1024)
    (A : FVec Ideal ⟨2, ![m, 256]⟩ φ₁) (B : FVec Ideal ⟨2, ![256, 1024]⟩ φ₂) (a : Fin m) (b : Fin 1024)
    (e : Fin 256 → EReal) (he : ∀ c : Fin 256, A (ix2 a c) = e c) :
    matmul D none A B (constant (F := Ideal) ⟨2, ![m, 1024]⟩ .f32 0x00000000#32) (ix2 a b) = proj (cur2 B) e b := by
  subst hD
  rw [matmul_zero_eq_dotGeneral]
  refine (StackMember.dotGeneral_plain_apply none A B a b).trans ?_
  exact Finset.sum_congr rfl fun c _ => by rw [he c]; rfl

/-- The sum over the middle axis of a block of m = 4n rows regrouped as n × 4 × 256: at parent row r and column k, the
    sum of rows 4r .. 4r+3 of the block at column k. -/
private theorem childSum_apply {n m : ℕ} (hm : m = 4 * n) (x : FVec Ideal ⟨2, ![m, 256]⟩ .f32)
    (h0 : (⟨2, ![m, 256]⟩ : Shape).ShapeCasts ⟨2, ![m, 256]⟩)
    (hc : (⟨2, ![m, 256]⟩ : Shape).ShapeCasts ⟨3, ![n, 4, 256]⟩)
    (hr : (⟨3, ![n, 4, 256]⟩ : Shape).Reduces [1] ⟨2, ![n, 256]⟩)
    (hφ : FKind.Formats .f32) (hacc : (0x00000000#32 : BitVec 32) = 0x00000000#32) (r : Fin n) (k : Fin 256) :
    multiReduction (F := Ideal) .add [1] ⟨2, ![n, 256]⟩
        (shapeCast ⟨3, ![n, 4, 256]⟩ (shapeCast ⟨2, ![m, 256]⟩ x h0) hc) 0x00000000#32 hr hφ hacc (ix2 r k)
      = sum4 hm (cur2 x) r k := by
  rw [shapeCast_self x h0]
  refine (Ideal.multiReduction_add_single (shapeCast ⟨3, ![n, 4, 256]⟩ x hc) 0x00000000#32 hr hφ hacc (ix2 r k)).trans ?_
  unfold sum4 cur2
  refine Finset.sum_congr rfl fun (a : Fin 4) _ => ?_
  have hl : hr.lift (ix2 r k) a = ix3 r a k := by
    funext d
    refine Fin.ext ?_
    match d with
    | ⟨0, _⟩ => rfl
    | ⟨1, _⟩ => rfl
    | ⟨2, _⟩ => rfl
  rw [hl]
  refine shapeCast_apply x hc (ix3 r a k) (ix2 ⟨4 * r.val + a.val, by have := r.isLt; have := a.isLt; omega⟩ k) ?_
  rw [Shape.rowMajor_val_two, Shape.rowMajor_val_three]
  show (4 * r.val + a.val) * 256 + k.val = (r.val * 4 + a.val) * 256 + k.val
  omega

/-! ## The pre-activation rows -/

/-- The leaf body's pre-activation block at row r and column q. -/
private theorem preLeaf_apply {n : ℕ} (D : DotDims ⟨2, ![n, 256]⟩ ⟨2, ![256, 1024]⟩ ⟨2, ![n, 1024]⟩)
    (hD : D = DotDims.plain n 256 1024)
    (x0 : FVec Ideal ⟨2, ![n, 256]⟩ .f32) (wx : FVec Ideal ⟨2, ![256, 1024]⟩ .bf16) (b : FVec Ideal ⟨2, ![1, 1024]⟩ .f32)
    (hx : (⟨2, ![n, 256]⟩ : Shape).ShapeCasts ⟨2, ![n, 256]⟩) (hlt : FTy.bits .bf16 < FTy.bits .f32)
    (hw : (⟨2, ![256, 1024]⟩ : Shape).ShapeCasts ⟨2, ![256, 1024]⟩)
    (hb1 : (⟨2, ![1, 1024]⟩ : Shape).ShapeCasts ⟨2, ![1, 1024]⟩)
    (hb : (⟨2, ![1, 1024]⟩ : Shape).Broadcasts ⟨2, ![n, 1024]⟩) (r : Fin n) (q : Fin 1024) :
    addf (matmul D none (truncf .bf16 (shapeCast ⟨2, ![n, 256]⟩ x0 hx) hlt) (shapeCast ⟨2, ![256, 1024]⟩ wx hw)
            (constant (F := Ideal) ⟨2, ![n, 1024]⟩ .f32 0x00000000#32))
         (broadcastTo ⟨2, ![n, 1024]⟩ (shapeCast ⟨2, ![1, 1024]⟩ b hb1) hb) (ix2 r q)
      = iouLeafBlk x0 wx b r q := by
  rw [shapeCast_self x0 hx, shapeCast_self wx hw, shapeCast_self b hb1, addf_apply]
  unfold iouLeafBlk
  refine congrArg₂ (· + ·) ?_ ?_
  · exact matmul0_proj D hD (truncf .bf16 x0 hlt) wx r q (cur2 x0 r) fun _ => rfl
  · exact broadcastTo_1b_ab_apply b hb r q

/-- A level body's pre-activation block at row r and column q. -/
private theorem preNode_apply {n m : ℕ} (hm : m = 4 * n) (D : DotDims ⟨2, ![n, 256]⟩ ⟨2, ![256, 1024]⟩ ⟨2, ![n, 1024]⟩)
    (hD : D = DotDims.plain n 256 1024)
    (x0 : FVec Ideal ⟨2, ![n, 256]⟩ .f32) (wx : FVec Ideal ⟨2, ![256, 1024]⟩ .bf16) (hp : FVec Ideal ⟨2, ![m, 256]⟩ .f32)
    (wh : FVec Ideal ⟨2, ![256, 1024]⟩ .bf16) (b : FVec Ideal ⟨2, ![1, 1024]⟩ .f32)
    (hx : (⟨2, ![n, 256]⟩ : Shape).ShapeCasts ⟨2, ![n, 256]⟩) (hlt : FTy.bits .bf16 < FTy.bits .f32)
    (hw : (⟨2, ![256, 1024]⟩ : Shape).ShapeCasts ⟨2, ![256, 1024]⟩)
    (h0 : (⟨2, ![m, 256]⟩ : Shape).ShapeCasts ⟨2, ![m, 256]⟩)
    (hc : (⟨2, ![m, 256]⟩ : Shape).ShapeCasts ⟨3, ![n, 4, 256]⟩)
    (hr : (⟨3, ![n, 4, 256]⟩ : Shape).Reduces [1] ⟨2, ![n, 256]⟩)
    (hφ : FKind.Formats .f32) (hacc : (0x00000000#32 : BitVec 32) = 0x00000000#32)
    (hwh : (⟨2, ![256, 1024]⟩ : Shape).ShapeCasts ⟨2, ![256, 1024]⟩)
    (hb1 : (⟨2, ![1, 1024]⟩ : Shape).ShapeCasts ⟨2, ![1, 1024]⟩)
    (hb : (⟨2, ![1, 1024]⟩ : Shape).Broadcasts ⟨2, ![n, 1024]⟩) (r : Fin n) (q : Fin 1024) :
    addf
      (addf
        (matmul D none (truncf .bf16 (shapeCast ⟨2, ![n, 256]⟩ x0 hx) hlt) (shapeCast ⟨2, ![256, 1024]⟩ wx hw)
          (constant (F := Ideal) ⟨2, ![n, 1024]⟩ .f32 0x00000000#32))
        (matmul D none
          (truncf .bf16
            (multiReduction (F := Ideal) .add [1] ⟨2, ![n, 256]⟩
              (shapeCast ⟨3, ![n, 4, 256]⟩ (shapeCast ⟨2, ![m, 256]⟩ hp h0) hc) 0x00000000#32 hr hφ hacc) hlt)
          (shapeCast ⟨2, ![256, 1024]⟩ wh hwh) (constant (F := Ideal) ⟨2, ![n, 1024]⟩ .f32 0x00000000#32)))
      (broadcastTo ⟨2, ![n, 1024]⟩ (shapeCast ⟨2, ![1, 1024]⟩ b hb1) hb) (ix2 r q)
      = iouNodeBlk hm x0 wx wh b hp r q := by
  rw [shapeCast_self x0 hx, shapeCast_self wx hw, shapeCast_self wh hwh, shapeCast_self b hb1, addf_apply, addf_apply]
  unfold iouNodeBlk
  refine congrArg₂ (· + ·) (congrArg₂ (· + ·) ?_ ?_) ?_
  · exact matmul0_proj D hD (truncf .bf16 x0 hlt) wx r q (cur2 x0 r) fun _ => rfl
  · refine matmul0_proj D hD _ wh r q (sum4 hm (cur2 hp) r) fun c => ?_
    exact childSum_apply hm hp h0 hc hr hφ hacc r c
  · exact broadcastTo_1b_ab_apply b hb r q

/-! ## The cell and hidden states from the pre-activation block -/

section Gates

variable {n : ℕ} (P : FVec Ideal ⟨2, ![n, 1024]⟩ .f32) (iou : Fin 1024 → EReal) (r : Fin n)
  (hP : ∀ q : Fin 1024, P (ix2 r q) = iou q)

include hP

/-- The gate that starts at column o of the pre-activation block, at row r and column j of the gate. -/
private theorem gate_apply (o : ℕ) (ho : o ≤ 768) (s : (⟨2, ![n, 1024]⟩ : Shape).Slices ![0, o] ⟨2, ![n, 256]⟩) (j : Fin 256) :
    extractStridedSlice ⟨2, ![n, 256]⟩ ![0, o] P s (ix2 r j) = iou (col o ho j) :=
  (slice2_axis1_eq o P s r j).trans (hP _)

/-- A leaf's cell state: σ(i) · tanh(u). -/
private theorem cellLeaf_apply (s0 : (⟨2, ![n, 1024]⟩ : Shape).Slices ![0, 0] ⟨2, ![n, 256]⟩)
    (s2 : (⟨2, ![n, 1024]⟩ : Shape).Slices ![0, 512] ⟨2, ![n, 256]⟩) (j : Fin 256) :
    mulf (logistic (extractStridedSlice ⟨2, ![n, 256]⟩ ![0, 0] P s0))
        (tanh (extractStridedSlice ⟨2, ![n, 256]⟩ ![0, 512] P s2)) (ix2 r j)
      = cellLeaf iou j := by
  rw [mulf_apply, logistic_at, tanh_at, gate_apply P iou r hP 0 (by omega) s0 j, gate_apply P iou r hP 512 (by omega) s2 j]
  rfl

/-- An internal node's cell state: σ(i) · tanh(u) + σ(f) · (the children's cell-state sum). -/
private theorem cellNode_apply {m : ℕ} (hm : m = 4 * n) (s0 : (⟨2, ![n, 1024]⟩ : Shape).Slices ![0, 0] ⟨2, ![n, 256]⟩)
    (s2 : (⟨2, ![n, 1024]⟩ : Shape).Slices ![0, 512] ⟨2, ![n, 256]⟩)
    (s3 : (⟨2, ![n, 1024]⟩ : Shape).Slices ![0, 768] ⟨2, ![n, 256]⟩)
    (cp : FVec Ideal ⟨2, ![m, 256]⟩ .f32)
    (h0 : (⟨2, ![m, 256]⟩ : Shape).ShapeCasts ⟨2, ![m, 256]⟩)
    (hc : (⟨2, ![m, 256]⟩ : Shape).ShapeCasts ⟨3, ![n, 4, 256]⟩)
    (hr : (⟨3, ![n, 4, 256]⟩ : Shape).Reduces [1] ⟨2, ![n, 256]⟩)
    (hφ : FKind.Formats .f32) (hacc : (0x00000000#32 : BitVec 32) = 0x00000000#32) (j : Fin 256) :
    addf
      (mulf (logistic (extractStridedSlice ⟨2, ![n, 256]⟩ ![0, 0] P s0))
        (tanh (extractStridedSlice ⟨2, ![n, 256]⟩ ![0, 512] P s2)))
      (mulf (logistic (extractStridedSlice ⟨2, ![n, 256]⟩ ![0, 768] P s3))
        (multiReduction (F := Ideal) .add [1] ⟨2, ![n, 256]⟩
          (shapeCast ⟨3, ![n, 4, 256]⟩ (shapeCast ⟨2, ![m, 256]⟩ cp h0) hc) 0x00000000#32 hr hφ hacc)) (ix2 r j)
      = cellNode iou (sum4 hm (cur2 cp) r) j := by
  rw [addf_apply, mulf_apply, mulf_apply, logistic_at, logistic_at, tanh_at,
    gate_apply P iou r hP 0 (by omega) s0 j, gate_apply P iou r hP 512 (by omega) s2 j,
    gate_apply P iou r hP 768 (by omega) s3 j, childSum_apply hm cp h0 hc hr hφ hacc r j]
  rfl

/-- A node's hidden state: σ(o) · tanh(c), c its cell-state block known entry by entry. -/
private theorem hid_apply (s1 : (⟨2, ![n, 1024]⟩ : Shape).Slices ![0, 256] ⟨2, ![n, 256]⟩)
    (C : FVec Ideal ⟨2, ![n, 256]⟩ .f32) (c : Fin 256 → EReal) (hC : ∀ j : Fin 256, C (ix2 r j) = c j) (j : Fin 256) :
    mulf (logistic (extractStridedSlice ⟨2, ![n, 256]⟩ ![0, 256] P s1)) (tanh C) (ix2 r j) = hid iou c j := by
  rw [mulf_apply, logistic_at, tanh_at, gate_apply P iou r hP 256 (by omega) s1 j, hC j]
  rfl

end Gates

/-! ## The pre-activation block of each kernel -/

/-- The pre-activation block of the leaf kernel. -/
private theorem k0_pay1_apply (v0 : Vec Ideal S1024x256 .f32) (v3 : Vec Ideal S256x1024 .bf16) (v6 : Vec Ideal S1x1024 .f32)
    (r : Fin 1024) (q : Fin 1024) : k0_pay1 v0 v3 v6 (ix2 r q) = iouLeafBlk v0 v3 v6 r q := by
  unfold k0_pay1
  exact preLeaf_apply dot_S1024x256_S256x1024_S1024x1024_1_0_0_1_n_n rfl v0 v3 v6
    shapeCasts_S1024x256_S1024x256 bitsLt_bf16_f32 shapeCasts_S256x1024_S256x1024 shapeCasts_S1x1024_S1x1024
    broadcasts_S1x1024_S1024x1024 r q

/-- The pre-activation block of the level kernel on blocks of 512 parent nodes (launch 1). -/
private theorem k1_pay1_apply (v0 : Vec Ideal S512x256 .f32) (v3 : Vec Ideal S256x1024 .bf16) (v6 : Vec Ideal S2048x256 .f32)
    (v15 : Vec Ideal S256x1024 .bf16) (v19 : Vec Ideal S1x1024 .f32) (r : Fin 512) (q : Fin 1024) :
    k1_pay1 v0 v3 v6 v15 v19 (ix2 r q) = iouNodeBlk (by norm_num : 2048 = 4 * 512) v0 v3 v15 v19 v6 r q := by
  unfold k1_pay1
  exact preNode_apply (by norm_num : 2048 = 4 * 512) dot_S512x256_S256x1024_S512x1024_1_0_0_1_n_n rfl v0 v3 v6 v15 v19
    shapeCasts_S512x256_S512x256 bitsLt_bf16_f32 shapeCasts_S256x1024_S256x1024 shapeCasts_S2048x256_S2048x256
    shapeCasts_S2048x256_S512x4x256 reduces_S512x4x256_S512x256 (.inl rfl) rfl shapeCasts_S256x1024_S256x1024
    shapeCasts_S1x1024_S1x1024 broadcasts_S1x1024_S512x1024 r q

/-- The pre-activation block of the level kernel on blocks of 512 parent nodes (launch 2). -/
private theorem k2_pay1_apply (v0 : Vec Ideal S512x256 .f32) (v3 : Vec Ideal S256x1024 .bf16) (v6 : Vec Ideal S2048x256 .f32)
    (v15 : Vec Ideal S256x1024 .bf16) (v19 : Vec Ideal S1x1024 .f32) (r : Fin 512) (q : Fin 1024) :
    k2_pay1 v0 v3 v6 v15 v19 (ix2 r q) = iouNodeBlk (by norm_num : 2048 = 4 * 512) v0 v3 v15 v19 v6 r q := by
  unfold k2_pay1
  exact preNode_apply (by norm_num : 2048 = 4 * 512) dot_S512x256_S256x1024_S512x1024_1_0_0_1_n_n rfl v0 v3 v6 v15 v19
    shapeCasts_S512x256_S512x256 bitsLt_bf16_f32 shapeCasts_S256x1024_S256x1024 shapeCasts_S2048x256_S2048x256
    shapeCasts_S2048x256_S512x4x256 reduces_S512x4x256_S512x256 (.inl rfl) rfl shapeCasts_S256x1024_S256x1024
    shapeCasts_S1x1024_S1x1024 broadcasts_S1x1024_S512x1024 r q

/-- The pre-activation block of the level kernel on blocks of 256 parent nodes (launch 3). -/
private theorem k3_pay1_apply (v0 : Vec Ideal S256x256 .f32) (v3 : Vec Ideal S256x1024 .bf16) (v6 : Vec Ideal S1024x256 .f32)
    (v15 : Vec Ideal S256x1024 .bf16) (v19 : Vec Ideal S1x1024 .f32) (r : Fin 256) (q : Fin 1024) :
    k3_pay1 v0 v3 v6 v15 v19 (ix2 r q) = iouNodeBlk (by norm_num : 1024 = 4 * 256) v0 v3 v15 v19 v6 r q := by
  unfold k3_pay1
  exact preNode_apply (by norm_num : 1024 = 4 * 256) dot_S256x256_S256x1024_S256x1024_1_0_0_1_n_n rfl v0 v3 v6 v15 v19
    shapeCasts_S256x256_S256x256 bitsLt_bf16_f32 shapeCasts_S256x1024_S256x1024 shapeCasts_S1024x256_S1024x256
    shapeCasts_S1024x256_S256x4x256 reduces_S256x4x256_S256x256 (.inl rfl) rfl shapeCasts_S256x1024_S256x1024
    shapeCasts_S1x1024_S1x1024 broadcasts_S1x1024_S256x1024 r q

/-! ## The leaf kernel -/

/-- The cell-state block the leaf kernel stores. -/
theorem k0_pay2_apply (v0 : Vec Ideal S1024x256 .f32) (v3 : Vec Ideal S256x1024 .bf16) (v6 : Vec Ideal S1x1024 .f32)
    (r : Fin 1024) (j : Fin 256) :
    k0_pay2 v0 v3 v6 (ix2 r j) = cellLeaf (iouLeafBlk v0 v3 v6 r) j := by
  unfold k0_pay2
  exact cellLeaf_apply (k0_pay1 v0 v3 v6) (iouLeafBlk v0 v3 v6 r) r (k0_pay1_apply v0 v3 v6 r)
    slices_S1024x1024_o0_0_S1024x256 slices_S1024x1024_o0_512_S1024x256 j

/-- The hidden-state block the leaf kernel stores. -/
theorem k0_pay3_apply (v0 : Vec Ideal S1024x256 .f32) (v3 : Vec Ideal S256x1024 .bf16) (v6 : Vec Ideal S1x1024 .f32)
    (r : Fin 1024) (j : Fin 256) :
    k0_pay3 v0 v3 v6 (ix2 r j) = hid (iouLeafBlk v0 v3 v6 r) (cellLeaf (iouLeafBlk v0 v3 v6 r)) j := by
  unfold k0_pay3
  exact hid_apply (k0_pay1 v0 v3 v6) (iouLeafBlk v0 v3 v6 r) r (k0_pay1_apply v0 v3 v6 r)
    slices_S1024x1024_o0_256_S1024x256 (k0_pay2 v0 v3 v6) (cellLeaf (iouLeafBlk v0 v3 v6 r))
    (fun j => k0_pay2_apply v0 v3 v6 r j) j

/-! ## The level kernels (blocks of 512, 512 and 256 parent nodes) -/

theorem k1_pay2_apply (v0 : Vec Ideal S512x256 .f32) (v3 : Vec Ideal S256x1024 .bf16) (v6 v8 : Vec Ideal S2048x256 .f32)
    (v15 : Vec Ideal S256x1024 .bf16) (v19 : Vec Ideal S1x1024 .f32) (r : Fin 512) (j : Fin 256) :
    k1_pay2 v0 v3 v6 v8 v15 v19 (ix2 r j)
      = cellNode (iouNodeBlk (by norm_num : 2048 = 4 * 512) v0 v3 v15 v19 v6 r)
          (sum4 (by norm_num : 2048 = 4 * 512) (cur2 v8) r) j := by
  unfold k1_pay2
  exact cellNode_apply (k1_pay1 v0 v3 v6 v15 v19) (iouNodeBlk (by norm_num : 2048 = 4 * 512) v0 v3 v15 v19 v6 r) r
    (k1_pay1_apply v0 v3 v6 v15 v19 r) (by norm_num : 2048 = 4 * 512)
    slices_S512x1024_o0_0_S512x256 slices_S512x1024_o0_512_S512x256 slices_S512x1024_o0_768_S512x256 v8
    shapeCasts_S2048x256_S2048x256 shapeCasts_S2048x256_S512x4x256 reduces_S512x4x256_S512x256 (.inl rfl) rfl j

theorem k1_pay3_apply (v0 : Vec Ideal S512x256 .f32) (v3 : Vec Ideal S256x1024 .bf16) (v6 v8 : Vec Ideal S2048x256 .f32)
    (v15 : Vec Ideal S256x1024 .bf16) (v19 : Vec Ideal S1x1024 .f32) (r : Fin 512) (j : Fin 256) :
    k1_pay3 v0 v3 v6 v8 v15 v19 (ix2 r j)
      = hid (iouNodeBlk (by norm_num : 2048 = 4 * 512) v0 v3 v15 v19 v6 r)
          (cellNode (iouNodeBlk (by norm_num : 2048 = 4 * 512) v0 v3 v15 v19 v6 r)
            (sum4 (by norm_num : 2048 = 4 * 512) (cur2 v8) r)) j := by
  unfold k1_pay3
  exact hid_apply (k1_pay1 v0 v3 v6 v15 v19) (iouNodeBlk (by norm_num : 2048 = 4 * 512) v0 v3 v15 v19 v6 r) r
    (k1_pay1_apply v0 v3 v6 v15 v19 r) slices_S512x1024_o0_256_S512x256 (k1_pay2 v0 v3 v6 v8 v15 v19)
    (cellNode (iouNodeBlk (by norm_num : 2048 = 4 * 512) v0 v3 v15 v19 v6 r)
      (sum4 (by norm_num : 2048 = 4 * 512) (cur2 v8) r))
    (fun j => k1_pay2_apply v0 v3 v6 v8 v15 v19 r j) j

theorem k2_pay2_apply (v0 : Vec Ideal S512x256 .f32) (v3 : Vec Ideal S256x1024 .bf16) (v6 v8 : Vec Ideal S2048x256 .f32)
    (v15 : Vec Ideal S256x1024 .bf16) (v19 : Vec Ideal S1x1024 .f32) (r : Fin 512) (j : Fin 256) :
    k2_pay2 v0 v3 v6 v8 v15 v19 (ix2 r j)
      = cellNode (iouNodeBlk (by norm_num : 2048 = 4 * 512) v0 v3 v15 v19 v6 r)
          (sum4 (by norm_num : 2048 = 4 * 512) (cur2 v8) r) j := by
  unfold k2_pay2
  exact cellNode_apply (k2_pay1 v0 v3 v6 v15 v19) (iouNodeBlk (by norm_num : 2048 = 4 * 512) v0 v3 v15 v19 v6 r) r
    (k2_pay1_apply v0 v3 v6 v15 v19 r) (by norm_num : 2048 = 4 * 512)
    slices_S512x1024_o0_0_S512x256 slices_S512x1024_o0_512_S512x256 slices_S512x1024_o0_768_S512x256 v8
    shapeCasts_S2048x256_S2048x256 shapeCasts_S2048x256_S512x4x256 reduces_S512x4x256_S512x256 (.inl rfl) rfl j

theorem k2_pay3_apply (v0 : Vec Ideal S512x256 .f32) (v3 : Vec Ideal S256x1024 .bf16) (v6 v8 : Vec Ideal S2048x256 .f32)
    (v15 : Vec Ideal S256x1024 .bf16) (v19 : Vec Ideal S1x1024 .f32) (r : Fin 512) (j : Fin 256) :
    k2_pay3 v0 v3 v6 v8 v15 v19 (ix2 r j)
      = hid (iouNodeBlk (by norm_num : 2048 = 4 * 512) v0 v3 v15 v19 v6 r)
          (cellNode (iouNodeBlk (by norm_num : 2048 = 4 * 512) v0 v3 v15 v19 v6 r)
            (sum4 (by norm_num : 2048 = 4 * 512) (cur2 v8) r)) j := by
  unfold k2_pay3
  exact hid_apply (k2_pay1 v0 v3 v6 v15 v19) (iouNodeBlk (by norm_num : 2048 = 4 * 512) v0 v3 v15 v19 v6 r) r
    (k2_pay1_apply v0 v3 v6 v15 v19 r) slices_S512x1024_o0_256_S512x256 (k2_pay2 v0 v3 v6 v8 v15 v19)
    (cellNode (iouNodeBlk (by norm_num : 2048 = 4 * 512) v0 v3 v15 v19 v6 r)
      (sum4 (by norm_num : 2048 = 4 * 512) (cur2 v8) r))
    (fun j => k2_pay2_apply v0 v3 v6 v8 v15 v19 r j) j

theorem k3_pay2_apply (v0 : Vec Ideal S256x256 .f32) (v3 : Vec Ideal S256x1024 .bf16) (v6 v8 : Vec Ideal S1024x256 .f32)
    (v15 : Vec Ideal S256x1024 .bf16) (v19 : Vec Ideal S1x1024 .f32) (r : Fin 256) (j : Fin 256) :
    k3_pay2 v0 v3 v6 v8 v15 v19 (ix2 r j)
      = cellNode (iouNodeBlk (by norm_num : 1024 = 4 * 256) v0 v3 v15 v19 v6 r)
          (sum4 (by norm_num : 1024 = 4 * 256) (cur2 v8) r) j := by
  unfold k3_pay2
  exact cellNode_apply (k3_pay1 v0 v3 v6 v15 v19) (iouNodeBlk (by norm_num : 1024 = 4 * 256) v0 v3 v15 v19 v6 r) r
    (k3_pay1_apply v0 v3 v6 v15 v19 r) (by norm_num : 1024 = 4 * 256)
    slices_S256x1024_o0_0_S256x256 slices_S256x1024_o0_512_S256x256 slices_S256x1024_o0_768_S256x256 v8
    shapeCasts_S1024x256_S1024x256 shapeCasts_S1024x256_S256x4x256 reduces_S256x4x256_S256x256 (.inl rfl) rfl j

theorem k3_pay3_apply (v0 : Vec Ideal S256x256 .f32) (v3 : Vec Ideal S256x1024 .bf16) (v6 v8 : Vec Ideal S1024x256 .f32)
    (v15 : Vec Ideal S256x1024 .bf16) (v19 : Vec Ideal S1x1024 .f32) (r : Fin 256) (j : Fin 256) :
    k3_pay3 v0 v3 v6 v8 v15 v19 (ix2 r j)
      = hid (iouNodeBlk (by norm_num : 1024 = 4 * 256) v0 v3 v15 v19 v6 r)
          (cellNode (iouNodeBlk (by norm_num : 1024 = 4 * 256) v0 v3 v15 v19 v6 r)
            (sum4 (by norm_num : 1024 = 4 * 256) (cur2 v8) r)) j := by
  unfold k3_pay3
  exact hid_apply (k3_pay1 v0 v3 v6 v15 v19) (iouNodeBlk (by norm_num : 1024 = 4 * 256) v0 v3 v15 v19 v6 r) r
    (k3_pay1_apply v0 v3 v6 v15 v19 r) slices_S256x1024_o0_256_S256x256 (k3_pay2 v0 v3 v6 v8 v15 v19)
    (cellNode (iouNodeBlk (by norm_num : 1024 = 4 * 256) v0 v3 v15 v19 v6 r)
      (sum4 (by norm_num : 1024 = 4 * 256) (cur2 v8) r))
    (fun j => k3_pay2_apply v0 v3 v6 v8 v15 v19 r j) j

end Cert.KernelIdeal.Pay

end
-- ==== Proof.Blocks0.lean ====
/-
  The level of leaves (16384 nodes), block by block. The level is computed in 16 blocks of 1024 rows; block t holds rows
  1024·t .. 1024·t + 1023 of the leaves' embedding rows. The weight matrix and the bias row are read whole by every block.
  Each block's stored rows are the Tree-LSTM leaf cell of these inputs, and the 16 blocks tile the level's arrays, so the two
  arrays end as the leaves' hidden and cell states.
-/
import proofs.«148979_j61349312856636_2_alg».proof.Proof.Gen.KernelIdeal.Frame
import proofs.«148979_j61349312856636_2_alg».proof.Proof.Pay
import proofs.«148979_j61349312856636_2_alg».proof.Proof.TreeSpec
import Idealize.ShloMosaic.Lib.Pipeline.Value

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.TreeSpec

variable (V : (c : Dev nD) → (b : Ref sig .tc) → Buf (Elt Ideal) ((c : Thread nD τ).loc b))

theorem hz : (![0, 0] : Fin 2 → Nat) = fun _ => 0 := funext fun a => by fin_cases a <;> rfl

/-- Where each block sits: the embedding rows and the two stored arrays move one block of rows per step and stay at column
    block 0; the weight matrix and the bias row stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Each input block, entry by entry, as an entry of its array -/

/-- Row r of block t of the embedding rows is row 1024·t + r of the leaves' embedding rows. -/
theorem blk0 (c : Dev nD) (t : Fin cfg0.N) (r : Fin 1024) (k : Fin 256) (R : Fin 16384) (hR : R.val = t.val * 1024 + r.val) :
    (iblk0 V c 0 t : S1024x256.Idx → EReal) (ix2 r k) = (V c main_v4 : S16384x256.Idx → EReal) (ix2 R k) := by
  obtain ⟨e0, e1, -⟩ := idx_facts t
  show (V c main_v4 : S16384x256.Idx → EReal) (((cfg0.win 0).blk t).view.emb (ix2 r k)) = _
  refine congrArg _ ?_
  funext a; apply Fin.ext
  match a with
  | ⟨0, _⟩ => show win0_0.index t (0 : Fin 2) * 1024 + 1 * r.val = R.val; omega
  | ⟨1, _⟩ => show win0_0.index t (1 : Fin 2) * 256 + 1 * k.val = k.val; omega

/-- Every block of the weight matrix is the matrix. -/
theorem blk1 (c : Dev nD) (t : Fin cfg0.N) (k : Fin 256) (q : Fin 1024) :
    (iblk0 V c 1 t : S256x1024.Idx → EReal) (ix2 k q) = (V c main_v2 : S256x1024.Idx → EReal) (ix2 k q) := by
  obtain ⟨-, -, e0, e1, -⟩ := idx_facts t
  show (V c main_v2 : S256x1024.Idx → EReal) (((cfg0.win 1).blk t).view.emb (ix2 k q)) = _
  refine congrArg _ ?_
  funext a; apply Fin.ext
  match a with
  | ⟨0, _⟩ => show win0_1.index t (0 : Fin 2) * 256 + 1 * k.val = k.val; omega
  | ⟨1, _⟩ => show win0_1.index t (1 : Fin 2) * 1024 + 1 * q.val = q.val; omega

/-- Every block of the bias row is the bias row. -/
theorem blk2 (c : Dev nD) (t : Fin cfg0.N) (u : Fin 1) (q : Fin 1024) :
    (iblk0 V c 2 t : S1x1024.Idx → EReal) (ix2 u q) = (V c main_v1 : S1x1024.Idx → EReal) (ix2 u q) := by
  obtain ⟨-, -, -, -, e0, e1, -⟩ := idx_facts t
  show (V c main_v1 : S1x1024.Idx → EReal) (((cfg0.win 2).blk t).view.emb (ix2 u q)) = _
  refine congrArg _ ?_
  funext a; apply Fin.ext
  match a with
  | ⟨0, _⟩ => show win0_2.index t (0 : Fin 2) * 1 + 1 * u.val = u.val; omega
  | ⟨1, _⟩ => show win0_2.index t (1 : Fin 2) * 1024 + 1 * q.val = q.val; omega

/-! ## One stored row as the leaf cell -/

/-- A block's pre-activation row is the leaf's, once each block entry is read in its array: the two biases are added
    first, which the associative law of addition undoes. -/
theorem iouLeafBlk_eq {n : ℕ} (x0 : (⟨2, ![n, 256]⟩ : Shape).Idx → EReal) (wxA : (⟨2, ![256, 1024]⟩ : Shape).Idx → EReal)
    (b : (⟨2, ![1, 1024]⟩ : Shape).Idx → EReal) (r : Fin n) (wx : Fin 256 → Fin 1024 → EReal) (bx bh : Fin 1024 → EReal)
    (e : Fin 256 → EReal) (h0 : cur2 x0 r = e) (h1 : cur2 wxA = wx) (h3 : ∀ q, cur2 b 0 q = bx q + bh q) :
    iouLeafBlk x0 wxA b r = iouLeaf wx bx bh e := by
  funext q
  unfold iouLeafBlk
  rw [h0, h1, h3]
  exact iouLeaf_presummed wx bx bh e q

/-- The hidden state depends only on the pre-activation row. -/
theorem hid_cell_congr (iou iou' : Fin 1024 → EReal) (h1 : iou = iou') (j : Fin 256) :
    hid iou (cellLeaf iou) j = hid iou' (cellLeaf iou') j := by
  subst h1; rfl

/-- So does the cell state. -/
theorem cell_congr (iou iou' : Fin 1024 → EReal) (h1 : iou = iou') (j : Fin 256) : cellLeaf iou j = cellLeaf iou' j := by
  subst h1; rfl

section Point

variable (c : Dev nD) (E : Fin 16384 → Fin 256 → EReal) (wx : Fin 256 → Fin 1024 → EReal) (bx bh : Fin 1024 → EReal)

/-- The pre-activation row of row r of block t is that of leaf 1024·t + r. -/
theorem iou_blk
    (hE : (V c main_v4 : S16384x256.Idx → EReal) = toArr2 E) (hwx : (V c main_v2 : S256x1024.Idx → EReal) = toArr2 wx)
    (hb : ∀ (u : Fin 1) (q : Fin 1024), (V c main_v1 : S1x1024.Idx → EReal) (ix2 u q) = bx q + bh q)
    (t : Fin cfg0.N) (r : Fin 1024) (R : Fin 16384) (hR : R.val = t.val * 1024 + r.val) :
    iouLeafBlk (iblk0 V c 0 t : S1024x256.Idx → EReal) (iblk0 V c 1 t : S256x1024.Idx → EReal)
        (iblk0 V c 2 t : S1x1024.Idx → EReal) r
      = iouLeaf wx bx bh (E R) := by
  refine iouLeafBlk_eq _ _ _ r wx bx bh _ ?_ ?_ ?_
  · funext k
    show (iblk0 V c 0 t : S1024x256.Idx → EReal) (ix2 r k) = _
    rw [blk0 V c t r k R hR, hE]; rfl
  · funext k q
    show (iblk0 V c 1 t : S256x1024.Idx → EReal) (ix2 k q) = _
    rw [blk1 V c t k q, hwx]; rfl
  · intro q
    show (iblk0 V c 2 t : S1x1024.Idx → EReal) (ix2 0 q) = _
    rw [blk2 V c t 0 q, hb]

/-- The hidden state stored in row r, column j of block t is that of leaf 1024·t + r. -/
theorem point_h
    (hE : (V c main_v4 : S16384x256.Idx → EReal) = toArr2 E) (hwx : (V c main_v2 : S256x1024.Idx → EReal) = toArr2 wx)
    (hb : ∀ (u : Fin 1) (q : Fin 1024), (V c main_v1 : S1x1024.Idx → EReal) (ix2 u q) = bx q + bh q)
    (t : Fin cfg0.N) (r : Fin 1024) (j : Fin 256) (R : Fin 16384) (hR : R.val = t.val * 1024 + r.val) :
    k0_pay3 (iblk0 V c 0 t) (iblk0 V c 1 t) (iblk0 V c 2 t) (ix2 r j) = leafH wx bx bh E R j := by
  refine (k0_pay3_apply _ _ _ r j).trans ?_
  exact hid_cell_congr _ _ (iou_blk V c E wx bx bh hE hwx hb t r R hR) j

/-- The cell state stored in row r, column j of block t is that of leaf 1024·t + r. -/
theorem point_c
    (hE : (V c main_v4 : S16384x256.Idx → EReal) = toArr2 E) (hwx : (V c main_v2 : S256x1024.Idx → EReal) = toArr2 wx)
    (hb : ∀ (u : Fin 1) (q : Fin 1024), (V c main_v1 : S1x1024.Idx → EReal) (ix2 u q) = bx q + bh q)
    (t : Fin cfg0.N) (r : Fin 1024) (j : Fin 256) (R : Fin 16384) (hR : R.val = t.val * 1024 + r.val) :
    k0_pay2 (iblk0 V c 0 t) (iblk0 V c 1 t) (iblk0 V c 2 t) (ix2 r j) = leafC wx bx bh E R j := by
  refine (k0_pay2_apply _ _ _ r j).trans ?_
  exact cell_congr _ _ (iou_blk V c E wx bx bh hE hwx hb t r R hR) j

/-! ## What each block writes back, and the arrays after the last block -/

/-- Block t of the hidden-state array is written with the leaves' hidden states at rows 1024·t .. 1024·t + 1023. -/
theorem flushed_h
    (hE : (V c main_v4 : S16384x256.Idx → EReal) = toArr2 E) (hwx : (V c main_v2 : S256x1024.Idx → EReal) = toArr2 wx)
    (hb : ∀ (u : Fin 1) (q : Fin 1024), (V c main_v1 : S1x1024.Idx → EReal) (ix2 u q) = bx q + bh q)
    (t : Fin cfg0.N) :
    (dat0 V c).flushed 3 t = ((cfg0.win 3).blk t).view.read (Elt Ideal) (toArr2 (leafH wx bx bh E)) := by
  show (cfg0.win 3).cut (grid0.coords t) ((dat0 V c).after 3 t) = _
  rw [after0_3]
  unfold out0_3
  rw [View.canon_unit_zero hz]
  simp only [View.ld_unit_zero (S := S1024x256) hz, View.ld_unit_zero (S := S256x1024) hz,
    View.ld_unit_zero (S := S1x1024) hz]
  have ht : t.val < 16 := Nat.lt_of_lt_of_eq t.isLt N_0
  funext y
  obtain ⟨r, j, rfl⟩ : ∃ (r : Fin 1024) (j : Fin 256), y = ix2 r j := ⟨y 0, y 1, eq_ix2 (n0 := 1024) (n1 := 256) y⟩
  obtain ⟨R, hR⟩ : ∃ R : Fin 16384, R.val = t.val * 1024 + r.val := ⟨⟨t.val * 1024 + r.val, by have := r.isLt; omega⟩, rfl⟩
  have hemb : ((cfg0.win 3).blk t).view.emb (ix2 r j) = (ix2 R j : S16384x256.Idx) := by
    obtain ⟨-, -, -, -, -, -, e0, e1, -⟩ := idx_facts t
    funext a; apply Fin.ext
    match a with
    | ⟨0, _⟩ => show win0_3.index t (0 : Fin 2) * 1024 + 1 * r.val = R.val; omega
    | ⟨1, _⟩ => show win0_3.index t (1 : Fin 2) * 256 + 1 * j.val = j.val; omega
  show k0_pay3 (iblk0 V c 0 t) (iblk0 V c 1 t) (iblk0 V c 2 t) (ix2 r j)
    = toArr2 (leafH wx bx bh E) (((cfg0.win 3).blk t).view.emb (ix2 r j))
  rw [hemb]
  exact point_h V c E wx bx bh hE hwx hb t r j R hR

/-- Block t of the cell-state array is written with the leaves' cell states at rows 1024·t .. 1024·t + 1023. -/
theorem flushed_c
    (hE : (V c main_v4 : S16384x256.Idx → EReal) = toArr2 E) (hwx : (V c main_v2 : S256x1024.Idx → EReal) = toArr2 wx)
    (hb : ∀ (u : Fin 1) (q : Fin 1024), (V c main_v1 : S1x1024.Idx → EReal) (ix2 u q) = bx q + bh q)
    (t : Fin cfg0.N) :
    (dat0 V c).flushed 4 t = ((cfg0.win 4).blk t).view.read (Elt Ideal) (toArr2 (leafC wx bx bh E)) := by
  show (cfg0.win 4).cut (grid0.coords t) ((dat0 V c).after 4 t) = _
  rw [after0_4]
  unfold out0_4
  rw [View.canon_unit_zero hz]
  simp only [View.ld_unit_zero (S := S1024x256) hz, View.ld_unit_zero (S := S256x1024) hz,
    View.ld_unit_zero (S := S1x1024) hz]
  have ht : t.val < 16 := Nat.lt_of_lt_of_eq t.isLt N_0
  funext y
  obtain ⟨r, j, rfl⟩ : ∃ (r : Fin 1024) (j : Fin 256), y = ix2 r j := ⟨y 0, y 1, eq_ix2 (n0 := 1024) (n1 := 256) y⟩
  obtain ⟨R, hR⟩ : ∃ R : Fin 16384, R.val = t.val * 1024 + r.val := ⟨⟨t.val * 1024 + r.val, by have := r.isLt; omega⟩, rfl⟩
  have hemb : ((cfg0.win 4).blk t).view.emb (ix2 r j) = (ix2 R j : S16384x256.Idx) := by
    obtain ⟨-, -, -, -, -, -, -, -, e0, e1⟩ := idx_facts t
    funext a; apply Fin.ext
    match a with
    | ⟨0, _⟩ => show win0_4.index t (0 : Fin 2) * 1024 + 1 * r.val = R.val; omega
    | ⟨1, _⟩ => show win0_4.index t (1 : Fin 2) * 256 + 1 * j.val = j.val; omega
  show k0_pay2 (iblk0 V c 0 t) (iblk0 V c 1 t) (iblk0 V c 2 t) (ix2 r j)
    = toArr2 (leafC wx bx bh E) (((cfg0.win 4).blk t).view.emb (ix2 r j))
  rw [hemb]
  exact point_c V c E wx bx bh hE hwx hb t r j R hR

end Point

/-- An index of the array lies in block t exactly when each coordinate lies in the block's range on its axis. -/
theorem mem_blk3 (t : Fin cfg0.N) (i : S16384x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v5_0).slice (win0_3.rect t)).set ↔ _
  rw [View.set_slice_whole, Rect.mem_set_unit]
  exact Iff.rfl

/-- The 16 blocks tile the array: row p lies in block p / 1024. -/
theorem cover3 (i : S16384x256.Idx) : ∃ t : Fin cfg0.N, (cfg0.win 3).flush t = true ∧ i ∈ ((cfg0.win 3).blk t).view.set := by
  have hi0 : (i 0).val < 16384 := (i 0).isLt
  have hi1 : (i 1).val < 256 := (i 1).isLt
  obtain ⟨t, ht⟩ : ∃ t : Fin cfg0.N, t.val = (i 0).val / 1024 :=
    ⟨⟨(i 0).val / 1024, by rw [show cfg0.N = 16 from N_0]; omega⟩, rfl⟩
  obtain ⟨-, -, -, -, -, -, e0, e1, -⟩ := idx_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- An index of the array lies in block t exactly when each coordinate lies in the block's range on its axis. -/
theorem mem_blk4 (t : Fin cfg0.N) (i : S16384x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v5_1).slice (win0_4.rect t)).set ↔ _
  rw [View.set_slice_whole, Rect.mem_set_unit]
  exact Iff.rfl

/-- The 16 blocks tile the array: row p lies in block p / 1024. -/
theorem cover4 (i : S16384x256.Idx) : ∃ t : Fin cfg0.N, (cfg0.win 4).flush t = true ∧ i ∈ ((cfg0.win 4).blk t).view.set := by
  have hi0 : (i 0).val < 16384 := (i 0).isLt
  have hi1 : (i 1).val < 256 := (i 1).isLt
  obtain ⟨t, ht⟩ : ∃ t : Fin cfg0.N, t.val = (i 0).val / 1024 :=
    ⟨⟨(i 0).val / 1024, by rw [show cfg0.N = 16 from N_0]; omega⟩, rfl⟩
  obtain ⟨-, -, -, -, -, -, -, -, e0, e1⟩ := idx_facts t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- After the last block the hidden-state array holds the leaves' hidden states. -/
theorem final_h (c : Dev nD) (E : Fin 16384 → Fin 256 → EReal) (wx : Fin 256 → Fin 1024 → EReal) (bx bh : Fin 1024 → EReal)
    (hE : (V c main_v4 : S16384x256.Idx → EReal) = toArr2 E) (hwx : (V c main_v2 : S256x1024.Idx → EReal) = toArr2 wx)
    (hb : ∀ (u : Fin 1) (q : Fin 1024), (V c main_v1 : S1x1024.Idx → EReal) (ix2 u q) = bx q + bh q) :
    ((dat0 V c).arrAt 3 cfg0.N : S16384x256.Idx → EReal) = toArr2 (leafH wx bx bh E) :=
  (dat0 V c).arrAt_eq_of_cover 3 _ (fun t _ => flushed_h V c E wx bx bh hE hwx hb t) cover3

/-- After the last block the cell-state array holds the leaves' cell states. -/
theorem final_c (c : Dev nD) (E : Fin 16384 → Fin 256 → EReal) (wx : Fin 256 → Fin 1024 → EReal) (bx bh : Fin 1024 → EReal)
    (hE : (V c main_v4 : S16384x256.Idx → EReal) = toArr2 E) (hwx : (V c main_v2 : S256x1024.Idx → EReal) = toArr2 wx)
    (hb : ∀ (u : Fin 1) (q : Fin 1024), (V c main_v1 : S1x1024.Idx → EReal) (ix2 u q) = bx q + bh q) :
    ((dat0 V c).arrAt 4 cfg0.N : S16384x256.Idx → EReal) = toArr2 (leafC wx bx bh E) :=
  (dat0 V c).arrAt_eq_of_cover 4 _ (fun t _ => flushed_c V c E wx bx bh hE hwx hb t) cover4

end Cert.KernelIdeal.Blocks0

end
-- ==== Proof.Blocks1.lean ====
/-
  The first level of internal nodes (4096 nodes over the 16384 leaves), block by block. The level is computed in 8 blocks of
  512 parent rows; block t holds parent rows 512·t .. 512·t + 511 and reads child rows 2048·t .. 2048·t + 2047, so parent
  row R = 512·t + r has its four children in rows 4·R + a = 2048·t + (4·r + a) of the level below. The two weight
  matrices and the bias row are read whole by every block. Each block's stored rows are the Tree-LSTM cell of these
  inputs, and the 8 blocks tile the level's arrays, so the two arrays end as the level's hidden and cell states.
-/
import proofs.«148979_j61349312856636_2_alg».proof.Proof.Gen.KernelIdeal.Frame
import proofs.«148979_j61349312856636_2_alg».proof.Proof.Pay
import proofs.«148979_j61349312856636_2_alg».proof.Proof.TreeSpec
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.TreeSpec

variable (V : (c : Dev nD) → (b : Ref sig .tc) → Buf (Elt Ideal) ((c : Thread nD τ).loc b))

theorem hz : (![0, 0] : Fin 2 → Nat) = fun _ => 0 := funext fun a => by fin_cases a <;> rfl

/-- The number of parent rows below is four times smaller than the number of child rows. -/
theorem hm : 16384 = 4 * 4096 := by norm_num

/-- Where each block sits: the embedding rows, the two child arrays and the two stored arrays move one block of rows per
    step and stay at column block 0; the weight matrices and the bias row stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## Each input block, entry by entry, as an entry of its array -/

/-- Row r of block t of the embedding rows is row 512·t + r of the level's embedding rows. -/
theorem blk0 (c : Dev nD) (t : Fin cfg1.N) (r : Fin 512) (k : Fin 256) (R : Fin 4096) (hR : R.val = t.val * 512 + r.val) :
    (iblk1 V c 0 t : S512x256.Idx → EReal) (ix2 r k) = (V c main_v6 : S4096x256.Idx → EReal) (ix2 R k) := by
  obtain ⟨e0, e1, -⟩ := idx_facts t
  show (V c main_v6 : S4096x256.Idx → EReal) (((cfg1.win 0).blk t).view.emb (ix2 r k)) = _
  refine congrArg _ ?_
  funext a; apply Fin.ext
  match a with
  | ⟨0, _⟩ => show win1_0.index t (0 : Fin 2) * 512 + 1 * r.val = R.val; omega
  | ⟨1, _⟩ => show win1_0.index t (1 : Fin 2) * 256 + 1 * k.val = k.val; omega

/-- Every block of the input weight matrix is the matrix. -/
theorem blk1 (c : Dev nD) (t : Fin cfg1.N) (k : Fin 256) (q : Fin 1024) :
    (iblk1 V c 1 t : S256x1024.Idx → EReal) (ix2 k q) = (V c main_v2 : S256x1024.Idx → EReal) (ix2 k q) := by
  obtain ⟨-, -, e0, e1, -⟩ := idx_facts t
  show (V c main_v2 : S256x1024.Idx → EReal) (((cfg1.win 1).blk t).view.emb (ix2 k q)) = _
  refine congrArg _ ?_
  funext a; apply Fin.ext
  match a with
  | ⟨0, _⟩ => show win1_1.index t (0 : Fin 2) * 256 + 1 * k.val = k.val; omega
  | ⟨1, _⟩ => show win1_1.index t (1 : Fin 2) * 1024 + 1 * q.val = q.val; omega

/-- Every block of the recurrent weight matrix is the matrix. -/
theorem blk2 (c : Dev nD) (t : Fin cfg1.N) (k : Fin 256) (q : Fin 1024) :
    (iblk1 V c 2 t : S256x1024.Idx → EReal) (ix2 k q) = (V c main_v3 : S256x1024.Idx → EReal) (ix2 k q) := by
  obtain ⟨-, -, -, -, e0, e1, -⟩ := idx_facts t
  show (V c main_v3 : S256x1024.Idx → EReal) (((cfg1.win 2).blk t).view.emb (ix2 k q)) = _
  refine congrArg _ ?_
  funext a; apply Fin.ext
  match a with
  | ⟨0, _⟩ => show win1_2.index t (0 : Fin 2) * 256 + 1 * k.val = k.val; omega
  | ⟨1, _⟩ => show win1_2.index t (1 : Fin 2) * 1024 + 1 * q.val = q.val; omega

/-- Every block of the bias row is the bias row. -/
theorem blk3 (c : Dev nD) (t : Fin cfg1.N) (u : Fin 1) (q : Fin 1024) :
    (iblk1 V c 3 t : S1x1024.Idx → EReal) (ix2 u q) = (V c main_v1 : S1x1024.Idx → EReal) (ix2 u q) := by
  obtain ⟨-, -, -, -, -, -, e0, e1, -⟩ := idx_facts t
  show (V c main_v1 : S1x1024.Idx → EReal) (((cfg1.win 3).blk t).view.emb (ix2 u q)) = _
  refine congrArg _ ?_
  funext a; apply Fin.ext
  match a with
  | ⟨0, _⟩ => show win1_3.index t (0 : Fin 2) * 1 + 1 * u.val = u.val; omega
  | ⟨1, _⟩ => show win1_3.index t (1 : Fin 2) * 1024 + 1 * q.val = q.val; omega

/-- Row s of block t of the children's hidden states is row 2048·t + s of the level below. -/
theorem blk4 (c : Dev nD) (t : Fin cfg1.N) (s : Fin 2048) (k : Fin 256) (S : Fin 16384) (hS : S.val = t.val * 2048 + s.val) :
    (iblk1 V c 4 t : S2048x256.Idx → EReal) (ix2 s k) = (V c main_v5_0 : S16384x256.Idx → EReal) (ix2 S k) := by
  obtain ⟨-, -, -, -, -, -, -, -, e0, e1, -⟩ := idx_facts t
  show (V c main_v5_0 : S16384x256.Idx → EReal) (((cfg1.win 4).blk t).view.emb (ix2 s k)) = _
  refine congrArg _ ?_
  funext a; apply Fin.ext
  match a with
  | ⟨0, _⟩ => show win1_4.index t (0 : Fin 2) * 2048 + 1 * s.val = S.val; omega
  | ⟨1, _⟩ => show win1_4.index t (1 : Fin 2) * 256 + 1 * k.val = k.val; omega

/-- Row s of block t of the children's cell states is row 2048·t + s of the level below. -/
theorem blk5 (c : Dev nD) (t : Fin cfg1.N) (s : Fin 2048) (k : Fin 256) (S : Fin 16384) (hS : S.val = t.val * 2048 + s.val) :
    (iblk1 V c 5 t : S2048x256.Idx → EReal) (ix2 s k) = (V c main_v5_1 : S16384x256.Idx → EReal) (ix2 S k) := by
  obtain ⟨-, -, -, -, -, -, -, -, -, -, e0, e1, -⟩ := idx_facts t
  show (V c main_v5_1 : S16384x256.Idx → EReal) (((cfg1.win 5).blk t).view.emb (ix2 s k)) = _
  refine congrArg _ ?_
  funext a; apply Fin.ext
  match a with
  | ⟨0, _⟩ => show win1_5.index t (0 : Fin 2) * 2048 + 1 * s.val = S.val; omega
  | ⟨1, _⟩ => show win1_5.index t (1 : Fin 2) * 256 + 1 * k.val = k.val; omega

/-! ## One stored row as the level's cell -/

/-- A block's pre-activation row is the level's, once each block entry is read in its array: the two projections are
    added first and the two biases are added first, which the associative and commutative law of addition undoes. -/
theorem iouNodeBlk_eq {n m : ℕ} (hnm : m = 4 * n) (x0 : (⟨2, ![n, 256]⟩ : Shape).Idx → EReal)
    (wxA whA : (⟨2, ![256, 1024]⟩ : Shape).Idx → EReal) (b : (⟨2, ![1, 1024]⟩ : Shape).Idx → EReal)
    (hpA : (⟨2, ![m, 256]⟩ : Shape).Idx → EReal) (r : Fin n) (wx wh : Fin 256 → Fin 1024 → EReal) (bx bh : Fin 1024 → EReal)
    (e s : Fin 256 → EReal)
    (h0 : cur2 x0 r = e) (h1 : cur2 wxA = wx) (h2 : cur2 whA = wh) (h3 : ∀ q, cur2 b 0 q = bx q + bh q)
    (h4 : sum4 hnm (cur2 hpA) r = s) :
    iouNodeBlk hnm x0 wxA whA b hpA r = iouNode wx wh bx bh e s := by
  funext q
  unfold iouNodeBlk
  rw [h0, h1, h2, h3, h4]
  exact iouNode_presummed wx wh bx bh e s q

/-- The hidden state depends only on the pre-activation row and the children's cell-state sum. -/
theorem hid_cell_congr (iou iou' : Fin 1024 → EReal) (u u' : Fin 256 → EReal) (h1 : iou = iou') (h2 : u = u') (j : Fin 256) :
    hid iou (cellNode iou u) j = hid iou' (cellNode iou' u') j := by
  subst h1 h2; rfl

/-- So does the cell state. -/
theorem cell_congr (iou iou' : Fin 1024 → EReal) (u u' : Fin 256 → EReal) (h1 : iou = iou') (h2 : u = u') (j : Fin 256) :
    cellNode iou u j = cellNode iou' u' j := by
  subst h1 h2; rfl

/-- The sum over the four children of row r of block t is the sum over the four children of row 512·t + r of the level:
    child a sits in row 4·r + a of the block, which is row 2048·t + 4·r + a = 4·(512·t + r) + a of the level below. -/
theorem sum4_blk (X : S2048x256.Idx → EReal) (A : S16384x256.Idx → EReal) (x : Fin 16384 → Fin 256 → EReal)
    (hA : A = toArr2 x) (t : Fin cfg1.N)
    (hX : ∀ (s : Fin 2048) (k : Fin 256) (S : Fin 16384), S.val = t.val * 2048 + s.val → X (ix2 s k) = A (ix2 S k))
    (r : Fin 512) (R : Fin 4096) (hR : R.val = t.val * 512 + r.val) :
    sum4 (by norm_num : 2048 = 4 * 512) (cur2 X) r = sum4 hm x R := by
  funext k
  unfold sum4
  refine Finset.sum_congr rfl fun a _ => ?_
  show X (ix2 _ k) = _
  rw [hX _ k ⟨4 * R.val + a.val, by have := R.isLt; have := a.isLt; omega⟩ (by
    show 4 * R.val + a.val = t.val * 2048 + (4 * r.val + a.val); omega), hA]
  rfl

section Point

variable (c : Dev nD) (E : Fin 4096 → Fin 256 → EReal) (wx wh : Fin 256 → Fin 1024 → EReal) (bx bh : Fin 1024 → EReal)
  (hp cp : Fin 16384 → Fin 256 → EReal)

/-- The pre-activation row of row r of block t is that of node 512·t + r. -/
theorem iou_blk
    (hE : (V c main_v6 : S4096x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v5_0 : S16384x256.Idx → EReal) = toArr2 hp)
    (t : Fin cfg1.N) (r : Fin 512) (R : Fin 4096) (hR : R.val = t.val * 512 + r.val) :
    iouNodeBlk (by norm_num : 2048 = 4 * 512) (iblk1 V c 0 t : S512x256.Idx → EReal) (iblk1 V c 1 t : S256x1024.Idx → EReal)
        (iblk1 V c 2 t : S256x1024.Idx → EReal) (iblk1 V c 3 t : S1x1024.Idx → EReal) (iblk1 V c 4 t : S2048x256.Idx → EReal) r
      = iouNode wx wh bx bh (E R) (sum4 hm hp R) := by
  refine iouNodeBlk_eq _ _ _ _ _ _ r wx wh bx bh _ _ ?_ ?_ ?_ ?_ ?_
  · funext k
    show (iblk1 V c 0 t : S512x256.Idx → EReal) (ix2 r k) = _
    rw [blk0 V c t r k R hR, hE]; rfl
  · funext k q
    show (iblk1 V c 1 t : S256x1024.Idx → EReal) (ix2 k q) = _
    rw [blk1 V c t k q, hwx]; rfl
  · funext k q
    show (iblk1 V c 2 t : S256x1024.Idx → EReal) (ix2 k q) = _
    rw [blk2 V c t k q, hwh]; rfl
  · intro q
    show (iblk1 V c 3 t : S1x1024.Idx → EReal) (ix2 0 q) = _
    rw [blk3 V c t 0 q, hb]
  · exact sum4_blk _ _ hp hhp t (fun s k S hS => blk4 V c t s k S hS) r R hR

/-- The hidden state stored in row r, column j of block t is that of node 512·t + r. -/
theorem point_h
    (hE : (V c main_v6 : S4096x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v5_0 : S16384x256.Idx → EReal) = toArr2 hp) (hcp : (V c main_v5_1 : S16384x256.Idx → EReal) = toArr2 cp)
    (t : Fin cfg1.N) (r : Fin 512) (j : Fin 256) (R : Fin 4096) (hR : R.val = t.val * 512 + r.val) :
    k1_pay3 (iblk1 V c 0 t) (iblk1 V c 1 t) (iblk1 V c 4 t) (iblk1 V c 5 t) (iblk1 V c 2 t) (iblk1 V c 3 t) (ix2 r j)
      = nodeH wx wh bx bh hm E hp cp R j := by
  refine (k1_pay3_apply _ _ _ _ _ _ r j).trans ?_
  exact hid_cell_congr _ _ _ _ (iou_blk V c E wx wh bx bh hp hE hwx hwh hb hhp t r R hR)
    (sum4_blk _ _ cp hcp t (fun s k S hS => blk5 V c t s k S hS) r R hR) j

/-- The cell state stored in row r, column j of block t is that of node 512·t + r. -/
theorem point_c
    (hE : (V c main_v6 : S4096x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v5_0 : S16384x256.Idx → EReal) = toArr2 hp) (hcp : (V c main_v5_1 : S16384x256.Idx → EReal) = toArr2 cp)
    (t : Fin cfg1.N) (r : Fin 512) (j : Fin 256) (R : Fin 4096) (hR : R.val = t.val * 512 + r.val) :
    k1_pay2 (iblk1 V c 0 t) (iblk1 V c 1 t) (iblk1 V c 4 t) (iblk1 V c 5 t) (iblk1 V c 2 t) (iblk1 V c 3 t) (ix2 r j)
      = nodeC wx wh bx bh hm E hp cp R j := by
  refine (k1_pay2_apply _ _ _ _ _ _ r j).trans ?_
  exact cell_congr _ _ _ _ (iou_blk V c E wx wh bx bh hp hE hwx hwh hb hhp t r R hR)
    (sum4_blk _ _ cp hcp t (fun s k S hS => blk5 V c t s k S hS) r R hR) j

/-! ## What each block writes back, and the arrays after the last block -/

/-- Block t of the hidden-state array is written with the level's hidden states at rows 512·t .. 512·t + 511. -/
theorem flushed_h
    (hE : (V c main_v6 : S4096x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v5_0 : S16384x256.Idx → EReal) = toArr2 hp) (hcp : (V c main_v5_1 : S16384x256.Idx → EReal) = toArr2 cp)
    (t : Fin cfg1.N) :
    (dat1 V c).flushed 6 t = ((cfg1.win 6).blk t).view.read (Elt Ideal) (toArr2 (nodeH wx wh bx bh hm E hp cp)) := by
  show (cfg1.win 6).cut (grid1.coords t) ((dat1 V c).after 6 t) = _
  rw [after1_6]
  unfold out1_6
  rw [View.canon_unit_zero hz]
  simp only [View.ld_unit_zero (S := S512x256) hz, View.ld_unit_zero (S := S256x1024) hz,
    View.ld_unit_zero (S := S2048x256) hz, View.ld_unit_zero (S := S1x1024) hz]
  have ht : t.val < 8 := Nat.lt_of_lt_of_eq t.isLt N_1
  funext y
  obtain ⟨r, j, rfl⟩ : ∃ (r : Fin 512) (j : Fin 256), y = ix2 r j := ⟨y 0, y 1, eq_ix2 (n0 := 512) (n1 := 256) y⟩
  obtain ⟨R, hR⟩ : ∃ R : Fin 4096, R.val = t.val * 512 + r.val := ⟨⟨t.val * 512 + r.val, by have := r.isLt; omega⟩, rfl⟩
  have hemb : ((cfg1.win 6).blk t).view.emb (ix2 r j) = (ix2 R j : S4096x256.Idx) := by
    obtain ⟨-, -, -, -, -, -, -, -, -, -, -, -, e0, e1, -⟩ := idx_facts t
    funext a; apply Fin.ext
    match a with
    | ⟨0, _⟩ => show win1_6.index t (0 : Fin 2) * 512 + 1 * r.val = R.val; omega
    | ⟨1, _⟩ => show win1_6.index t (1 : Fin 2) * 256 + 1 * j.val = j.val; omega
  show k1_pay3 (iblk1 V c 0 t) (iblk1 V c 1 t) (iblk1 V c 4 t) (iblk1 V c 5 t) (iblk1 V c 2 t) (iblk1 V c 3 t) (ix2 r j)
    = toArr2 (nodeH wx wh bx bh hm E hp cp) (((cfg1.win 6).blk t).view.emb (ix2 r j))
  rw [hemb]
  exact point_h V c E wx wh bx bh hp cp hE hwx hwh hb hhp hcp t r j R hR

/-- Block t of the cell-state array is written with the level's cell states at rows 512·t .. 512·t + 511. -/
theorem flushed_c
    (hE : (V c main_v6 : S4096x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v5_0 : S16384x256.Idx → EReal) = toArr2 hp) (hcp : (V c main_v5_1 : S16384x256.Idx → EReal) = toArr2 cp)
    (t : Fin cfg1.N) :
    (dat1 V c).flushed 7 t = ((cfg1.win 7).blk t).view.read (Elt Ideal) (toArr2 (nodeC wx wh bx bh hm E hp cp)) := by
  show (cfg1.win 7).cut (grid1.coords t) ((dat1 V c).after 7 t) = _
  rw [after1_7]
  unfold out1_7
  rw [View.canon_unit_zero hz]
  simp only [View.ld_unit_zero (S := S512x256) hz, View.ld_unit_zero (S := S256x1024) hz,
    View.ld_unit_zero (S := S2048x256) hz, View.ld_unit_zero (S := S1x1024) hz]
  have ht : t.val < 8 := Nat.lt_of_lt_of_eq t.isLt N_1
  funext y
  obtain ⟨r, j, rfl⟩ : ∃ (r : Fin 512) (j : Fin 256), y = ix2 r j := ⟨y 0, y 1, eq_ix2 (n0 := 512) (n1 := 256) y⟩
  obtain ⟨R, hR⟩ : ∃ R : Fin 4096, R.val = t.val * 512 + r.val := ⟨⟨t.val * 512 + r.val, by have := r.isLt; omega⟩, rfl⟩
  have hemb : ((cfg1.win 7).blk t).view.emb (ix2 r j) = (ix2 R j : S4096x256.Idx) := by
    obtain ⟨-, -, -, -, -, -, -, -, -, -, -, -, -, -, e0, e1⟩ := idx_facts t
    funext a; apply Fin.ext
    match a with
    | ⟨0, _⟩ => show win1_7.index t (0 : Fin 2) * 512 + 1 * r.val = R.val; omega
    | ⟨1, _⟩ => show win1_7.index t (1 : Fin 2) * 256 + 1 * j.val = j.val; omega
  show k1_pay2 (iblk1 V c 0 t) (iblk1 V c 1 t) (iblk1 V c 4 t) (iblk1 V c 5 t) (iblk1 V c 2 t) (iblk1 V c 3 t) (ix2 r j)
    = toArr2 (nodeC wx wh bx bh hm E hp cp) (((cfg1.win 7).blk t).view.emb (ix2 r j))
  rw [hemb]
  exact point_c V c E wx wh bx bh hp cp hE hwx hwh hb hhp hcp t r j R hR

end Point

/-- An index of the array lies in block t exactly when each coordinate lies in the block's range on its axis. -/
theorem mem_blk6 (t : Fin cfg1.N) (i : S4096x256.Idx) :
    i ∈ ((cfg1.win 6).blk t).view.set ↔ ∀ a : Fin 2, win1_6.index t a * S512x256.size a ≤ (i a).val
      ∧ (i a).val < win1_6.index t a * S512x256.size a + S512x256.size a := by
  show i ∈ ((View.whole main_v7_0).slice (win1_6.rect t)).set ↔ _
  rw [View.set_slice_whole, Rect.mem_set_unit]
  exact Iff.rfl

/-- The 8 blocks tile the array: row p lies in block p / 512. -/
theorem cover6 (i : S4096x256.Idx) : ∃ t : Fin cfg1.N, (cfg1.win 6).flush t = true ∧ i ∈ ((cfg1.win 6).blk t).view.set := by
  have hi0 : (i 0).val < 4096 := (i 0).isLt
  have hi1 : (i 1).val < 256 := (i 1).isLt
  obtain ⟨t, ht⟩ : ∃ t : Fin cfg1.N, t.val = (i 0).val / 512 :=
    ⟨⟨(i 0).val / 512, by rw [show cfg1.N = 8 from N_1]; omega⟩, rfl⟩
  obtain ⟨-, -, -, -, -, -, -, -, -, -, -, -, e0, e1, -⟩ := idx_facts t
  refine ⟨t, flush1_6 t, ?_⟩
  rw [mem_blk6]
  intro a
  match a with
  | ⟨0, _⟩ =>
    show win1_6.index t (0 : Fin 2) * 512 ≤ (i 0).val ∧ (i 0).val < win1_6.index t (0 : Fin 2) * 512 + 512
    omega
  | ⟨1, _⟩ =>
    show win1_6.index t (1 : Fin 2) * 256 ≤ (i 1).val ∧ (i 1).val < win1_6.index t (1 : Fin 2) * 256 + 256
    omega

/-- An index of the array lies in block t exactly when each coordinate lies in the block's range on its axis. -/
theorem mem_blk7 (t : Fin cfg1.N) (i : S4096x256.Idx) :
    i ∈ ((cfg1.win 7).blk t).view.set ↔ ∀ a : Fin 2, win1_7.index t a * S512x256.size a ≤ (i a).val
      ∧ (i a).val < win1_7.index t a * S512x256.size a + S512x256.size a := by
  show i ∈ ((View.whole main_v7_1).slice (win1_7.rect t)).set ↔ _
  rw [View.set_slice_whole, Rect.mem_set_unit]
  exact Iff.rfl

/-- The 8 blocks tile the array: row p lies in block p / 512. -/
theorem cover7 (i : S4096x256.Idx) : ∃ t : Fin cfg1.N, (cfg1.win 7).flush t = true ∧ i ∈ ((cfg1.win 7).blk t).view.set := by
  have hi0 : (i 0).val < 4096 := (i 0).isLt
  have hi1 : (i 1).val < 256 := (i 1).isLt
  obtain ⟨t, ht⟩ : ∃ t : Fin cfg1.N, t.val = (i 0).val / 512 :=
    ⟨⟨(i 0).val / 512, by rw [show cfg1.N = 8 from N_1]; omega⟩, rfl⟩
  obtain ⟨-, -, -, -, -, -, -, -, -, -, -, -, -, -, e0, e1⟩ := idx_facts t
  refine ⟨t, flush1_7 t, ?_⟩
  rw [mem_blk7]
  intro a
  match a with
  | ⟨0, _⟩ =>
    show win1_7.index t (0 : Fin 2) * 512 ≤ (i 0).val ∧ (i 0).val < win1_7.index t (0 : Fin 2) * 512 + 512
    omega
  | ⟨1, _⟩ =>
    show win1_7.index t (1 : Fin 2) * 256 ≤ (i 1).val ∧ (i 1).val < win1_7.index t (1 : Fin 2) * 256 + 256
    omega

/-- After the last block the hidden-state array holds the level's hidden states. -/
theorem final_h (c : Dev nD) (E : Fin 4096 → Fin 256 → EReal) (wx wh : Fin 256 → Fin 1024 → EReal) (bx bh : Fin 1024 → EReal)
    (hp cp : Fin 16384 → Fin 256 → EReal)
    (hE : (V c main_v6 : S4096x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v5_0 : S16384x256.Idx → EReal) = toArr2 hp) (hcp : (V c main_v5_1 : S16384x256.Idx → EReal) = toArr2 cp) :
    ((dat1 V c).arrAt 6 cfg1.N : S4096x256.Idx → EReal)
      = toArr2 (nodeH wx wh bx bh (by norm_num : 16384 = 4 * 4096) E hp cp) :=
  (dat1 V c).arrAt_eq_of_cover 6 _ (fun t _ => flushed_h V c E wx wh bx bh hp cp hE hwx hwh hb hhp hcp t) cover6

/-- After the last block the cell-state array holds the level's cell states. -/
theorem final_c (c : Dev nD) (E : Fin 4096 → Fin 256 → EReal) (wx wh : Fin 256 → Fin 1024 → EReal) (bx bh : Fin 1024 → EReal)
    (hp cp : Fin 16384 → Fin 256 → EReal)
    (hE : (V c main_v6 : S4096x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v5_0 : S16384x256.Idx → EReal) = toArr2 hp) (hcp : (V c main_v5_1 : S16384x256.Idx → EReal) = toArr2 cp) :
    ((dat1 V c).arrAt 7 cfg1.N : S4096x256.Idx → EReal)
      = toArr2 (nodeC wx wh bx bh (by norm_num : 16384 = 4 * 4096) E hp cp) :=
  (dat1 V c).arrAt_eq_of_cover 7 _ (fun t _ => flushed_c V c E wx wh bx bh hp cp hE hwx hwh hb hhp hcp t) cover7

end Cert.KernelIdeal.Blocks1

end
-- ==== Proof.Blocks2.lean ====
/-
  The second level of internal nodes (1024 nodes over the 4096 nodes below), block by block. The level is computed in 2 blocks
  of 512 parent rows; block t holds parent rows 512·t .. 512·t + 511 and reads child rows 2048·t .. 2048·t + 2047, so parent
  row R = 512·t + r has its four children in rows 4·R + a = 2048·t + (4·r + a) of the level below. The two weight
  matrices and the bias row are read whole by every block. Each block's stored rows are the Tree-LSTM cell of these
  inputs, and the 2 blocks tile the level's arrays, so the two arrays end as the level's hidden and cell states.
-/
import proofs.«148979_j61349312856636_2_alg».proof.Proof.Gen.KernelIdeal.Frame
import proofs.«148979_j61349312856636_2_alg».proof.Proof.Pay
import proofs.«148979_j61349312856636_2_alg».proof.Proof.TreeSpec
import Idealize.ShloMosaic.Lib.Pipeline.Value

set_option maxRecDepth 16384

noncomputable section

namespace Cert.KernelIdeal.Blocks2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.TreeSpec

variable (V : (c : Dev nD) → (b : Ref sig .tc) → Buf (Elt Ideal) ((c : Thread nD τ).loc b))

theorem hz : (![0, 0] : Fin 2 → Nat) = fun _ => 0 := funext fun a => by fin_cases a <;> rfl

/-- The number of parent rows below is four times smaller than the number of child rows. -/
theorem hm : 4096 = 4 * 1024 := by norm_num

/-- Where each block sits: the embedding rows, the two child arrays and the two stored arrays move one block of rows per
    step and stay at column block 0; the weight matrices and the bias row stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-! ## Each input block, entry by entry, as an entry of its array -/

/-- Row r of block t of the embedding rows is row 512·t + r of the level's embedding rows. -/
theorem blk0 (c : Dev nD) (t : Fin cfg2.N) (r : Fin 512) (k : Fin 256) (R : Fin 1024) (hR : R.val = t.val * 512 + r.val) :
    (iblk2 V c 0 t : S512x256.Idx → EReal) (ix2 r k) = (V c main_v8 : S1024x256.Idx → EReal) (ix2 R k) := by
  obtain ⟨e0, e1, -⟩ := idx_facts t
  show (V c main_v8 : S1024x256.Idx → EReal) (((cfg2.win 0).blk t).view.emb (ix2 r k)) = _
  refine congrArg _ ?_
  funext a; apply Fin.ext
  match a with
  | ⟨0, _⟩ => show win2_0.index t (0 : Fin 2) * 512 + 1 * r.val = R.val; omega
  | ⟨1, _⟩ => show win2_0.index t (1 : Fin 2) * 256 + 1 * k.val = k.val; omega

/-- Every block of the input weight matrix is the matrix. -/
theorem blk1 (c : Dev nD) (t : Fin cfg2.N) (k : Fin 256) (q : Fin 1024) :
    (iblk2 V c 1 t : S256x1024.Idx → EReal) (ix2 k q) = (V c main_v2 : S256x1024.Idx → EReal) (ix2 k q) := by
  obtain ⟨-, -, e0, e1, -⟩ := idx_facts t
  show (V c main_v2 : S256x1024.Idx → EReal) (((cfg2.win 1).blk t).view.emb (ix2 k q)) = _
  refine congrArg _ ?_
  funext a; apply Fin.ext
  match a with
  | ⟨0, _⟩ => show win2_1.index t (0 : Fin 2) * 256 + 1 * k.val = k.val; omega
  | ⟨1, _⟩ => show win2_1.index t (1 : Fin 2) * 1024 + 1 * q.val = q.val; omega

/-- Every block of the recurrent weight matrix is the matrix. -/
theorem blk2 (c : Dev nD) (t : Fin cfg2.N) (k : Fin 256) (q : Fin 1024) :
    (iblk2 V c 2 t : S256x1024.Idx → EReal) (ix2 k q) = (V c main_v3 : S256x1024.Idx → EReal) (ix2 k q) := by
  obtain ⟨-, -, -, -, e0, e1, -⟩ := idx_facts t
  show (V c main_v3 : S256x1024.Idx → EReal) (((cfg2.win 2).blk t).view.emb (ix2 k q)) = _
  refine congrArg _ ?_
  funext a; apply Fin.ext
  match a with
  | ⟨0, _⟩ => show win2_2.index t (0 : Fin 2) * 256 + 1 * k.val = k.val; omega
  | ⟨1, _⟩ => show win2_2.index t (1 : Fin 2) * 1024 + 1 * q.val = q.val; omega

/-- Every block of the bias row is the bias row. -/
theorem blk3 (c : Dev nD) (t : Fin cfg2.N) (u : Fin 1) (q : Fin 1024) :
    (iblk2 V c 3 t : S1x1024.Idx → EReal) (ix2 u q) = (V c main_v1 : S1x1024.Idx → EReal) (ix2 u q) := by
  obtain ⟨-, -, -, -, -, -, e0, e1, -⟩ := idx_facts t
  show (V c main_v1 : S1x1024.Idx → EReal) (((cfg2.win 3).blk t).view.emb (ix2 u q)) = _
  refine congrArg _ ?_
  funext a; apply Fin.ext
  match a with
  | ⟨0, _⟩ => show win2_3.index t (0 : Fin 2) * 1 + 1 * u.val = u.val; omega
  | ⟨1, _⟩ => show win2_3.index t (1 : Fin 2) * 1024 + 1 * q.val = q.val; omega

/-- Row s of block t of the children's hidden states is row 2048·t + s of the level below. -/
theorem blk4 (c : Dev nD) (t : Fin cfg2.N) (s : Fin 2048) (k : Fin 256) (S : Fin 4096) (hS : S.val = t.val * 2048 + s.val) :
    (iblk2 V c 4 t : S2048x256.Idx → EReal) (ix2 s k) = (V c main_v7_0 : S4096x256.Idx → EReal) (ix2 S k) := by
  obtain ⟨-, -, -, -, -, -, -, -, e0, e1, -⟩ := idx_facts t
  show (V c main_v7_0 : S4096x256.Idx → EReal) (((cfg2.win 4).blk t).view.emb (ix2 s k)) = _
  refine congrArg _ ?_
  funext a; apply Fin.ext
  match a with
  | ⟨0, _⟩ => show win2_4.index t (0 : Fin 2) * 2048 + 1 * s.val = S.val; omega
  | ⟨1, _⟩ => show win2_4.index t (1 : Fin 2) * 256 + 1 * k.val = k.val; omega

/-- Row s of block t of the children's cell states is row 2048·t + s of the level below. -/
theorem blk5 (c : Dev nD) (t : Fin cfg2.N) (s : Fin 2048) (k : Fin 256) (S : Fin 4096) (hS : S.val = t.val * 2048 + s.val) :
    (iblk2 V c 5 t : S2048x256.Idx → EReal) (ix2 s k) = (V c main_v7_1 : S4096x256.Idx → EReal) (ix2 S k) := by
  obtain ⟨-, -, -, -, -, -, -, -, -, -, e0, e1, -⟩ := idx_facts t
  show (V c main_v7_1 : S4096x256.Idx → EReal) (((cfg2.win 5).blk t).view.emb (ix2 s k)) = _
  refine congrArg _ ?_
  funext a; apply Fin.ext
  match a with
  | ⟨0, _⟩ => show win2_5.index t (0 : Fin 2) * 2048 + 1 * s.val = S.val; omega
  | ⟨1, _⟩ => show win2_5.index t (1 : Fin 2) * 256 + 1 * k.val = k.val; omega

/-! ## One stored row as the level's cell -/

/-- A block's pre-activation row is the level's, once each block entry is read in its array: the two projections are
    added first and the two biases are added first, which the associative and commutative law of addition undoes. -/
theorem iouNodeBlk_eq {n m : ℕ} (hnm : m = 4 * n) (x0 : (⟨2, ![n, 256]⟩ : Shape).Idx → EReal)
    (wxA whA : (⟨2, ![256, 1024]⟩ : Shape).Idx → EReal) (b : (⟨2, ![1, 1024]⟩ : Shape).Idx → EReal)
    (hpA : (⟨2, ![m, 256]⟩ : Shape).Idx → EReal) (r : Fin n) (wx wh : Fin 256 → Fin 1024 → EReal) (bx bh : Fin 1024 → EReal)
    (e s : Fin 256 → EReal)
    (h0 : cur2 x0 r = e) (h1 : cur2 wxA = wx) (h2 : cur2 whA = wh) (h3 : ∀ q, cur2 b 0 q = bx q + bh q)
    (h4 : sum4 hnm (cur2 hpA) r = s) :
    iouNodeBlk hnm x0 wxA whA b hpA r = iouNode wx wh bx bh e s := by
  funext q
  unfold iouNodeBlk
  rw [h0, h1, h2, h3, h4]
  exact iouNode_presummed wx wh bx bh e s q

/-- The hidden state depends only on the pre-activation row and the children's cell-state sum. -/
theorem hid_cell_congr (iou iou' : Fin 1024 → EReal) (u u' : Fin 256 → EReal) (h1 : iou = iou') (h2 : u = u') (j : Fin 256) :
    hid iou (cellNode iou u) j = hid iou' (cellNode iou' u') j := by
  subst h1 h2; rfl

/-- So does the cell state. -/
theorem cell_congr (iou iou' : Fin 1024 → EReal) (u u' : Fin 256 → EReal) (h1 : iou = iou') (h2 : u = u') (j : Fin 256) :
    cellNode iou u j = cellNode iou' u' j := by
  subst h1 h2; rfl

/-- The sum over the four children of row r of block t is the sum over the four children of row 512·t + r of the level:
    child a sits in row 4·r + a of the block, which is row 2048·t + 4·r + a = 4·(512·t + r) + a of the level below. -/
theorem sum4_blk (X : S2048x256.Idx → EReal) (A : S4096x256.Idx → EReal) (x : Fin 4096 → Fin 256 → EReal)
    (hA : A = toArr2 x) (t : Fin cfg2.N)
    (hX : ∀ (s : Fin 2048) (k : Fin 256) (S : Fin 4096), S.val = t.val * 2048 + s.val → X (ix2 s k) = A (ix2 S k))
    (r : Fin 512) (R : Fin 1024) (hR : R.val = t.val * 512 + r.val) :
    sum4 (by norm_num : 2048 = 4 * 512) (cur2 X) r = sum4 hm x R := by
  funext k
  unfold sum4
  refine Finset.sum_congr rfl fun a _ => ?_
  show X (ix2 _ k) = _
  rw [hX _ k ⟨4 * R.val + a.val, by have := R.isLt; have := a.isLt; omega⟩ (by
    show 4 * R.val + a.val = t.val * 2048 + (4 * r.val + a.val); omega), hA]
  rfl

section Point

variable (c : Dev nD) (E : Fin 1024 → Fin 256 → EReal) (wx wh : Fin 256 → Fin 1024 → EReal) (bx bh : Fin 1024 → EReal)
  (hp cp : Fin 4096 → Fin 256 → EReal)

/-- The pre-activation row of row r of block t is that of node 512·t + r. -/
theorem iou_blk
    (hE : (V c main_v8 : S1024x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v7_0 : S4096x256.Idx → EReal) = toArr2 hp)
    (t : Fin cfg2.N) (r : Fin 512) (R : Fin 1024) (hR : R.val = t.val * 512 + r.val) :
    iouNodeBlk (by norm_num : 2048 = 4 * 512) (iblk2 V c 0 t : S512x256.Idx → EReal) (iblk2 V c 1 t : S256x1024.Idx → EReal)
        (iblk2 V c 2 t : S256x1024.Idx → EReal) (iblk2 V c 3 t : S1x1024.Idx → EReal) (iblk2 V c 4 t : S2048x256.Idx → EReal) r
      = iouNode wx wh bx bh (E R) (sum4 hm hp R) := by
  refine iouNodeBlk_eq _ _ _ _ _ _ r wx wh bx bh _ _ ?_ ?_ ?_ ?_ ?_
  · funext k
    show (iblk2 V c 0 t : S512x256.Idx → EReal) (ix2 r k) = _
    rw [blk0 V c t r k R hR, hE]; rfl
  · funext k q
    show (iblk2 V c 1 t : S256x1024.Idx → EReal) (ix2 k q) = _
    rw [blk1 V c t k q, hwx]; rfl
  · funext k q
    show (iblk2 V c 2 t : S256x1024.Idx → EReal) (ix2 k q) = _
    rw [blk2 V c t k q, hwh]; rfl
  · intro q
    show (iblk2 V c 3 t : S1x1024.Idx → EReal) (ix2 0 q) = _
    rw [blk3 V c t 0 q, hb]
  · exact sum4_blk _ _ hp hhp t (fun s k S hS => blk4 V c t s k S hS) r R hR

/-- The hidden state stored in row r, column j of block t is that of node 512·t + r. -/
theorem point_h
    (hE : (V c main_v8 : S1024x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v7_0 : S4096x256.Idx → EReal) = toArr2 hp) (hcp : (V c main_v7_1 : S4096x256.Idx → EReal) = toArr2 cp)
    (t : Fin cfg2.N) (r : Fin 512) (j : Fin 256) (R : Fin 1024) (hR : R.val = t.val * 512 + r.val) :
    k2_pay3 (iblk2 V c 0 t) (iblk2 V c 1 t) (iblk2 V c 4 t) (iblk2 V c 5 t) (iblk2 V c 2 t) (iblk2 V c 3 t) (ix2 r j)
      = nodeH wx wh bx bh hm E hp cp R j := by
  refine (k2_pay3_apply _ _ _ _ _ _ r j).trans ?_
  exact hid_cell_congr _ _ _ _ (iou_blk V c E wx wh bx bh hp hE hwx hwh hb hhp t r R hR)
    (sum4_blk _ _ cp hcp t (fun s k S hS => blk5 V c t s k S hS) r R hR) j

/-- The cell state stored in row r, column j of block t is that of node 512·t + r. -/
theorem point_c
    (hE : (V c main_v8 : S1024x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v7_0 : S4096x256.Idx → EReal) = toArr2 hp) (hcp : (V c main_v7_1 : S4096x256.Idx → EReal) = toArr2 cp)
    (t : Fin cfg2.N) (r : Fin 512) (j : Fin 256) (R : Fin 1024) (hR : R.val = t.val * 512 + r.val) :
    k2_pay2 (iblk2 V c 0 t) (iblk2 V c 1 t) (iblk2 V c 4 t) (iblk2 V c 5 t) (iblk2 V c 2 t) (iblk2 V c 3 t) (ix2 r j)
      = nodeC wx wh bx bh hm E hp cp R j := by
  refine (k2_pay2_apply _ _ _ _ _ _ r j).trans ?_
  exact cell_congr _ _ _ _ (iou_blk V c E wx wh bx bh hp hE hwx hwh hb hhp t r R hR)
    (sum4_blk _ _ cp hcp t (fun s k S hS => blk5 V c t s k S hS) r R hR) j

/-! ## What each block writes back, and the arrays after the last block -/

/-- Block t of the hidden-state array is written with the level's hidden states at rows 512·t .. 512·t + 511. -/
theorem flushed_h
    (hE : (V c main_v8 : S1024x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v7_0 : S4096x256.Idx → EReal) = toArr2 hp) (hcp : (V c main_v7_1 : S4096x256.Idx → EReal) = toArr2 cp)
    (t : Fin cfg2.N) :
    (dat2 V c).flushed 6 t = ((cfg2.win 6).blk t).view.read (Elt Ideal) (toArr2 (nodeH wx wh bx bh hm E hp cp)) := by
  show (cfg2.win 6).cut (grid2.coords t) ((dat2 V c).after 6 t) = _
  rw [after2_6]
  unfold out2_6
  rw [View.canon_unit_zero hz]
  simp only [View.ld_unit_zero (S := S512x256) hz, View.ld_unit_zero (S := S256x1024) hz,
    View.ld_unit_zero (S := S2048x256) hz, View.ld_unit_zero (S := S1x1024) hz]
  have ht : t.val < 2 := Nat.lt_of_lt_of_eq t.isLt N_2
  funext y
  obtain ⟨r, j, rfl⟩ : ∃ (r : Fin 512) (j : Fin 256), y = ix2 r j := ⟨y 0, y 1, eq_ix2 (n0 := 512) (n1 := 256) y⟩
  obtain ⟨R, hR⟩ : ∃ R : Fin 1024, R.val = t.val * 512 + r.val := ⟨⟨t.val * 512 + r.val, by have := r.isLt; omega⟩, rfl⟩
  have hemb : ((cfg2.win 6).blk t).view.emb (ix2 r j) = (ix2 R j : S1024x256.Idx) := by
    obtain ⟨-, -, -, -, -, -, -, -, -, -, -, -, e0, e1, -⟩ := idx_facts t
    funext a; apply Fin.ext
    match a with
    | ⟨0, _⟩ => show win2_6.index t (0 : Fin 2) * 512 + 1 * r.val = R.val; omega
    | ⟨1, _⟩ => show win2_6.index t (1 : Fin 2) * 256 + 1 * j.val = j.val; omega
  show k2_pay3 (iblk2 V c 0 t) (iblk2 V c 1 t) (iblk2 V c 4 t) (iblk2 V c 5 t) (iblk2 V c 2 t) (iblk2 V c 3 t) (ix2 r j)
    = toArr2 (nodeH wx wh bx bh hm E hp cp) (((cfg2.win 6).blk t).view.emb (ix2 r j))
  rw [hemb]
  exact point_h V c E wx wh bx bh hp cp hE hwx hwh hb hhp hcp t r j R hR

/-- Block t of the cell-state array is written with the level's cell states at rows 512·t .. 512·t + 511. -/
theorem flushed_c
    (hE : (V c main_v8 : S1024x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v7_0 : S4096x256.Idx → EReal) = toArr2 hp) (hcp : (V c main_v7_1 : S4096x256.Idx → EReal) = toArr2 cp)
    (t : Fin cfg2.N) :
    (dat2 V c).flushed 7 t = ((cfg2.win 7).blk t).view.read (Elt Ideal) (toArr2 (nodeC wx wh bx bh hm E hp cp)) := by
  show (cfg2.win 7).cut (grid2.coords t) ((dat2 V c).after 7 t) = _
  rw [after2_7]
  unfold out2_7
  rw [View.canon_unit_zero hz]
  simp only [View.ld_unit_zero (S := S512x256) hz, View.ld_unit_zero (S := S256x1024) hz,
    View.ld_unit_zero (S := S2048x256) hz, View.ld_unit_zero (S := S1x1024) hz]
  have ht : t.val < 2 := Nat.lt_of_lt_of_eq t.isLt N_2
  funext y
  obtain ⟨r, j, rfl⟩ : ∃ (r : Fin 512) (j : Fin 256), y = ix2 r j := ⟨y 0, y 1, eq_ix2 (n0 := 512) (n1 := 256) y⟩
  obtain ⟨R, hR⟩ : ∃ R : Fin 1024, R.val = t.val * 512 + r.val := ⟨⟨t.val * 512 + r.val, by have := r.isLt; omega⟩, rfl⟩
  have hemb : ((cfg2.win 7).blk t).view.emb (ix2 r j) = (ix2 R j : S1024x256.Idx) := by
    obtain ⟨-, -, -, -, -, -, -, -, -, -, -, -, -, -, e0, e1⟩ := idx_facts t
    funext a; apply Fin.ext
    match a with
    | ⟨0, _⟩ => show win2_7.index t (0 : Fin 2) * 512 + 1 * r.val = R.val; omega
    | ⟨1, _⟩ => show win2_7.index t (1 : Fin 2) * 256 + 1 * j.val = j.val; omega
  show k2_pay2 (iblk2 V c 0 t) (iblk2 V c 1 t) (iblk2 V c 4 t) (iblk2 V c 5 t) (iblk2 V c 2 t) (iblk2 V c 3 t) (ix2 r j)
    = toArr2 (nodeC wx wh bx bh hm E hp cp) (((cfg2.win 7).blk t).view.emb (ix2 r j))
  rw [hemb]
  exact point_c V c E wx wh bx bh hp cp hE hwx hwh hb hhp hcp t r j R hR

end Point

/-- An index of the array lies in block t exactly when each coordinate lies in the block's range on its axis. -/
theorem mem_blk6 (t : Fin cfg2.N) (i : S1024x256.Idx) :
    i ∈ ((cfg2.win 6).blk t).view.set ↔ ∀ a : Fin 2, win2_6.index t a * S512x256.size a ≤ (i a).val
      ∧ (i a).val < win2_6.index t a * S512x256.size a + S512x256.size a := by
  show i ∈ ((View.whole main_v9_0).slice (win2_6.rect t)).set ↔ _
  rw [View.set_slice_whole, Rect.mem_set_unit]
  exact Iff.rfl

/-- The 2 blocks tile the array: row p lies in block p / 512. -/
theorem cover6 (i : S1024x256.Idx) : ∃ t : Fin cfg2.N, (cfg2.win 6).flush t = true ∧ i ∈ ((cfg2.win 6).blk t).view.set := by
  have hi0 : (i 0).val < 1024 := (i 0).isLt
  have hi1 : (i 1).val < 256 := (i 1).isLt
  obtain ⟨t, ht⟩ : ∃ t : Fin cfg2.N, t.val = (i 0).val / 512 :=
    ⟨⟨(i 0).val / 512, by rw [show cfg2.N = 2 from N_2]; omega⟩, rfl⟩
  obtain ⟨-, -, -, -, -, -, -, -, -, -, -, -, e0, e1, -⟩ := idx_facts t
  refine ⟨t, flush2_6 t, ?_⟩
  rw [mem_blk6]
  intro a
  match a with
  | ⟨0, _⟩ =>
    show win2_6.index t (0 : Fin 2) * 512 ≤ (i 0).val ∧ (i 0).val < win2_6.index t (0 : Fin 2) * 512 + 512
    omega
  | ⟨1, _⟩ =>
    show win2_6.index t (1 : Fin 2) * 256 ≤ (i 1).val ∧ (i 1).val < win2_6.index t (1 : Fin 2) * 256 + 256
    omega

/-- An index of the array lies in block t exactly when each coordinate lies in the block's range on its axis. -/
theorem mem_blk7 (t : Fin cfg2.N) (i : S1024x256.Idx) :
    i ∈ ((cfg2.win 7).blk t).view.set ↔ ∀ a : Fin 2, win2_7.index t a * S512x256.size a ≤ (i a).val
      ∧ (i a).val < win2_7.index t a * S512x256.size a + S512x256.size a := by
  show i ∈ ((View.whole main_v9_1).slice (win2_7.rect t)).set ↔ _
  rw [View.set_slice_whole, Rect.mem_set_unit]
  exact Iff.rfl

/-- The 2 blocks tile the array: row p lies in block p / 512. -/
theorem cover7 (i : S1024x256.Idx) : ∃ t : Fin cfg2.N, (cfg2.win 7).flush t = true ∧ i ∈ ((cfg2.win 7).blk t).view.set := by
  have hi0 : (i 0).val < 1024 := (i 0).isLt
  have hi1 : (i 1).val < 256 := (i 1).isLt
  obtain ⟨t, ht⟩ : ∃ t : Fin cfg2.N, t.val = (i 0).val / 512 :=
    ⟨⟨(i 0).val / 512, by rw [show cfg2.N = 2 from N_2]; omega⟩, rfl⟩
  obtain ⟨-, -, -, -, -, -, -, -, -, -, -, -, -, -, e0, e1⟩ := idx_facts t
  refine ⟨t, flush2_7 t, ?_⟩
  rw [mem_blk7]
  intro a
  match a with
  | ⟨0, _⟩ =>
    show win2_7.index t (0 : Fin 2) * 512 ≤ (i 0).val ∧ (i 0).val < win2_7.index t (0 : Fin 2) * 512 + 512
    omega
  | ⟨1, _⟩ =>
    show win2_7.index t (1 : Fin 2) * 256 ≤ (i 1).val ∧ (i 1).val < win2_7.index t (1 : Fin 2) * 256 + 256
    omega

/-- After the last block the hidden-state array holds the level's hidden states. -/
theorem final_h (c : Dev nD) (E : Fin 1024 → Fin 256 → EReal) (wx wh : Fin 256 → Fin 1024 → EReal) (bx bh : Fin 1024 → EReal)
    (hp cp : Fin 4096 → Fin 256 → EReal)
    (hE : (V c main_v8 : S1024x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v7_0 : S4096x256.Idx → EReal) = toArr2 hp) (hcp : (V c main_v7_1 : S4096x256.Idx → EReal) = toArr2 cp) :
    ((dat2 V c).arrAt 6 cfg2.N : S1024x256.Idx → EReal)
      = toArr2 (nodeH wx wh bx bh (by norm_num : 4096 = 4 * 1024) E hp cp) :=
  (dat2 V c).arrAt_eq_of_cover 6 _ (fun t _ => flushed_h V c E wx wh bx bh hp cp hE hwx hwh hb hhp hcp t) cover6

/-- After the last block the cell-state array holds the level's cell states. -/
theorem final_c (c : Dev nD) (E : Fin 1024 → Fin 256 → EReal) (wx wh : Fin 256 → Fin 1024 → EReal) (bx bh : Fin 1024 → EReal)
    (hp cp : Fin 4096 → Fin 256 → EReal)
    (hE : (V c main_v8 : S1024x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v7_0 : S4096x256.Idx → EReal) = toArr2 hp) (hcp : (V c main_v7_1 : S4096x256.Idx → EReal) = toArr2 cp) :
    ((dat2 V c).arrAt 7 cfg2.N : S1024x256.Idx → EReal)
      = toArr2 (nodeC wx wh bx bh (by norm_num : 4096 = 4 * 1024) E hp cp) :=
  (dat2 V c).arrAt_eq_of_cover 7 _ (fun t _ => flushed_c V c E wx wh bx bh hp cp hE hwx hwh hb hhp hcp t) cover7

end Cert.KernelIdeal.Blocks2

end
-- ==== Proof.Blocks3.lean ====
/-
  The third level of internal nodes (256 nodes over the 1024 nodes below), in one block: the block holds all 256 parent rows
  and reads all 1024 child rows, so parent row r has its four children in rows 4·r + a of the level below. The two weight
  matrices and the bias row are read whole. The block's stored rows are the Tree-LSTM cell of these inputs, and the one block
  is the whole of each array, so the two arrays end as the level's hidden and cell states.
-/
import proofs.«148979_j61349312856636_2_alg».proof.Proof.Gen.KernelIdeal.Frame
import proofs.«148979_j61349312856636_2_alg».proof.Proof.Pay
import proofs.«148979_j61349312856636_2_alg».proof.Proof.TreeSpec
import Idealize.ShloMosaic.Lib.Pipeline.Value

set_option maxRecDepth 16384

noncomputable section

namespace Cert.KernelIdeal.Blocks3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.TreeSpec

variable (V : (c : Dev nD) → (b : Ref sig .tc) → Buf (Elt Ideal) ((c : Thread nD τ).loc b))

theorem hz : (![0, 0] : Fin 2 → Nat) = fun _ => 0 := funext fun a => by fin_cases a <;> rfl

/-- The number of parent rows below is four times smaller than the number of child rows. -/
theorem hm : 1024 = 4 * 256 := by norm_num

/-- Where each block sits: the embedding rows, the two child arrays and the two stored arrays move one block of rows per
    step and stay at column block 0; the weight matrices and the bias row stay at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-! ## Each input block, entry by entry, as an entry of its array -/

/-- Row r of block t of the embedding rows is row 256·t + r of the level's embedding rows. -/
theorem blk0 (c : Dev nD) (t : Fin cfg3.N) (r : Fin 256) (k : Fin 256) (R : Fin 256) (hR : R.val = t.val * 256 + r.val) :
    (iblk3 V c 0 t : S256x256.Idx → EReal) (ix2 r k) = (V c main_v10 : S256x256.Idx → EReal) (ix2 R k) := by
  obtain ⟨e0, e1, -⟩ := idx_facts t
  show (V c main_v10 : S256x256.Idx → EReal) (((cfg3.win 0).blk t).view.emb (ix2 r k)) = _
  refine congrArg _ ?_
  funext a; apply Fin.ext
  match a with
  | ⟨0, _⟩ => show win3_0.index t (0 : Fin 2) * 256 + 1 * r.val = R.val; omega
  | ⟨1, _⟩ => show win3_0.index t (1 : Fin 2) * 256 + 1 * k.val = k.val; omega

/-- Every block of the input weight matrix is the matrix. -/
theorem blk1 (c : Dev nD) (t : Fin cfg3.N) (k : Fin 256) (q : Fin 1024) :
    (iblk3 V c 1 t : S256x1024.Idx → EReal) (ix2 k q) = (V c main_v2 : S256x1024.Idx → EReal) (ix2 k q) := by
  obtain ⟨-, -, e0, e1, -⟩ := idx_facts t
  show (V c main_v2 : S256x1024.Idx → EReal) (((cfg3.win 1).blk t).view.emb (ix2 k q)) = _
  refine congrArg _ ?_
  funext a; apply Fin.ext
  match a with
  | ⟨0, _⟩ => show win3_1.index t (0 : Fin 2) * 256 + 1 * k.val = k.val; omega
  | ⟨1, _⟩ => show win3_1.index t (1 : Fin 2) * 1024 + 1 * q.val = q.val; omega

/-- Every block of the recurrent weight matrix is the matrix. -/
theorem blk2 (c : Dev nD) (t : Fin cfg3.N) (k : Fin 256) (q : Fin 1024) :
    (iblk3 V c 2 t : S256x1024.Idx → EReal) (ix2 k q) = (V c main_v3 : S256x1024.Idx → EReal) (ix2 k q) := by
  obtain ⟨-, -, -, -, e0, e1, -⟩ := idx_facts t
  show (V c main_v3 : S256x1024.Idx → EReal) (((cfg3.win 2).blk t).view.emb (ix2 k q)) = _
  refine congrArg _ ?_
  funext a; apply Fin.ext
  match a with
  | ⟨0, _⟩ => show win3_2.index t (0 : Fin 2) * 256 + 1 * k.val = k.val; omega
  | ⟨1, _⟩ => show win3_2.index t (1 : Fin 2) * 1024 + 1 * q.val = q.val; omega

/-- Every block of the bias row is the bias row. -/
theorem blk3 (c : Dev nD) (t : Fin cfg3.N) (u : Fin 1) (q : Fin 1024) :
    (iblk3 V c 3 t : S1x1024.Idx → EReal) (ix2 u q) = (V c main_v1 : S1x1024.Idx → EReal) (ix2 u q) := by
  obtain ⟨-, -, -, -, -, -, e0, e1, -⟩ := idx_facts t
  show (V c main_v1 : S1x1024.Idx → EReal) (((cfg3.win 3).blk t).view.emb (ix2 u q)) = _
  refine congrArg _ ?_
  funext a; apply Fin.ext
  match a with
  | ⟨0, _⟩ => show win3_3.index t (0 : Fin 2) * 1 + 1 * u.val = u.val; omega
  | ⟨1, _⟩ => show win3_3.index t (1 : Fin 2) * 1024 + 1 * q.val = q.val; omega

/-- Row s of block t of the children's hidden states is row 1024·t + s of the level below. -/
theorem blk4 (c : Dev nD) (t : Fin cfg3.N) (s : Fin 1024) (k : Fin 256) (S : Fin 1024) (hS : S.val = t.val * 1024 + s.val) :
    (iblk3 V c 4 t : S1024x256.Idx → EReal) (ix2 s k) = (V c main_v9_0 : S1024x256.Idx → EReal) (ix2 S k) := by
  obtain ⟨-, -, -, -, -, -, -, -, e0, e1, -⟩ := idx_facts t
  show (V c main_v9_0 : S1024x256.Idx → EReal) (((cfg3.win 4).blk t).view.emb (ix2 s k)) = _
  refine congrArg _ ?_
  funext a; apply Fin.ext
  match a with
  | ⟨0, _⟩ => show win3_4.index t (0 : Fin 2) * 1024 + 1 * s.val = S.val; omega
  | ⟨1, _⟩ => show win3_4.index t (1 : Fin 2) * 256 + 1 * k.val = k.val; omega

/-- Row s of block t of the children's cell states is row 1024·t + s of the level below. -/
theorem blk5 (c : Dev nD) (t : Fin cfg3.N) (s : Fin 1024) (k : Fin 256) (S : Fin 1024) (hS : S.val = t.val * 1024 + s.val) :
    (iblk3 V c 5 t : S1024x256.Idx → EReal) (ix2 s k) = (V c main_v9_1 : S1024x256.Idx → EReal) (ix2 S k) := by
  obtain ⟨-, -, -, -, -, -, -, -, -, -, e0, e1, -⟩ := idx_facts t
  show (V c main_v9_1 : S1024x256.Idx → EReal) (((cfg3.win 5).blk t).view.emb (ix2 s k)) = _
  refine congrArg _ ?_
  funext a; apply Fin.ext
  match a with
  | ⟨0, _⟩ => show win3_5.index t (0 : Fin 2) * 1024 + 1 * s.val = S.val; omega
  | ⟨1, _⟩ => show win3_5.index t (1 : Fin 2) * 256 + 1 * k.val = k.val; omega

/-! ## One stored row as the level's cell -/

/-- A block's pre-activation row is the level's, once each block entry is read in its array: the two projections are
    added first and the two biases are added first, which the associative and commutative law of addition undoes. -/
theorem iouNodeBlk_eq {n m : ℕ} (hnm : m = 4 * n) (x0 : (⟨2, ![n, 256]⟩ : Shape).Idx → EReal)
    (wxA whA : (⟨2, ![256, 1024]⟩ : Shape).Idx → EReal) (b : (⟨2, ![1, 1024]⟩ : Shape).Idx → EReal)
    (hpA : (⟨2, ![m, 256]⟩ : Shape).Idx → EReal) (r : Fin n) (wx wh : Fin 256 → Fin 1024 → EReal) (bx bh : Fin 1024 → EReal)
    (e s : Fin 256 → EReal)
    (h0 : cur2 x0 r = e) (h1 : cur2 wxA = wx) (h2 : cur2 whA = wh) (h3 : ∀ q, cur2 b 0 q = bx q + bh q)
    (h4 : sum4 hnm (cur2 hpA) r = s) :
    iouNodeBlk hnm x0 wxA whA b hpA r = iouNode wx wh bx bh e s := by
  funext q
  unfold iouNodeBlk
  rw [h0, h1, h2, h3, h4]
  exact iouNode_presummed wx wh bx bh e s q

/-- The hidden state depends only on the pre-activation row and the children's cell-state sum. -/
theorem hid_cell_congr (iou iou' : Fin 1024 → EReal) (u u' : Fin 256 → EReal) (h1 : iou = iou') (h2 : u = u') (j : Fin 256) :
    hid iou (cellNode iou u) j = hid iou' (cellNode iou' u') j := by
  subst h1 h2; rfl

/-- So does the cell state. -/
theorem cell_congr (iou iou' : Fin 1024 → EReal) (u u' : Fin 256 → EReal) (h1 : iou = iou') (h2 : u = u') (j : Fin 256) :
    cellNode iou u j = cellNode iou' u' j := by
  subst h1 h2; rfl

/-- The sum over the four children of row r of block t is the sum over the four children of row 256·t + r of the level:
    child a sits in row 4·r + a of the block, which is row 1024·t + 4·r + a = 4·(256·t + r) + a of the level below. -/
theorem sum4_blk (X : S1024x256.Idx → EReal) (A : S1024x256.Idx → EReal) (x : Fin 1024 → Fin 256 → EReal)
    (hA : A = toArr2 x) (t : Fin cfg3.N)
    (hX : ∀ (s : Fin 1024) (k : Fin 256) (S : Fin 1024), S.val = t.val * 1024 + s.val → X (ix2 s k) = A (ix2 S k))
    (r : Fin 256) (R : Fin 256) (hR : R.val = t.val * 256 + r.val) :
    sum4 (by norm_num : 1024 = 4 * 256) (cur2 X) r = sum4 hm x R := by
  funext k
  unfold sum4
  refine Finset.sum_congr rfl fun a _ => ?_
  show X (ix2 _ k) = _
  rw [hX _ k ⟨4 * R.val + a.val, by have := R.isLt; have := a.isLt; omega⟩ (by
    show 4 * R.val + a.val = t.val * 1024 + (4 * r.val + a.val); omega), hA]
  rfl

section Point

variable (c : Dev nD) (E : Fin 256 → Fin 256 → EReal) (wx wh : Fin 256 → Fin 1024 → EReal) (bx bh : Fin 1024 → EReal)
  (hp cp : Fin 1024 → Fin 256 → EReal)

/-- The pre-activation row of row r of block t is that of node 256·t + r. -/
theorem iou_blk
    (hE : (V c main_v10 : S256x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v9_0 : S1024x256.Idx → EReal) = toArr2 hp)
    (t : Fin cfg3.N) (r : Fin 256) (R : Fin 256) (hR : R.val = t.val * 256 + r.val) :
    iouNodeBlk (by norm_num : 1024 = 4 * 256) (iblk3 V c 0 t : S256x256.Idx → EReal) (iblk3 V c 1 t : S256x1024.Idx → EReal)
        (iblk3 V c 2 t : S256x1024.Idx → EReal) (iblk3 V c 3 t : S1x1024.Idx → EReal) (iblk3 V c 4 t : S1024x256.Idx → EReal) r
      = iouNode wx wh bx bh (E R) (sum4 hm hp R) := by
  refine iouNodeBlk_eq _ _ _ _ _ _ r wx wh bx bh _ _ ?_ ?_ ?_ ?_ ?_
  · funext k
    show (iblk3 V c 0 t : S256x256.Idx → EReal) (ix2 r k) = _
    rw [blk0 V c t r k R hR, hE]; rfl
  · funext k q
    show (iblk3 V c 1 t : S256x1024.Idx → EReal) (ix2 k q) = _
    rw [blk1 V c t k q, hwx]; rfl
  · funext k q
    show (iblk3 V c 2 t : S256x1024.Idx → EReal) (ix2 k q) = _
    rw [blk2 V c t k q, hwh]; rfl
  · intro q
    show (iblk3 V c 3 t : S1x1024.Idx → EReal) (ix2 0 q) = _
    rw [blk3 V c t 0 q, hb]
  · exact sum4_blk _ _ hp hhp t (fun s k S hS => blk4 V c t s k S hS) r R hR

/-- The hidden state stored in row r, column j of block t is that of node 256·t + r. -/
theorem point_h
    (hE : (V c main_v10 : S256x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v9_0 : S1024x256.Idx → EReal) = toArr2 hp) (hcp : (V c main_v9_1 : S1024x256.Idx → EReal) = toArr2 cp)
    (t : Fin cfg3.N) (r : Fin 256) (j : Fin 256) (R : Fin 256) (hR : R.val = t.val * 256 + r.val) :
    k3_pay3 (iblk3 V c 0 t) (iblk3 V c 1 t) (iblk3 V c 4 t) (iblk3 V c 5 t) (iblk3 V c 2 t) (iblk3 V c 3 t) (ix2 r j)
      = nodeH wx wh bx bh hm E hp cp R j := by
  refine (k3_pay3_apply _ _ _ _ _ _ r j).trans ?_
  exact hid_cell_congr _ _ _ _ (iou_blk V c E wx wh bx bh hp hE hwx hwh hb hhp t r R hR)
    (sum4_blk _ _ cp hcp t (fun s k S hS => blk5 V c t s k S hS) r R hR) j

/-- The cell state stored in row r, column j of block t is that of node 256·t + r. -/
theorem point_c
    (hE : (V c main_v10 : S256x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v9_0 : S1024x256.Idx → EReal) = toArr2 hp) (hcp : (V c main_v9_1 : S1024x256.Idx → EReal) = toArr2 cp)
    (t : Fin cfg3.N) (r : Fin 256) (j : Fin 256) (R : Fin 256) (hR : R.val = t.val * 256 + r.val) :
    k3_pay2 (iblk3 V c 0 t) (iblk3 V c 1 t) (iblk3 V c 4 t) (iblk3 V c 5 t) (iblk3 V c 2 t) (iblk3 V c 3 t) (ix2 r j)
      = nodeC wx wh bx bh hm E hp cp R j := by
  refine (k3_pay2_apply _ _ _ _ _ _ r j).trans ?_
  exact cell_congr _ _ _ _ (iou_blk V c E wx wh bx bh hp hE hwx hwh hb hhp t r R hR)
    (sum4_blk _ _ cp hcp t (fun s k S hS => blk5 V c t s k S hS) r R hR) j

/-! ## What each block writes back, and the arrays after the last block -/

/-- Block t of the hidden-state array is written with the level's hidden states at rows 256·t .. 256·t + 255. -/
theorem flushed_h
    (hE : (V c main_v10 : S256x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v9_0 : S1024x256.Idx → EReal) = toArr2 hp) (hcp : (V c main_v9_1 : S1024x256.Idx → EReal) = toArr2 cp)
    (t : Fin cfg3.N) :
    (dat3 V c).flushed 6 t = ((cfg3.win 6).blk t).view.read (Elt Ideal) (toArr2 (nodeH wx wh bx bh hm E hp cp)) := by
  show (cfg3.win 6).cut (grid3.coords t) ((dat3 V c).after 6 t) = _
  rw [after3_6]
  unfold out3_6
  rw [View.canon_unit_zero hz]
  simp only [View.ld_unit_zero (S := S256x256) hz, View.ld_unit_zero (S := S256x1024) hz,
    View.ld_unit_zero (S := S1024x256) hz, View.ld_unit_zero (S := S1x1024) hz]
  have ht : t.val < 1 := Nat.lt_of_lt_of_eq t.isLt N_3
  funext y
  obtain ⟨r, j, rfl⟩ : ∃ (r : Fin 256) (j : Fin 256), y = ix2 r j := ⟨y 0, y 1, eq_ix2 (n0 := 256) (n1 := 256) y⟩
  obtain ⟨R, hR⟩ : ∃ R : Fin 256, R.val = t.val * 256 + r.val := ⟨⟨t.val * 256 + r.val, by have := r.isLt; omega⟩, rfl⟩
  have hemb : ((cfg3.win 6).blk t).view.emb (ix2 r j) = (ix2 R j : S256x256.Idx) := by
    obtain ⟨-, -, -, -, -, -, -, -, -, -, -, -, e0, e1, -⟩ := idx_facts t
    funext a; apply Fin.ext
    match a with
    | ⟨0, _⟩ => show win3_6.index t (0 : Fin 2) * 256 + 1 * r.val = R.val; omega
    | ⟨1, _⟩ => show win3_6.index t (1 : Fin 2) * 256 + 1 * j.val = j.val; omega
  show k3_pay3 (iblk3 V c 0 t) (iblk3 V c 1 t) (iblk3 V c 4 t) (iblk3 V c 5 t) (iblk3 V c 2 t) (iblk3 V c 3 t) (ix2 r j)
    = toArr2 (nodeH wx wh bx bh hm E hp cp) (((cfg3.win 6).blk t).view.emb (ix2 r j))
  rw [hemb]
  exact point_h V c E wx wh bx bh hp cp hE hwx hwh hb hhp hcp t r j R hR

/-- Block t of the cell-state array is written with the level's cell states at rows 256·t .. 256·t + 255. -/
theorem flushed_c
    (hE : (V c main_v10 : S256x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v9_0 : S1024x256.Idx → EReal) = toArr2 hp) (hcp : (V c main_v9_1 : S1024x256.Idx → EReal) = toArr2 cp)
    (t : Fin cfg3.N) :
    (dat3 V c).flushed 7 t = ((cfg3.win 7).blk t).view.read (Elt Ideal) (toArr2 (nodeC wx wh bx bh hm E hp cp)) := by
  show (cfg3.win 7).cut (grid3.coords t) ((dat3 V c).after 7 t) = _
  rw [after3_7]
  unfold out3_7
  rw [View.canon_unit_zero hz]
  simp only [View.ld_unit_zero (S := S256x256) hz, View.ld_unit_zero (S := S256x1024) hz,
    View.ld_unit_zero (S := S1024x256) hz, View.ld_unit_zero (S := S1x1024) hz]
  have ht : t.val < 1 := Nat.lt_of_lt_of_eq t.isLt N_3
  funext y
  obtain ⟨r, j, rfl⟩ : ∃ (r : Fin 256) (j : Fin 256), y = ix2 r j := ⟨y 0, y 1, eq_ix2 (n0 := 256) (n1 := 256) y⟩
  obtain ⟨R, hR⟩ : ∃ R : Fin 256, R.val = t.val * 256 + r.val := ⟨⟨t.val * 256 + r.val, by have := r.isLt; omega⟩, rfl⟩
  have hemb : ((cfg3.win 7).blk t).view.emb (ix2 r j) = (ix2 R j : S256x256.Idx) := by
    obtain ⟨-, -, -, -, -, -, -, -, -, -, -, -, -, -, e0, e1⟩ := idx_facts t
    funext a; apply Fin.ext
    match a with
    | ⟨0, _⟩ => show win3_7.index t (0 : Fin 2) * 256 + 1 * r.val = R.val; omega
    | ⟨1, _⟩ => show win3_7.index t (1 : Fin 2) * 256 + 1 * j.val = j.val; omega
  show k3_pay2 (iblk3 V c 0 t) (iblk3 V c 1 t) (iblk3 V c 4 t) (iblk3 V c 5 t) (iblk3 V c 2 t) (iblk3 V c 3 t) (ix2 r j)
    = toArr2 (nodeC wx wh bx bh hm E hp cp) (((cfg3.win 7).blk t).view.emb (ix2 r j))
  rw [hemb]
  exact point_c V c E wx wh bx bh hp cp hE hwx hwh hb hhp hcp t r j R hR

end Point

/-- An index of the array lies in block t exactly when each coordinate lies in the block's range on its axis. -/
theorem mem_blk6 (t : Fin cfg3.N) (i : S256x256.Idx) :
    i ∈ ((cfg3.win 6).blk t).view.set ↔ ∀ a : Fin 2, win3_6.index t a * S256x256.size a ≤ (i a).val
      ∧ (i a).val < win3_6.index t a * S256x256.size a + S256x256.size a := by
  show i ∈ ((View.whole main_v11_0).slice (win3_6.rect t)).set ↔ _
  rw [View.set_slice_whole, Rect.mem_set_unit]
  exact Iff.rfl

/-- The one block is the whole array: every row lies in it. -/
theorem cover6 (i : S256x256.Idx) : ∃ t : Fin cfg3.N, (cfg3.win 6).flush t = true ∧ i ∈ ((cfg3.win 6).blk t).view.set := by
  have hi0 : (i 0).val < 256 := (i 0).isLt
  have hi1 : (i 1).val < 256 := (i 1).isLt
  obtain ⟨t, ht⟩ : ∃ t : Fin cfg3.N, t.val = (i 0).val / 256 :=
    ⟨⟨(i 0).val / 256, by rw [show cfg3.N = 1 from N_3]; omega⟩, rfl⟩
  obtain ⟨-, -, -, -, -, -, -, -, -, -, -, -, e0, e1, -⟩ := idx_facts t
  refine ⟨t, flush3_6 t, ?_⟩
  rw [mem_blk6]
  intro a
  match a with
  | ⟨0, _⟩ =>
    show win3_6.index t (0 : Fin 2) * 256 ≤ (i 0).val ∧ (i 0).val < win3_6.index t (0 : Fin 2) * 256 + 256
    omega
  | ⟨1, _⟩ =>
    show win3_6.index t (1 : Fin 2) * 256 ≤ (i 1).val ∧ (i 1).val < win3_6.index t (1 : Fin 2) * 256 + 256
    omega

/-- An index of the array lies in block t exactly when each coordinate lies in the block's range on its axis. -/
theorem mem_blk7 (t : Fin cfg3.N) (i : S256x256.Idx) :
    i ∈ ((cfg3.win 7).blk t).view.set ↔ ∀ a : Fin 2, win3_7.index t a * S256x256.size a ≤ (i a).val
      ∧ (i a).val < win3_7.index t a * S256x256.size a + S256x256.size a := by
  show i ∈ ((View.whole main_v11_1).slice (win3_7.rect t)).set ↔ _
  rw [View.set_slice_whole, Rect.mem_set_unit]
  exact Iff.rfl

/-- The one block is the whole array: every row lies in it. -/
theorem cover7 (i : S256x256.Idx) : ∃ t : Fin cfg3.N, (cfg3.win 7).flush t = true ∧ i ∈ ((cfg3.win 7).blk t).view.set := by
  have hi0 : (i 0).val < 256 := (i 0).isLt
  have hi1 : (i 1).val < 256 := (i 1).isLt
  obtain ⟨t, ht⟩ : ∃ t : Fin cfg3.N, t.val = (i 0).val / 256 :=
    ⟨⟨(i 0).val / 256, by rw [show cfg3.N = 1 from N_3]; omega⟩, rfl⟩
  obtain ⟨-, -, -, -, -, -, -, -, -, -, -, -, -, -, e0, e1⟩ := idx_facts t
  refine ⟨t, flush3_7 t, ?_⟩
  rw [mem_blk7]
  intro a
  match a with
  | ⟨0, _⟩ =>
    show win3_7.index t (0 : Fin 2) * 256 ≤ (i 0).val ∧ (i 0).val < win3_7.index t (0 : Fin 2) * 256 + 256
    omega
  | ⟨1, _⟩ =>
    show win3_7.index t (1 : Fin 2) * 256 ≤ (i 1).val ∧ (i 1).val < win3_7.index t (1 : Fin 2) * 256 + 256
    omega

/-- After the last block the hidden-state array holds the level's hidden states. -/
theorem final_h (c : Dev nD) (E : Fin 256 → Fin 256 → EReal) (wx wh : Fin 256 → Fin 1024 → EReal) (bx bh : Fin 1024 → EReal)
    (hp cp : Fin 1024 → Fin 256 → EReal)
    (hE : (V c main_v10 : S256x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v9_0 : S1024x256.Idx → EReal) = toArr2 hp) (hcp : (V c main_v9_1 : S1024x256.Idx → EReal) = toArr2 cp) :
    ((dat3 V c).arrAt 6 cfg3.N : S256x256.Idx → EReal)
      = toArr2 (nodeH wx wh bx bh (by norm_num : 1024 = 4 * 256) E hp cp) :=
  (dat3 V c).arrAt_eq_of_cover 6 _ (fun t _ => flushed_h V c E wx wh bx bh hp cp hE hwx hwh hb hhp hcp t) cover6

/-- After the last block the cell-state array holds the level's cell states. -/
theorem final_c (c : Dev nD) (E : Fin 256 → Fin 256 → EReal) (wx wh : Fin 256 → Fin 1024 → EReal) (bx bh : Fin 1024 → EReal)
    (hp cp : Fin 1024 → Fin 256 → EReal)
    (hE : (V c main_v10 : S256x256.Idx → EReal) = toArr2 E) (hwx : (V c main_v2 : S256x1024.Idx → EReal) = toArr2 wx)
    (hwh : (V c main_v3 : S256x1024.Idx → EReal) = toArr2 wh)
    (hb : ∀ (u : Fin 1) (q : Fin 1024), (V c main_v1 : S1x1024.Idx → EReal) (ix2 u q) = bx q + bh q)
    (hhp : (V c main_v9_0 : S1024x256.Idx → EReal) = toArr2 hp) (hcp : (V c main_v9_1 : S1024x256.Idx → EReal) = toArr2 cp) :
    ((dat3 V c).arrAt 7 cfg3.N : S256x256.Idx → EReal)
      = toArr2 (nodeC wx wh bx bh (by norm_num : 1024 = 4 * 256) E hp cp) :=
  (dat3 V c).arrAt_eq_of_cover 7 _ (fun t _ => flushed_c V c E wx wh bx bh hp cp hE hwx hwh hb hhp hcp t) cover7

end Cert.KernelIdeal.Blocks3

end
-- ==== Proof.KChain.lean ====
/-
  The four kernel regions, level by level. The leaf region leaves the hidden and cell states of level 7 in its two
  output arrays; each later region finds the level below in the arrays the region before it wrote, its own embedding rows
  in the slice cut just before it, and the weights and the summed bias row as the first stretch left them, and leaves the
  states of its own level: levels 6, 5 and 4.
-/
import proofs.«148979_j61349312856636_2_alg».proof.Proof.KBound
import proofs.«148979_j61349312856636_2_alg».proof.Proof.Blocks0
import proofs.«148979_j61349312856636_2_alg».proof.Proof.Blocks1
import proofs.«148979_j61349312856636_2_alg».proof.Proof.Blocks2
import proofs.«148979_j61349312856636_2_alg».proof.Proof.Blocks3

set_option maxRecDepth 16384

noncomputable section

namespace Cert.KernelIdeal.Chain

open Cert.KernelIdeal Cert.KernelIdeal.Gen Cert.KernelIdeal.Bound Cert.TreeSpec
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-! ## Level 7: the leaves -/

theorem W2_h7 : (W2 m ρ c (Proc.devRef .tc main_v5_0) : S16384x256.Idx → EReal) = toArr2 (H7 (aE m c) (aWx m c) (aBx m c) (aBh m c)) :=
  (W2_arr m ρ c 3).trans (Blocks0.final_h (V1 m ρ) c _ _ _ _ (W1_v4 m ρ c) (W1_v2 m ρ c) (W1_v1 m ρ c))

theorem W2_c7 : (W2 m ρ c (Proc.devRef .tc main_v5_1) : S16384x256.Idx → EReal) = toArr2 (C7 (aE m c) (aWx m c) (aBx m c) (aBh m c)) :=
  (W2_arr m ρ c 4).trans (Blocks0.final_c (V1 m ρ) c _ _ _ _ (W1_v4 m ρ c) (W1_v2 m ρ c) (W1_v1 m ρ c))

/-- The weights and the bias row as the leaf region leaves them: untouched. -/
theorem W2_v2 : (W2 m ρ c (Proc.devRef .tc main_v2) : S256x1024.Idx → EReal) = toArr2 (aWx m c) :=
  (in0 m ρ c 1 rfl).trans (W1_v2 m ρ c)
theorem W2_v3 : (W2 m ρ c (Proc.devRef .tc main_v3) : S256x1024.Idx → EReal) = toArr2 (aWh m c) :=
  (W2_of_ne m ρ c main_v3 (by decide)).trans (W1_v3 m ρ c)
theorem W2_v1 (u : Fin 1) (q : Fin 1024) :
    (W2 m ρ c (Proc.devRef .tc main_v1) : S1x1024.Idx → EReal) (ix2 u q) = aBx m c q + aBh m c q :=
  (congrFun (in0 m ρ c 2 rfl) (ix2 u q)).trans (W1_v1 m ρ c u q)

/-! ## Level 6: region 1 -/

/-- The level's embedding rows, cut out just before the region. -/
theorem W3_e : (W3 m ρ c (Proc.devRef .tc main_v6) : S4096x256.Idx → EReal)
    = toArr2 (rows (aE m c) 1365 4096 (by norm_num)) := by
  have e : W3 m ρ c (Proc.devRef .tc main_v6)
      = extractStridedSlice S4096x256 ![1365, 0] (W2 m ρ c (Proc.devRef .tc main_arg0) : S21845x256.Idx → EReal)
          slices_S21845x256_S4096x256_1365_0 := by
    show StableHlo.after hostOps1 (W2 m ρ c) (Proc.devRef .tc main_v6) = _
    after_results
  rw [e, W2_arg0 m ρ c]
  exact rowSlice_rows m c 1365 (by norm_num) _

theorem W3_v2 : (W3 m ρ c (Proc.devRef .tc main_v2) : S256x1024.Idx → EReal) = toArr2 (aWx m c) :=
  (keep1 m ρ c main_v2 (by decide)).trans (W2_v2 m ρ c)
theorem W3_v3 : (W3 m ρ c (Proc.devRef .tc main_v3) : S256x1024.Idx → EReal) = toArr2 (aWh m c) :=
  (keep1 m ρ c main_v3 (by decide)).trans (W2_v3 m ρ c)
theorem W3_v1 (u : Fin 1) (q : Fin 1024) :
    (W3 m ρ c (Proc.devRef .tc main_v1) : S1x1024.Idx → EReal) (ix2 u q) = aBx m c q + aBh m c q :=
  (congrFun (keep1 m ρ c main_v1 (by decide)) (ix2 u q)).trans (W2_v1 m ρ c u q)
theorem W3_ph : (W3 m ρ c (Proc.devRef .tc main_v5_0) : S16384x256.Idx → EReal) = toArr2 (H7 (aE m c) (aWx m c) (aBx m c) (aBh m c)) :=
  (keep1 m ρ c main_v5_0 (by decide)).trans (W2_h7 m ρ c)
theorem W3_pc : (W3 m ρ c (Proc.devRef .tc main_v5_1) : S16384x256.Idx → EReal) = toArr2 (C7 (aE m c) (aWx m c) (aBx m c) (aBh m c)) :=
  (keep1 m ρ c main_v5_1 (by decide)).trans (W2_c7 m ρ c)

theorem W4_h6 : (W4 m ρ c (Proc.devRef .tc main_v7_0) : S4096x256.Idx → EReal) = toArr2 (H6 (aE m c) (aWx m c) (aWh m c) (aBx m c) (aBh m c)) :=
  (W4_arr m ρ c 6).trans (Blocks1.final_h (V3 m ρ) c _ _ _ _ _ _ _ (W3_e m ρ c) (W3_v2 m ρ c) (W3_v3 m ρ c)
    (W3_v1 m ρ c) (W3_ph m ρ c) (W3_pc m ρ c))
theorem W4_c6 : (W4 m ρ c (Proc.devRef .tc main_v7_1) : S4096x256.Idx → EReal) = toArr2 (C6 (aE m c) (aWx m c) (aWh m c) (aBx m c) (aBh m c)) :=
  (W4_arr m ρ c 7).trans (Blocks1.final_c (V3 m ρ) c _ _ _ _ _ _ _ (W3_e m ρ c) (W3_v2 m ρ c) (W3_v3 m ρ c)
    (W3_v1 m ρ c) (W3_ph m ρ c) (W3_pc m ρ c))

theorem W4_v2 : (W4 m ρ c (Proc.devRef .tc main_v2) : S256x1024.Idx → EReal) = toArr2 (aWx m c) :=
  (in1 m ρ c 1 rfl).trans (W3_v2 m ρ c)
theorem W4_v3 : (W4 m ρ c (Proc.devRef .tc main_v3) : S256x1024.Idx → EReal) = toArr2 (aWh m c) :=
  (in1 m ρ c 2 rfl).trans (W3_v3 m ρ c)
theorem W4_v1 (u : Fin 1) (q : Fin 1024) :
    (W4 m ρ c (Proc.devRef .tc main_v1) : S1x1024.Idx → EReal) (ix2 u q) = aBx m c q + aBh m c q :=
  (congrFun (in1 m ρ c 3 rfl) (ix2 u q)).trans (W3_v1 m ρ c u q)

/-! ## Level 5: region 2 -/

/-- The level's embedding rows, cut out just before the region. -/
theorem W5_e : (W5 m ρ c (Proc.devRef .tc main_v8) : S1024x256.Idx → EReal)
    = toArr2 (rows (aE m c) 341 1024 (by norm_num)) := by
  have e : W5 m ρ c (Proc.devRef .tc main_v8)
      = extractStridedSlice S1024x256 ![341, 0] (W4 m ρ c (Proc.devRef .tc main_arg0) : S21845x256.Idx → EReal)
          slices_S21845x256_S1024x256_341_0 := by
    show StableHlo.after hostOps2 (W4 m ρ c) (Proc.devRef .tc main_v8) = _
    after_results
  rw [e, W4_arg0 m ρ c]
  exact rowSlice_rows m c 341 (by norm_num) _

theorem W5_v2 : (W5 m ρ c (Proc.devRef .tc main_v2) : S256x1024.Idx → EReal) = toArr2 (aWx m c) :=
  (keep2 m ρ c main_v2 (by decide)).trans (W4_v2 m ρ c)
theorem W5_v3 : (W5 m ρ c (Proc.devRef .tc main_v3) : S256x1024.Idx → EReal) = toArr2 (aWh m c) :=
  (keep2 m ρ c main_v3 (by decide)).trans (W4_v3 m ρ c)
theorem W5_v1 (u : Fin 1) (q : Fin 1024) :
    (W5 m ρ c (Proc.devRef .tc main_v1) : S1x1024.Idx → EReal) (ix2 u q) = aBx m c q + aBh m c q :=
  (congrFun (keep2 m ρ c main_v1 (by decide)) (ix2 u q)).trans (W4_v1 m ρ c u q)
theorem W5_ph : (W5 m ρ c (Proc.devRef .tc main_v7_0) : S4096x256.Idx → EReal) = toArr2 (H6 (aE m c) (aWx m c) (aWh m c) (aBx m c) (aBh m c)) :=
  (keep2 m ρ c main_v7_0 (by decide)).trans (W4_h6 m ρ c)
theorem W5_pc : (W5 m ρ c (Proc.devRef .tc main_v7_1) : S4096x256.Idx → EReal) = toArr2 (C6 (aE m c) (aWx m c) (aWh m c) (aBx m c) (aBh m c)) :=
  (keep2 m ρ c main_v7_1 (by decide)).trans (W4_c6 m ρ c)

theorem W6_h5 : (W6 m ρ c (Proc.devRef .tc main_v9_0) : S1024x256.Idx → EReal) = toArr2 (H5 (aE m c) (aWx m c) (aWh m c) (aBx m c) (aBh m c)) :=
  (W6_arr m ρ c 6).trans (Blocks2.final_h (V5 m ρ) c _ _ _ _ _ _ _ (W5_e m ρ c) (W5_v2 m ρ c) (W5_v3 m ρ c)
    (W5_v1 m ρ c) (W5_ph m ρ c) (W5_pc m ρ c))
theorem W6_c5 : (W6 m ρ c (Proc.devRef .tc main_v9_1) : S1024x256.Idx → EReal) = toArr2 (C5 (aE m c) (aWx m c) (aWh m c) (aBx m c) (aBh m c)) :=
  (W6_arr m ρ c 7).trans (Blocks2.final_c (V5 m ρ) c _ _ _ _ _ _ _ (W5_e m ρ c) (W5_v2 m ρ c) (W5_v3 m ρ c)
    (W5_v1 m ρ c) (W5_ph m ρ c) (W5_pc m ρ c))

theorem W6_v2 : (W6 m ρ c (Proc.devRef .tc main_v2) : S256x1024.Idx → EReal) = toArr2 (aWx m c) :=
  (in2 m ρ c 1 rfl).trans (W5_v2 m ρ c)
theorem W6_v3 : (W6 m ρ c (Proc.devRef .tc main_v3) : S256x1024.Idx → EReal) = toArr2 (aWh m c) :=
  (in2 m ρ c 2 rfl).trans (W5_v3 m ρ c)
theorem W6_v1 (u : Fin 1) (q : Fin 1024) :
    (W6 m ρ c (Proc.devRef .tc main_v1) : S1x1024.Idx → EReal) (ix2 u q) = aBx m c q + aBh m c q :=
  (congrFun (in2 m ρ c 3 rfl) (ix2 u q)).trans (W5_v1 m ρ c u q)

/-! ## Level 4: region 3 -/

/-- The level's embedding rows, cut out just before the region. -/
theorem W7_e : (W7 m ρ c (Proc.devRef .tc main_v10) : S256x256.Idx → EReal)
    = toArr2 (rows (aE m c) 85 256 (by norm_num)) := by
  have e : W7 m ρ c (Proc.devRef .tc main_v10)
      = extractStridedSlice S256x256 ![85, 0] (W6 m ρ c (Proc.devRef .tc main_arg0) : S21845x256.Idx → EReal)
          slices_S21845x256_S256x256_85_0 := by
    show StableHlo.after hostOps3 (W6 m ρ c) (Proc.devRef .tc main_v10) = _
    after_results
  rw [e, W6_arg0 m ρ c]
  exact rowSlice_rows m c 85 (by norm_num) _

theorem W7_v2 : (W7 m ρ c (Proc.devRef .tc main_v2) : S256x1024.Idx → EReal) = toArr2 (aWx m c) :=
  (keep3 m ρ c main_v2 (by decide)).trans (W6_v2 m ρ c)
theorem W7_v3 : (W7 m ρ c (Proc.devRef .tc main_v3) : S256x1024.Idx → EReal) = toArr2 (aWh m c) :=
  (keep3 m ρ c main_v3 (by decide)).trans (W6_v3 m ρ c)
theorem W7_v1 (u : Fin 1) (q : Fin 1024) :
    (W7 m ρ c (Proc.devRef .tc main_v1) : S1x1024.Idx → EReal) (ix2 u q) = aBx m c q + aBh m c q :=
  (congrFun (keep3 m ρ c main_v1 (by decide)) (ix2 u q)).trans (W6_v1 m ρ c u q)
theorem W7_ph : (W7 m ρ c (Proc.devRef .tc main_v9_0) : S1024x256.Idx → EReal) = toArr2 (H5 (aE m c) (aWx m c) (aWh m c) (aBx m c) (aBh m c)) :=
  (keep3 m ρ c main_v9_0 (by decide)).trans (W6_h5 m ρ c)
theorem W7_pc : (W7 m ρ c (Proc.devRef .tc main_v9_1) : S1024x256.Idx → EReal) = toArr2 (C5 (aE m c) (aWx m c) (aWh m c) (aBx m c) (aBh m c)) :=
  (keep3 m ρ c main_v9_1 (by decide)).trans (W6_c5 m ρ c)

theorem W8_h4 : (W8 m ρ c (Proc.devRef .tc main_v11_0) : S256x256.Idx → EReal) = toArr2 (H4 (aE m c) (aWx m c) (aWh m c) (aBx m c) (aBh m c)) :=
  (W8_arr m ρ c 6).trans (Blocks3.final_h (V7 m ρ) c _ _ _ _ _ _ _ (W7_e m ρ c) (W7_v2 m ρ c) (W7_v3 m ρ c)
    (W7_v1 m ρ c) (W7_ph m ρ c) (W7_pc m ρ c))
theorem W8_c4 : (W8 m ρ c (Proc.devRef .tc main_v11_1) : S256x256.Idx → EReal) = toArr2 (C4 (aE m c) (aWx m c) (aWh m c) (aBx m c) (aBh m c)) :=
  (W8_arr m ρ c 7).trans (Blocks3.final_c (V7 m ρ) c _ _ _ _ _ _ _ (W7_e m ρ c) (W7_v2 m ρ c) (W7_v3 m ρ c)
    (W7_v1 m ρ c) (W7_ph m ρ c) (W7_pc m ρ c))

theorem W8_v2 : (W8 m ρ c (Proc.devRef .tc main_v2) : S256x1024.Idx → EReal) = toArr2 (aWx m c) :=
  (in3 m ρ c 1 rfl).trans (W7_v2 m ρ c)
theorem W8_v3 : (W8 m ρ c (Proc.devRef .tc main_v3) : S256x1024.Idx → EReal) = toArr2 (aWh m c) :=
  (in3 m ρ c 2 rfl).trans (W7_v3 m ρ c)
theorem W8_v1 (u : Fin 1) (q : Fin 1024) :
    (W8 m ρ c (Proc.devRef .tc main_v1) : S1x1024.Idx → EReal) (ix2 u q) = aBx m c q + aBh m c q :=
  (congrFun (in3 m ρ c 3 rfl) (ix2 u q)).trans (W7_v1 m ρ c u q)

end Cert.KernelIdeal.Chain

end
-- ==== Proof.KTailLevels.lean ====
/-
  The four highest levels, evaluated by the last stretch of host operations: 46 operations per level (45 for the root,
  whose one bias row needs no spreading over rows). Each level cuts its rows out of the embedding table, sums the four
  children of every node in the two arrays the level below left, multiplies the rows by the input weights and the sums by
  the recurrent weights, adds the two products and then the summed bias row, and applies the cell. Read at a row and a
  column this is the specification's level: with the two products added first and the two biases added first the
  pre-activation is the same, addition of extended reals being associative and commutative.
-/
import proofs.«148979_j61349312856636_2_alg».proof.Proof.Gen.KernelIdeal.Launch
import proofs.«148979_j61349312856636_2_alg».proof.Proof.TreeSpec
import proofs.«148979_j61349312856636_2_alg».proof.Proof.HostIdx
import Idealize.ShloMosaic.Lib.StableHlo.Run

set_option maxRecDepth 16384

noncomputable section

namespace Cert.KernelIdeal.Tail

open Cert.KernelIdeal Cert.KernelIdeal.Gen Cert.TreeSpec Cert.HostIdx
open Idealize.ShloMosaic Idealize.ShloMosaic.ValueIdx Idealize.ShloMosaic.TcCoe Idealize.SL.Sem Idealize.ShloMosaic.StableHlo

/-! ## One level's pre-activation, read at a row and a column -/

/-- The pre-activation of a level of n nodes as the host operations compute it: the level's embedding rows times the
    input weights, plus the children's hidden-state sums times the recurrent weights, plus the summed bias row. -/
theorem iou_apply {n k : ℕ} (hk : k = 4 * n) (off : ℕ) (hoff : off + n ≤ 21845)
    (A0 : FVec Ideal ⟨2, ![21845, 256]⟩ .f32) (A1 A3 : FVec Ideal ⟨2, ![256, 1024]⟩ .f32)
    (B : FVec Ideal ⟨2, ![1, 1024]⟩ .f32) (HP : FVec Ideal ⟨2, ![k, 256]⟩ .f32)
    (E : Fin 21845 → Fin 256 → EReal) (wx wh : Fin 256 → Fin 1024 → EReal) (bx bh : Fin 1024 → EReal)
    (hp : Fin k → Fin 256 → EReal)
    (hE : A0 = toArr2 E) (hwx : A1 = toArr2 wx) (hwh : A3 = toArr2 wh)
    (hb : ∀ (u : Fin 1) (q : Fin 1024), B (ix2 u q) = bx q + bh q) (hhp : HP = toArr2 hp)
    (D : DotDims ⟨2, ![n, 256]⟩ ⟨2, ![256, 1024]⟩ ⟨2, ![n, 1024]⟩) (hD : D = DotDims.plain n 256 1024)
    (hsl : (⟨2, ![21845, 256]⟩ : Shape).Slices ![off, 0] ⟨2, ![n, 256]⟩)
    (hcast : (⟨2, ![k, 256]⟩ : Shape).ShapeCasts ⟨3, ![n, 4, 256]⟩)
    (hred : (⟨3, ![n, 4, 256]⟩ : Shape).ReducesTo [1] ⟨2, ![n, 256]⟩) (hS : 0 < (⟨0, ![]⟩ : Shape).numel)
    (hbc : (⟨2, ![1, 1024]⟩ : Shape).BroadcastsInDim ⟨2, ![n, 1024]⟩ ![0, 1]) (p : Fin n) (q : Fin 1024) :
    addf (F := Ideal) (φ := .f32)
      (addf (Host.dotGeneral D none (extractStridedSlice ⟨2, ![n, 256]⟩ ![off, 0] A0 hsl) A1)
        (Host.dotGeneral D none
          (Host.reduceAdd (shapeCast ⟨3, ![n, 4, 256]⟩ HP hcast) (constant (F := Ideal) ⟨0, ![]⟩ .f32 0x00000000#32) hred hS) A3))
      (broadcastInDim ⟨2, ![n, 1024]⟩ ![0, 1] hbc B) (ix2 p q)
      = iouNode wx wh bx bh (rows E off n hoff p) (sum4 hk hp p) q := by
  have e1 : cur2 (extractStridedSlice ⟨2, ![n, 256]⟩ ![off, 0] A0 hsl) p = rows E off n hoff p := by
    funext kk
    show extractStridedSlice ⟨2, ![n, 256]⟩ ![off, 0] A0 hsl (ix2 p kk) = _
    rw [rowSlice_apply off hoff, hE]
    rfl
  have e2 : cur2 (Host.reduceAdd (shapeCast ⟨3, ![n, 4, 256]⟩ HP hcast)
      (constant (F := Ideal) ⟨0, ![]⟩ .f32 0x00000000#32) hred hS) p = sum4 hk hp p := by
    funext kk
    show Host.reduceAdd (shapeCast ⟨3, ![n, 4, 256]⟩ HP hcast) (constant (F := Ideal) ⟨0, ![]⟩ .f32 0x00000000#32) hred hS (ix2 p kk) = _
    rw [sum4_apply hk, hhp]
    rfl
  show (Host.dotGeneral D none _ A1 (ix2 p q) + Host.dotGeneral D none _ A3 (ix2 p q))
      + broadcastInDim ⟨2, ![n, 1024]⟩ ![0, 1] hbc B (ix2 p q) = _
  rw [dot_apply D hD, dot_apply D hD, biasRows_apply, hb, e1, e2, hwx, hwh, ← iouNode_presummed]
  rfl

/-- The root's pre-activation: the same with the one bias row added as it is. -/
theorem iou_apply_root {k : ℕ} (hk : k = 4 * 1) (hoff : 0 + 1 ≤ 21845)
    (A0 : FVec Ideal ⟨2, ![21845, 256]⟩ .f32) (A1 A3 : FVec Ideal ⟨2, ![256, 1024]⟩ .f32)
    (B : FVec Ideal ⟨2, ![1, 1024]⟩ .f32) (HP : FVec Ideal ⟨2, ![k, 256]⟩ .f32)
    (E : Fin 21845 → Fin 256 → EReal) (wx wh : Fin 256 → Fin 1024 → EReal) (bx bh : Fin 1024 → EReal)
    (hp : Fin k → Fin 256 → EReal)
    (hE : A0 = toArr2 E) (hwx : A1 = toArr2 wx) (hwh : A3 = toArr2 wh)
    (hb : ∀ (u : Fin 1) (q : Fin 1024), B (ix2 u q) = bx q + bh q) (hhp : HP = toArr2 hp)
    (D : DotDims ⟨2, ![1, 256]⟩ ⟨2, ![256, 1024]⟩ ⟨2, ![1, 1024]⟩) (hD : D = DotDims.plain 1 256 1024)
    (hsl : (⟨2, ![21845, 256]⟩ : Shape).Slices ![0, 0] ⟨2, ![1, 256]⟩)
    (hcast : (⟨2, ![k, 256]⟩ : Shape).ShapeCasts ⟨3, ![1, 4, 256]⟩)
    (hred : (⟨3, ![1, 4, 256]⟩ : Shape).ReducesTo [1] ⟨2, ![1, 256]⟩) (hS : 0 < (⟨0, ![]⟩ : Shape).numel)
    (p : Fin 1) (q : Fin 1024) :
    addf (F := Ideal) (φ := .f32)
      (addf (Host.dotGeneral D none (extractStridedSlice ⟨2, ![1, 256]⟩ ![0, 0] A0 hsl) A1)
        (Host.dotGeneral D none
          (Host.reduceAdd (shapeCast ⟨3, ![1, 4, 256]⟩ HP hcast) (constant (F := Ideal) ⟨0, ![]⟩ .f32 0x00000000#32) hred hS) A3))
      B (ix2 p q)
      = iouNode wx wh bx bh (rows E 0 1 hoff p) (sum4 hk hp p) q := by
  have e1 : cur2 (extractStridedSlice ⟨2, ![1, 256]⟩ ![0, 0] A0 hsl) p = rows E 0 1 hoff p := by
    funext kk
    show extractStridedSlice ⟨2, ![1, 256]⟩ ![0, 0] A0 hsl (ix2 p kk) = _
    rw [rowSlice_apply 0 hoff, hE]
    rfl
  have e2 : cur2 (Host.reduceAdd (shapeCast ⟨3, ![1, 4, 256]⟩ HP hcast)
      (constant (F := Ideal) ⟨0, ![]⟩ .f32 0x00000000#32) hred hS) p = sum4 hk hp p := by
    funext kk
    show Host.reduceAdd (shapeCast ⟨3, ![1, 4, 256]⟩ HP hcast) (constant (F := Ideal) ⟨0, ![]⟩ .f32 0x00000000#32) hred hS (ix2 p kk) = _
    rw [sum4_apply hk, hhp]
    rfl
  show (Host.dotGeneral D none _ A1 (ix2 p q) + Host.dotGeneral D none _ A3 (ix2 p q)) + B (ix2 p q) = _
  rw [dot_apply D hD, dot_apply D hD, hb, e1, e2, hwx, hwh, ← iouNode_presummed]
  rfl

/-! ## The stretch cut into its four levels -/

variable {F : FTy → Type} [FloatOps F]

/-- Level 3's 46 operations. -/
abbrev ops3 : List (HloOp τ sig (Elt F)) :=
  [ StableHlo.unary main_arg0 main_v12 ((extractStridedSlice S64x256 ![21, 0] · slices_S21845x256_S64x256_21_0) : (⟨S21845x256, .f32⟩ : BufTy).Contents (Elt F) → (⟨S64x256, .f32⟩ : BufTy).Contents (Elt F)),
    StableHlo.reshape main_v11_0 main_v13 rfl shapeCasts_S256x256_S64x4x256,
    StableHlo.nullary main_cst (constant S_ .f32 0x00000000#32),
    StableHlo.binary main_v13 main_cst main_v14 ((fun x v => Host.reduceAdd x v reducesTo_S64x4x256_S64x256_d1 h_S_) : (⟨S64x4x256, .f32⟩ : BufTy).Contents (Elt F) → (⟨S_, .f32⟩ : BufTy).Contents (Elt F) → (⟨S64x256, .f32⟩ : BufTy).Contents (Elt F)),
    StableHlo.reshape main_v11_1 main_v15 rfl shapeCasts_S256x256_S64x4x256,
    StableHlo.nullary main_cst_0 (constant S_ .f32 0x00000000#32),
    StableHlo.binary main_v15 main_cst_0 main_v16 ((fun x v => Host.reduceAdd x v reducesTo_S64x4x256_S64x256_d1 h_S_) : (⟨S64x4x256, .f32⟩ : BufTy).Contents (Elt F) → (⟨S_, .f32⟩ : BufTy).Contents (Elt F) → (⟨S64x256, .f32⟩ : BufTy).Contents (Elt F)),
    StableHlo.binary main_v12 main_arg1 main_v17 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F)),
    StableHlo.binary main_v14 main_arg3 main_v18 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F)),
    StableHlo.binary main_v17 main_v18 main_v19 (addf : (⟨S64x1024, .f32⟩ : BufTy).Contents (Elt F) → (⟨S64x1024, .f32⟩ : BufTy).Contents (Elt F) → (⟨S64x1024, .f32⟩ : BufTy).Contents (Elt F)),
    StableHlo.unary main_v1 main_v20 (broadcastInDim S64x1024 ![0, 1] bcast_S1x1024_S64x1024_0_1 : (⟨S1x1024, .f32⟩ : BufTy).Contents (Elt F) → (⟨S64x1024, .f32⟩ : BufTy).Contents (Elt F)),
    StableHlo.binary main_v19 main_v20 main_v21 (addf : (⟨S64x1024, .f32⟩ : BufTy).Contents (Elt F) → (⟨S64x1024, .f32⟩ : BufTy).Contents (Elt F) → (⟨S64x1024, .f32⟩ : BufTy).Contents (Elt F)),
    StableHlo.unary main_v21 main_v22 ((extractStridedSlice S64x256 ![0, 0] · slices_S64x1024_S64x256_0_0) : (⟨S64x1024, .f32⟩ : BufTy).Contents (Elt F) → (⟨S64x256, .f32⟩ : BufTy).Contents (Elt F)),
    StableHlo.unary main_v21 main_v23 ((extractStridedSlice S64x256 ![0, 256] · slices_S64x1024_S64x256_0_256) : (⟨S64x1024, .f32⟩ : BufTy).Contents (Elt F) → (⟨S64x256, .f32⟩ : BufTy).Contents (Elt F)),
    StableHlo.unary main_v21 main_v24 ((extractStridedSlice S64x256 ![0, 512] · slices_S64x1024_S64x256_0_512) : (⟨S64x1024, .f32⟩ : BufTy).Contents (Elt F) → (⟨S64x256, .f32⟩ : BufTy).Contents (Elt F)),
    StableHlo.unary main_v21 main_v25 ((extractStridedSlice S64x256 ![0, 768] · slices_S64x1024_S64x256_0_768) : (⟨S64x1024, .f32⟩ : BufTy).Contents (Elt F) → (⟨S64x256, .f32⟩ : BufTy).Contents (Elt F)),
    StableHlo.unary main_v22 main_v26 (Host.negf : (⟨S64x256, .f32⟩ : BufTy).Contents (Elt F) → (⟨S64x256, .f32⟩ : BufTy).Contents (Elt F)),
    StableHlo.unary main_v26 main_v27 (Host.exp : (⟨S64x256, .f32⟩ : BufTy).Contents (Elt F) → (⟨S64x256, .f32⟩ : BufTy).Contents (Elt F)),
    StableHlo.nullary main_cst_1 (constant S_ .f32 0x3F800000#32),
    StableHlo.unary main_cst_1 main_v28 (broadcastInDim S64x256 ![] bcast_S_S64x256 : (⟨S_, .f32⟩ : BufTy).Contents (Elt F) → (⟨S64x256, .f32⟩ : BufTy).Contents (Elt F)),
    StableHlo.binary main_v28 main_v27 main_v29 (addf : (⟨S64x256, .f32⟩ : BufTy).Contents (Elt F) → (⟨S64x256, .f32⟩ : BufTy).Contents (Elt F) → (⟨S64x256, .f32⟩ : BufTy).Contents (Elt F)),
    StableHlo.nullary main_cst_2 (constant S_ .f32 0x3F800000#32),
    StableHlo.unary main_cst_2 main_v30 (broadcastInDim S64x256 ![] bcast_S_S64x256 : (⟨S_, .f32⟩ : BufTy).Contents (Elt F) → (⟨S64x256, .f32⟩ : BufTy).Contents (Elt F)),
    StableHlo.binary main_v30 main_v29 main_v31 (Host.divf : (⟨S64x256, .f32⟩ : BufTy).Contents (Elt F) → (⟨S64x256, .f32⟩ : BufTy).Contents (Elt F) → (⟨S64x256, .f32⟩ : BufTy).Contents (Elt F)),
    StableHlo.unary main_v23 main_v32 (Host.negf : (⟨S64x256, .f32⟩ : BufTy).Contents (Elt F) → (⟨S64x256, .f32⟩ : BufTy).Contents (Elt F)),
    StableHlo.unary main_v32 main_v33 (Host.exp : (⟨S64x256, .f32⟩ : BufTy).Contents (Elt F) → (⟨S64x256, .f32⟩ : BufTy).Contents (Elt F)),
    StableHlo.nullary main_cst_3 (constant S_ .f32 0x3F800000#32),
    StableHlo.unary main_cst_3 main_v34 (broadcastInDim S64x256 ![] bcast_S_S64x256 : (⟨S_, .f32⟩ : BufTy).Contents (Elt F) → (⟨S64x256, .f32⟩ : BufTy).Contents (Elt F)),
    StableHlo.binary main_v34 main_v33 main_v35 (addf : (⟨S64x256, .f32⟩ : BufTy).Contents (Elt F) → (⟨S64x256, .f32⟩ : BufTy).Contents (Elt F) → (⟨S64x256, .f32⟩ : BufTy).Contents (Elt F)),
    StableHlo.nullary main_cst_4 (constant S_ .f32 0x3F800000#32),
    StableHlo.unary main_cst_4 main_v36 (broadcastInDim S64x256 ![] bcast_S_S64x256 : (⟨S_, .f32⟩ : BufTy).Contents (Elt F) → (⟨S64x256, .f32⟩ : BufTy).Contents (Elt F)),
    StableHlo.binary main_v36 main_v35 main_v37 (Host.divf : (⟨S64x256, .f32⟩ : BufTy).Contents (Elt F) → (⟨S64x256, .f32⟩ : BufTy).Contents (Elt F) → (⟨S64x256, .f32⟩ : BufTy).Contents (Elt F)),
    StableHlo.unary main_v24 main_v38 (Host.tanh : (⟨S64x256, .f32⟩ : BufTy).Contents (Elt F) → (⟨S64x256, .f32⟩ : BufTy).Contents (Elt F)),
    StableHlo.unary main_v25 main_v39 (Host.negf : (⟨S64x256, .f32⟩ : BufTy).Contents (Elt F) → (⟨S64x256, .f32⟩ : BufTy).Contents (Elt F)),
    StableHlo.unary main_v39 main_v40 (Host.exp : (⟨S64x256, .f32⟩ : BufTy).Contents (Elt F) → (⟨S64x256, .f32⟩ : BufTy).Contents (Elt F)),
    StableHlo.nullary main_cst_5 (constant S_ .f32 0x3F800000#32),
    StableHlo.unary main_cst_5 main_v41 (broadcastInDim S64x256 ![] bcast_S_S64x256 : (⟨S_, .f32⟩ : BufTy).Contents (Elt F) → (⟨S64x256, .f32⟩ : BufTy).Contents (Elt F)),
    StableHlo.binary main_v41 main_v40 main_v42 (addf : (⟨S64x256, .f32⟩ : BufTy).Contents (Elt F) → (⟨S64x256, .f32⟩ : BufTy).Contents (Elt F) → (⟨S64x256, .f32⟩ : BufTy).Contents (Elt F)),
    StableHlo.nullary main_cst_6 (constant S_ .f32 0x3F800000#32),
    StableHlo.unary main_cst_6 main_v43 (broadcastInDim S64x256 ![] bcast_S_S64x256 : (⟨S_, .f32⟩ : BufTy).Contents (Elt F) → (⟨S64x256, .f32⟩ : BufTy).Contents (Elt F)),
    StableHlo.binary main_v43 main_v42 main_v44 (Host.divf : (⟨S64x256, .f32⟩ : BufTy).Contents (Elt F) → (⟨S64x256, .f32⟩ : BufTy).Contents (Elt F) → (⟨S64x256, .f32⟩ : BufTy).Contents (Elt F)),
    StableHlo.binary main_v31 main_v38 main_v45 (mulf : (⟨S64x256, .f32⟩ : BufTy).Contents (Elt F) → (⟨S64x256, .f32⟩ : BufTy).Contents (Elt F) → (⟨S64x256, .f32⟩ : BufTy).Contents (Elt F)),
    StableHlo.binary main_v44 main_v16 main_v46 (mulf : (⟨S64x256, .f32⟩ : BufTy).Contents (Elt F) → (⟨S64x256, .f32⟩ : BufTy).Contents (Elt F) → (⟨S64x256, .f32⟩ : BufTy).Contents (Elt F)),
    StableHlo.binary main_v45 main_v46 main_v47 (addf : (⟨S64x256, .f32⟩ : BufTy).Contents (Elt F) → (⟨S64x256, .f32⟩ : BufTy).Contents (Elt F) → (⟨S64x256, .f32⟩ : BufTy).Contents (Elt F)),
    StableHlo.unary main_v47 main_v48 (Host.tanh : (⟨S64x256, .f32⟩ : BufTy).Contents (Elt F) → (⟨S64x256, .f32⟩ : BufTy).Contents (Elt F)),
    StableHlo.binary main_v37 main_v48 main_v49 (mulf : (⟨S64x256, .f32⟩ : BufTy).Contents (Elt F) → (⟨S64x256, .f32⟩ : BufTy).Contents (Elt F) → (⟨S64x256, .f32⟩ : BufTy).Contents (Elt F)) ]

/-- Level 2's 46 operations. -/
abbrev ops2 : List (HloOp τ sig (Elt F)) :=
  [ StableHlo.unary main_arg0 main_v50 ((extractStridedSlice S16x256 ![5, 0] · slices_S21845x256_S16x256_5_0) : (⟨S21845x256, .f32⟩ : BufTy).Contents (Elt F) → (⟨S16x256, .f32⟩ : BufTy).Contents (Elt F)),
    StableHlo.reshape main_v49 main_v51 rfl shapeCasts_S64x256_S16x4x256,
    StableHlo.nullary main_cst_7 (constant S_ .f32 0x00000000#32),
    StableHlo.binary main_v51 main_cst_7 main_v52 ((fun x v => Host.reduceAdd x v reducesTo_S16x4x256_S16x256_d1 h_S_) : (⟨S16x4x256, .f32⟩ : BufTy).Contents (Elt F) → (⟨S_, .f32⟩ : BufTy).Contents (Elt F) → (⟨S16x256, .f32⟩ : BufTy).Contents (Elt F)),
    StableHlo.reshape main_v47 main_v53 rfl shapeCasts_S64x256_S16x4x256,
    StableHlo.nullary main_cst_8 (constant S_ .f32 0x00000000#32),
    StableHlo.binary main_v53 main_cst_8 main_v54 ((fun x v => Host.reduceAdd x v reducesTo_S16x4x256_S16x256_d1 h_S_) : (⟨S16x4x256, .f32⟩ : BufTy).Contents (Elt F) → (⟨S_, .f32⟩ : BufTy).Contents (Elt F) → (⟨S16x256, .f32⟩ : BufTy).Contents (Elt F)),
    StableHlo.binary main_v50 main_arg1 main_v55 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.binary main_v52 main_arg3 main_v56 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.binary main_v55 main_v56 main_v57 (addf : (⟨S16x1024, .f32⟩ : BufTy).Contents (Elt F) → (⟨S16x1024, .f32⟩ : BufTy).Contents (Elt F) → (⟨S16x1024, .f32⟩ : BufTy).Contents (Elt F)),
    StableHlo.unary main_v1 main_v58 (broadcastInDim S16x1024 ![0, 1] bcast_S1x1024_S16x1024_0_1 : (⟨S1x1024, .f32⟩ : BufTy).Contents (Elt F) → (⟨S16x1024, .f32⟩ : BufTy).Contents (Elt F)),
    StableHlo.binary main_v57 main_v58 main_v59 (addf : (⟨S16x1024, .f32⟩ : BufTy).Contents (Elt F) → (⟨S16x1024, .f32⟩ : BufTy).Contents (Elt F) → (⟨S16x1024, .f32⟩ : BufTy).Contents (Elt F)),
    StableHlo.unary main_v59 main_v60 ((extractStridedSlice S16x256 ![0, 0] · slices_S16x1024_S16x256_0_0) : (⟨S16x1024, .f32⟩ : BufTy).Contents (Elt F) → (⟨S16x256, .f32⟩ : BufTy).Contents (Elt F)),
    StableHlo.unary main_v59 main_v61 ((extractStridedSlice S16x256 ![0, 256] · slices_S16x1024_S16x256_0_256) : (⟨S16x1024, .f32⟩ : BufTy).Contents (Elt F) → (⟨S16x256, .f32⟩ : BufTy).Contents (Elt F)),
    StableHlo.unary main_v59 main_v62 ((extractStridedSlice S16x256 ![0, 512] · slices_S16x1024_S16x256_0_512) : (⟨S16x1024, .f32⟩ : BufTy).Contents (Elt F) → (⟨S16x256, .f32⟩ : BufTy).Contents (Elt F)),
    StableHlo.unary main_v59 main_v63 ((extractStridedSlice S16x256 ![0, 768] · slices_S16x1024_S16x256_0_768) : (⟨S16x1024, .f32⟩ : BufTy).Contents (Elt F) → (⟨S16x256, .f32⟩ : BufTy).Contents (Elt F)),
    StableHlo.unary main_v60 main_v64 (Host.negf : (⟨S16x256, .f32⟩ : BufTy).Contents (Elt F) → (⟨S16x256, .f32⟩ : BufTy).Contents (Elt F)),
    StableHlo.unary main_v64 main_v65 (Host.exp : (⟨S16x256, .f32⟩ : BufTy).Contents (Elt F) → (⟨S16x256, .f32⟩ : BufTy).Contents (Elt F)),
    StableHlo.nullary main_cst_9 (constant S_ .f32 0x3F800000#32),
    StableHlo.unary main_cst_9 main_v66 (broadcastInDim S16x256 ![] bcast_S_S16x256 : (⟨S_, .f32⟩ : BufTy).Contents (Elt F) → (⟨S16x256, .f32⟩ : BufTy).Contents (Elt F)),
    StableHlo.binary main_v66 main_v65 main_v67 (addf : (⟨S16x256, .f32⟩ : BufTy).Contents (Elt F) → (⟨S16x256, .f32⟩ : BufTy).Contents (Elt F) → (⟨S16x256, .f32⟩ : BufTy).Contents (Elt F)),
    StableHlo.nullary main_cst_10 (constant S_ .f32 0x3F800000#32),
    StableHlo.unary main_cst_10 main_v68 (broadcastInDim S16x256 ![] bcast_S_S16x256 : (⟨S_, .f32⟩ : BufTy).Contents (Elt F) → (⟨S16x256, .f32⟩ : BufTy).Contents (Elt F)),
    StableHlo.binary main_v68 main_v67 main_v69 (Host.divf : (⟨S16x256, .f32⟩ : BufTy).Contents (Elt F) → (⟨S16x256, .f32⟩ : BufTy).Contents (Elt F) → (⟨S16x256, .f32⟩ : BufTy).Contents (Elt F)),
    StableHlo.unary main_v61 main_v70 (Host.negf : (⟨S16x256, .f32⟩ : BufTy).Contents (Elt F) → (⟨S16x256, .f32⟩ : BufTy).Contents (Elt F)),
    StableHlo.unary main_v70 main_v71 (Host.exp : (⟨S16x256, .f32⟩ : BufTy).Contents (Elt F) → (⟨S16x256, .f32⟩ : BufTy).Contents (Elt F)),
    StableHlo.nullary main_cst_11 (constant S_ .f32 0x3F800000#32),
    StableHlo.unary main_cst_11 main_v72 (broadcastInDim S16x256 ![] bcast_S_S16x256 : (⟨S_, .f32⟩ : BufTy).Contents (Elt F) → (⟨S16x256, .f32⟩ : BufTy).Contents (Elt F)),
    StableHlo.binary main_v72 main_v71 main_v73 (addf : (⟨S16x256, .f32⟩ : BufTy).Contents (Elt F) → (⟨S16x256, .f32⟩ : BufTy).Contents (Elt F) → (⟨S16x256, .f32⟩ : BufTy).Contents (Elt F)),
    StableHlo.nullary main_cst_12 (constant S_ .f32 0x3F800000#32),
    StableHlo.unary main_cst_12 main_v74 (broadcastInDim S16x256 ![] bcast_S_S16x256 : (⟨S_, .f32⟩ : BufTy).Contents (Elt F) → (⟨S16x256, .f32⟩ : BufTy).Contents (Elt F)),
    StableHlo.binary main_v74 main_v73 main_v75 (Host.divf : (⟨S16x256, .f32⟩ : BufTy).Contents (Elt F) → (⟨S16x256, .f32⟩ : BufTy).Contents (Elt F) → (⟨S16x256, .f32⟩ : BufTy).Contents (Elt F)),
    StableHlo.unary main_v62 main_v76 (Host.tanh : (⟨S16x256, .f32⟩ : BufTy).Contents (Elt F) → (⟨S16x256, .f32⟩ : BufTy).Contents (Elt F)),
    StableHlo.unary main_v63 main_v77 (Host.negf : (⟨S16x256, .f32⟩ : BufTy).Contents (Elt F) → (⟨S16x256, .f32⟩ : BufTy).Contents (Elt F)),
    StableHlo.unary main_v77 main_v78 (Host.exp : (⟨S16x256, .f32⟩ : BufTy).Contents (Elt F) → (⟨S16x256, .f32⟩ : BufTy).Contents (Elt F)),
    StableHlo.nullary main_cst_13 (constant S_ .f32 0x3F800000#32),
    StableHlo.unary main_cst_13 main_v79 (broadcastInDim S16x256 ![] bcast_S_S16x256 : (⟨S_, .f32⟩ : BufTy).Contents (Elt F) → (⟨S16x256, .f32⟩ : BufTy).Contents (Elt F)),
    StableHlo.binary main_v79 main_v78 main_v80 (addf : (⟨S16x256, .f32⟩ : BufTy).Contents (Elt F) → (⟨S16x256, .f32⟩ : BufTy).Contents (Elt F) → (⟨S16x256, .f32⟩ : BufTy).Contents (Elt F)),
    StableHlo.nullary main_cst_14 (constant S_ .f32 0x3F800000#32),
    StableHlo.unary main_cst_14 main_v81 (broadcastInDim S16x256 ![] bcast_S_S16x256 : (⟨S_, .f32⟩ : BufTy).Contents (Elt F) → (⟨S16x256, .f32⟩ : BufTy).Contents (Elt F)),
    StableHlo.binary main_v81 main_v80 main_v82 (Host.divf : (⟨S16x256, .f32⟩ : BufTy).Contents (Elt F) → (⟨S16x256, .f32⟩ : BufTy).Contents (Elt F) → (⟨S16x256, .f32⟩ : BufTy).Contents (Elt F)),
    StableHlo.binary main_v69 main_v76 main_v83 (mulf : (⟨S16x256, .f32⟩ : BufTy).Contents (Elt F) → (⟨S16x256, .f32⟩ : BufTy).Contents (Elt F) → (⟨S16x256, .f32⟩ : BufTy).Contents (Elt F)),
    StableHlo.binary main_v82 main_v54 main_v84 (mulf : (⟨S16x256, .f32⟩ : BufTy).Contents (Elt F) → (⟨S16x256, .f32⟩ : BufTy).Contents (Elt F) → (⟨S16x256, .f32⟩ : BufTy).Contents (Elt F)),
    StableHlo.binary main_v83 main_v84 main_v85 (addf : (⟨S16x256, .f32⟩ : BufTy).Contents (Elt F) → (⟨S16x256, .f32⟩ : BufTy).Contents (Elt F) → (⟨S16x256, .f32⟩ : BufTy).Contents (Elt F)),
    StableHlo.unary main_v85 main_v86 (Host.tanh : (⟨S16x256, .f32⟩ : BufTy).Contents (Elt F) → (⟨S16x256, .f32⟩ : BufTy).Contents (Elt F)),
    StableHlo.binary main_v75 main_v86 main_v87 (mulf : (⟨S16x256, .f32⟩ : BufTy).Contents (Elt F) → (⟨S16x256, .f32⟩ : BufTy).Contents (Elt F) → (⟨S16x256, .f32⟩ : BufTy).Contents (Elt F)) ]

/-- Level 1's 46 operations. -/
abbrev ops1 : List (HloOp τ sig (Elt F)) :=
  [ StableHlo.unary main_arg0 main_v88 ((extractStridedSlice S4x256 ![1, 0] · slices_S21845x256_S4x256_1_0) : (⟨S21845x256, .f32⟩ : BufTy).Contents (Elt F) → (⟨S4x256, .f32⟩ : BufTy).Contents (Elt F)),
    StableHlo.reshape main_v87 main_v89 rfl shapeCasts_S16x256_S4x4x256,
    StableHlo.nullary main_cst_15 (constant S_ .f32 0x00000000#32),
    StableHlo.binary main_v89 main_cst_15 main_v90 ((fun x v => Host.reduceAdd x v reducesTo_S4x4x256_S4x256_d1 h_S_) : (⟨S4x4x256, .f32⟩ : BufTy).Contents (Elt F) → (⟨S_, .f32⟩ : BufTy).Contents (Elt F) → (⟨S4x256, .f32⟩ : BufTy).Contents (Elt F)),
    StableHlo.reshape main_v85 main_v91 rfl shapeCasts_S16x256_S4x4x256,
    StableHlo.nullary main_cst_16 (constant S_ .f32 0x00000000#32),
    StableHlo.binary main_v91 main_cst_16 main_v92 ((fun x v => Host.reduceAdd x v reducesTo_S4x4x256_S4x256_d1 h_S_) : (⟨S4x4x256, .f32⟩ : BufTy).Contents (Elt F) → (⟨S_, .f32⟩ : BufTy).Contents (Elt F) → (⟨S4x256, .f32⟩ : BufTy).Contents (Elt F)),
    StableHlo.binary main_v88 main_arg1 main_v93 ((fun l r => Host.dotGeneral dot_S4x256_S256x1024_S4x1024_1_0_0_1_n_n none l r) : (⟨S4x256, .f32⟩ : BufTy).Contents (Elt F) → (⟨S256x1024, .f32⟩ : BufTy).Contents (Elt F) → (⟨S4x1024, .f32⟩ : BufTy).Contents (Elt F)),
    StableHlo.binary main_v90 main_arg3 main_v94 ((fun l r => Host.dotGeneral dot_S4x256_S256x1024_S4x1024_1_0_0_1_n_n none l r) : (⟨S4x256, .f32⟩ : BufTy).Contents (Elt F) → (⟨S256x1024, .f32⟩ : BufTy).Contents (Elt F) → (⟨S4x1024, .f32⟩ : BufTy).Contents (Elt F)),
    StableHlo.binary main_v93 main_v94 main_v95 (addf : (⟨S4x1024, .f32⟩ : BufTy).Contents (Elt F) → (⟨S4x1024, .f32⟩ : BufTy).Contents (Elt F) → (⟨S4x1024, .f32⟩ : BufTy).Contents (Elt F)),
    StableHlo.unary main_v1 main_v96 (broadcastInDim S4x1024 ![0, 1] bcast_S1x1024_S4x1024_0_1 : (⟨S1x1024, .f32⟩ : BufTy).Contents (Elt F) → (⟨S4x1024, .f32⟩ : BufTy).Contents (Elt F)),
    StableHlo.binary main_v95 main_v96 main_v97 (addf : (⟨S4x1024, .f32⟩ : BufTy).Contents (Elt F) → (⟨S4x1024, .f32⟩ : BufTy).Contents (Elt F) → (⟨S4x1024, .f32⟩ : BufTy).Contents (Elt F)),
    StableHlo.unary main_v97 main_v98 ((extractStridedSlice S4x256 ![0, 0] · slices_S4x1024_S4x256_0_0) : (⟨S4x1024, .f32⟩ : BufTy).Contents (Elt F) → (⟨S4x256, .f32⟩ : BufTy).Contents (Elt F)),
    StableHlo.unary main_v97 main_v99 ((extractStridedSlice S4x256 ![0, 256] · slices_S4x1024_S4x256_0_256) : (⟨S4x1024, .f32⟩ : BufTy).Contents (Elt F) → (⟨S4x256, .f32⟩ : BufTy).Contents (Elt F)),
    StableHlo.unary main_v97 main_v100 ((extractStridedSlice S4x256 ![0, 512] · slices_S4x1024_S4x256_0_512) : (⟨S4x1024, .f32⟩ : BufTy).Contents (Elt F) → (⟨S4x256, .f32⟩ : BufTy).Contents (Elt F)),
    StableHlo.unary main_v97 main_v101 ((extractStridedSlice S4x256 ![0, 768] · slices_S4x1024_S4x256_0_768) : (⟨S4x1024, .f32⟩ : BufTy).Contents (Elt F) → (⟨S4x256, .f32⟩ : BufTy).Contents (Elt F)),
    StableHlo.unary main_v98 main_v102 (Host.negf : (⟨S4x256, .f32⟩ : BufTy).Contents (Elt F) → (⟨S4x256, .f32⟩ : BufTy).Contents (Elt F)),
    StableHlo.unary main_v102 main_v103 (Host.exp : (⟨S4x256, .f32⟩ : BufTy).Contents (Elt F) → (⟨S4x256, .f32⟩ : BufTy).Contents (Elt F)),
    StableHlo.nullary main_cst_17 (constant S_ .f32 0x3F800000#32),
    StableHlo.unary main_cst_17 main_v104 (broadcastInDim S4x256 ![] bcast_S_S4x256 : (⟨S_, .f32⟩ : BufTy).Contents (Elt F) → (⟨S4x256, .f32⟩ : BufTy).Contents (Elt F)),
    StableHlo.binary main_v104 main_v103 main_v105 (addf : (⟨S4x256, .f32⟩ : BufTy).Contents (Elt F) → (⟨S4x256, .f32⟩ : BufTy).Contents (Elt F) → (⟨S4x256, .f32⟩ : BufTy).Contents (Elt F)),
    StableHlo.nullary main_cst_18 (constant S_ .f32 0x3F800000#32),
    StableHlo.unary main_cst_18 main_v106 (broadcastInDim S4x256 ![] bcast_S_S4x256 : (⟨S_, .f32⟩ : BufTy).Contents (Elt F) → (⟨S4x256, .f32⟩ : BufTy).Contents (Elt F)),
    StableHlo.binary main_v106 main_v105 main_v107 (Host.divf : (⟨S4x256, .f32⟩ : BufTy).Contents (Elt F) → (⟨S4x256, .f32⟩ : BufTy).Contents (Elt F) → (⟨S4x256, .f32⟩ : BufTy).Contents (Elt F)),
    StableHlo.unary main_v99 main_v108 (Host.negf : (⟨S4x256, .f32⟩ : BufTy).Contents (Elt F) → (⟨S4x256, .f32⟩ : BufTy).Contents (Elt F)),
    StableHlo.unary main_v108 main_v109 (Host.exp : (⟨S4x256, .f32⟩ : BufTy).Contents (Elt F) → (⟨S4x256, .f32⟩ : BufTy).Contents (Elt F)),
    StableHlo.nullary main_cst_19 (constant S_ .f32 0x3F800000#32),
    StableHlo.unary main_cst_19 main_v110 (broadcastInDim S4x256 ![] bcast_S_S4x256 : (⟨S_, .f32⟩ : BufTy).Contents (Elt F) → (⟨S4x256, .f32⟩ : BufTy).Contents (Elt F)),
    StableHlo.binary main_v110 main_v109 main_v111 (addf : (⟨S4x256, .f32⟩ : BufTy).Contents (Elt F) → (⟨S4x256, .f32⟩ : BufTy).Contents (Elt F) → (⟨S4x256, .f32⟩ : BufTy).Contents (Elt F)),
    StableHlo.nullary main_cst_20 (constant S_ .f32 0x3F800000#32),
    StableHlo.unary main_cst_20 main_v112 (broadcastInDim S4x256 ![] bcast_S_S4x256 : (⟨S_, .f32⟩ : BufTy).Contents (Elt F) → (⟨S4x256, .f32⟩ : BufTy).Contents (Elt F)),
    StableHlo.binary main_v112 main_v111 main_v113 (Host.divf : (⟨S4x256, .f32⟩ : BufTy).Contents (Elt F) → (⟨S4x256, .f32⟩ : BufTy).Contents (Elt F) → (⟨S4x256, .f32⟩ : BufTy).Contents (Elt F)),
    StableHlo.unary main_v100 main_v114 (Host.tanh : (⟨S4x256, .f32⟩ : BufTy).Contents (Elt F) → (⟨S4x256, .f32⟩ : BufTy).Contents (Elt F)),
    StableHlo.unary main_v101 main_v115 (Host.negf : (⟨S4x256, .f32⟩ : BufTy).Contents (Elt F) → (⟨S4x256, .f32⟩ : BufTy).Contents (Elt F)),
    StableHlo.unary main_v115 main_v116 (Host.exp : (⟨S4x256, .f32⟩ : BufTy).Contents (Elt F) → (⟨S4x256, .f32⟩ : BufTy).Contents (Elt F)),
    StableHlo.nullary main_cst_21 (constant S_ .f32 0x3F800000#32),
    StableHlo.unary main_cst_21 main_v117 (broadcastInDim S4x256 ![] bcast_S_S4x256 : (⟨S_, .f32⟩ : BufTy).Contents (Elt F) → (⟨S4x256, .f32⟩ : BufTy).Contents (Elt F)),
    StableHlo.binary main_v117 main_v116 main_v118 (addf : (⟨S4x256, .f32⟩ : BufTy).Contents (Elt F) → (⟨S4x256, .f32⟩ : BufTy).Contents (Elt F) → (⟨S4x256, .f32⟩ : BufTy).Contents (Elt F)),
    StableHlo.nullary main_cst_22 (constant S_ .f32 0x3F800000#32),
    StableHlo.unary main_cst_22 main_v119 (broadcastInDim S4x256 ![] bcast_S_S4x256 : (⟨S_, .f32⟩ : BufTy).Contents (Elt F) → (⟨S4x256, .f32⟩ : BufTy).Contents (Elt F)),
    StableHlo.binary main_v119 main_v118 main_v120 (Host.divf : (⟨S4x256, .f32⟩ : BufTy).Contents (Elt F) → (⟨S4x256, .f32⟩ : BufTy).Contents (Elt F) → (⟨S4x256, .f32⟩ : BufTy).Contents (Elt F)),
    StableHlo.binary main_v107 main_v114 main_v121 (mulf : (⟨S4x256, .f32⟩ : BufTy).Contents (Elt F) → (⟨S4x256, .f32⟩ : BufTy).Contents (Elt F) → (⟨S4x256, .f32⟩ : BufTy).Contents (Elt F)),
    StableHlo.binary main_v120 main_v92 main_v122 (mulf : (⟨S4x256, .f32⟩ : BufTy).Contents (Elt F) → (⟨S4x256, .f32⟩ : BufTy).Contents (Elt F) → (⟨S4x256, .f32⟩ : BufTy).Contents (Elt F)),
    StableHlo.binary main_v121 main_v122 main_v123 (addf : (⟨S4x256, .f32⟩ : BufTy).Contents (Elt F) → (⟨S4x256, .f32⟩ : BufTy).Contents (Elt F) → (⟨S4x256, .f32⟩ : BufTy).Contents (Elt F)),
    StableHlo.unary main_v123 main_v124 (Host.tanh : (⟨S4x256, .f32⟩ : BufTy).Contents (Elt F) → (⟨S4x256, .f32⟩ : BufTy).Contents (Elt F)),
    StableHlo.binary main_v113 main_v124 main_v125 (mulf : (⟨S4x256, .f32⟩ : BufTy).Contents (Elt F) → (⟨S4x256, .f32⟩ : BufTy).Contents (Elt F) → (⟨S4x256, .f32⟩ : BufTy).Contents (Elt F)) ]

/-- Level 0's 45 operations. -/
abbrev ops0 : List (HloOp τ sig (Elt F)) :=
  [ StableHlo.unary main_arg0 main_v126 ((extractStridedSlice S1x256 ![0, 0] · slices_S21845x256_S1x256_0_0) : (⟨S21845x256, .f32⟩ : BufTy).Contents (Elt F) → (⟨S1x256, .f32⟩ : BufTy).Contents (Elt F)),
    StableHlo.reshape main_v125 main_v127 rfl shapeCasts_S4x256_S1x4x256,
    StableHlo.nullary main_cst_23 (constant S_ .f32 0x00000000#32),
    StableHlo.binary main_v127 main_cst_23 main_v128 ((fun x v => Host.reduceAdd x v reducesTo_S1x4x256_S1x256_d1 h_S_) : (⟨S1x4x256, .f32⟩ : BufTy).Contents (Elt F) → (⟨S_, .f32⟩ : BufTy).Contents (Elt F) → (⟨S1x256, .f32⟩ : BufTy).Contents (Elt F)),
    StableHlo.reshape main_v123 main_v129 rfl shapeCasts_S4x256_S1x4x256,
    StableHlo.nullary main_cst_24 (constant S_ .f32 0x00000000#32),
    StableHlo.binary main_v129 main_cst_24 main_v130 ((fun x v => Host.reduceAdd x v reducesTo_S1x4x256_S1x256_d1 h_S_) : (⟨S1x4x256, .f32⟩ : BufTy).Contents (Elt F) → (⟨S_, .f32⟩ : BufTy).Contents (Elt F) → (⟨S1x256, .f32⟩ : BufTy).Contents (Elt F)),
    StableHlo.binary main_v126 main_arg1 main_v131 ((fun l r => Host.dotGeneral dot_S1x256_S256x1024_S1x1024_1_0_0_1_n_n none l r) : (⟨S1x256, .f32⟩ : BufTy).Contents (Elt F) → (⟨S256x1024, .f32⟩ : BufTy).Contents (Elt F) → (⟨S1x1024, .f32⟩ : BufTy).Contents (Elt F)),
    StableHlo.binary main_v128 main_arg3 main_v132 ((fun l r => Host.dotGeneral dot_S1x256_S256x1024_S1x1024_1_0_0_1_n_n none l r) : (⟨S1x256, .f32⟩ : BufTy).Contents (Elt F) → (⟨S256x1024, .f32⟩ : BufTy).Contents (Elt F) → (⟨S1x1024, .f32⟩ : BufTy).Contents (Elt F)),
    StableHlo.binary main_v131 main_v132 main_v133 (addf : (⟨S1x1024, .f32⟩ : BufTy).Contents (Elt F) → (⟨S1x1024, .f32⟩ : BufTy).Contents (Elt F) → (⟨S1x1024, .f32⟩ : BufTy).Contents (Elt F)),
    StableHlo.binary main_v133 main_v1 main_v134 (addf : (⟨S1x1024, .f32⟩ : BufTy).Contents (Elt F) → (⟨S1x1024, .f32⟩ : BufTy).Contents (Elt F) → (⟨S1x1024, .f32⟩ : BufTy).Contents (Elt F)),
    StableHlo.unary main_v134 main_v135 ((extractStridedSlice S1x256 ![0, 0] · slices_S1x1024_S1x256_0_0) : (⟨S1x1024, .f32⟩ : BufTy).Contents (Elt F) → (⟨S1x256, .f32⟩ : BufTy).Contents (Elt F)),
    StableHlo.unary main_v134 main_v136 ((extractStridedSlice S1x256 ![0, 256] · slices_S1x1024_S1x256_0_256) : (⟨S1x1024, .f32⟩ : BufTy).Contents (Elt F) → (⟨S1x256, .f32⟩ : BufTy).Contents (Elt F)),
    StableHlo.unary main_v134 main_v137 ((extractStridedSlice S1x256 ![0, 512] · slices_S1x1024_S1x256_0_512) : (⟨S1x1024, .f32⟩ : BufTy).Contents (Elt F) → (⟨S1x256, .f32⟩ : BufTy).Contents (Elt F)),
    StableHlo.unary main_v134 main_v138 ((extractStridedSlice S1x256 ![0, 768] · slices_S1x1024_S1x256_0_768) : (⟨S1x1024, .f32⟩ : BufTy).Contents (Elt F) → (⟨S1x256, .f32⟩ : BufTy).Contents (Elt F)),
    StableHlo.unary main_v135 main_v139 (Host.negf : (⟨S1x256, .f32⟩ : BufTy).Contents (Elt F) → (⟨S1x256, .f32⟩ : BufTy).Contents (Elt F)),
    StableHlo.unary main_v139 main_v140 (Host.exp : (⟨S1x256, .f32⟩ : BufTy).Contents (Elt F) → (⟨S1x256, .f32⟩ : BufTy).Contents (Elt F)),
    StableHlo.nullary main_cst_25 (constant S_ .f32 0x3F800000#32),
    StableHlo.unary main_cst_25 main_v141 (broadcastInDim S1x256 ![] bcast_S_S1x256 : (⟨S_, .f32⟩ : BufTy).Contents (Elt F) → (⟨S1x256, .f32⟩ : BufTy).Contents (Elt F)),
    StableHlo.binary main_v141 main_v140 main_v142 (addf : (⟨S1x256, .f32⟩ : BufTy).Contents (Elt F) → (⟨S1x256, .f32⟩ : BufTy).Contents (Elt F) → (⟨S1x256, .f32⟩ : BufTy).Contents (Elt F)),
    StableHlo.nullary main_cst_26 (constant S_ .f32 0x3F800000#32),
    StableHlo.unary main_cst_26 main_v143 (broadcastInDim S1x256 ![] bcast_S_S1x256 : (⟨S_, .f32⟩ : BufTy).Contents (Elt F) → (⟨S1x256, .f32⟩ : BufTy).Contents (Elt F)),
    StableHlo.binary main_v143 main_v142 main_v144 (Host.divf : (⟨S1x256, .f32⟩ : BufTy).Contents (Elt F) → (⟨S1x256, .f32⟩ : BufTy).Contents (Elt F) → (⟨S1x256, .f32⟩ : BufTy).Contents (Elt F)),
    StableHlo.unary main_v136 main_v145 (Host.negf : (⟨S1x256, .f32⟩ : BufTy).Contents (Elt F) → (⟨S1x256, .f32⟩ : BufTy).Contents (Elt F)),
    StableHlo.unary main_v145 main_v146 (Host.exp : (⟨S1x256, .f32⟩ : BufTy).Contents (Elt F) → (⟨S1x256, .f32⟩ : BufTy).Contents (Elt F)),
    StableHlo.nullary main_cst_27 (constant S_ .f32 0x3F800000#32),
    StableHlo.unary main_cst_27 main_v147 (broadcastInDim S1x256 ![] bcast_S_S1x256 : (⟨S_, .f32⟩ : BufTy).Contents (Elt F) → (⟨S1x256, .f32⟩ : BufTy).Contents (Elt F)),
    StableHlo.binary main_v147 main_v146 main_v148 (addf : (⟨S1x256, .f32⟩ : BufTy).Contents (Elt F) → (⟨S1x256, .f32⟩ : BufTy).Contents (Elt F) → (⟨S1x256, .f32⟩ : BufTy).Contents (Elt F)),
    StableHlo.nullary main_cst_28 (constant S_ .f32 0x3F800000#32),
    StableHlo.unary main_cst_28 main_v149 (broadcastInDim S1x256 ![] bcast_S_S1x256 : (⟨S_, .f32⟩ : BufTy).Contents (Elt F) → (⟨S1x256, .f32⟩ : BufTy).Contents (Elt F)),
    StableHlo.binary main_v149 main_v148 main_v150 (Host.divf : (⟨S1x256, .f32⟩ : BufTy).Contents (Elt F) → (⟨S1x256, .f32⟩ : BufTy).Contents (Elt F) → (⟨S1x256, .f32⟩ : BufTy).Contents (Elt F)),
    StableHlo.unary main_v137 main_v151 (Host.tanh : (⟨S1x256, .f32⟩ : BufTy).Contents (Elt F) → (⟨S1x256, .f32⟩ : BufTy).Contents (Elt F)),
    StableHlo.unary main_v138 main_v152 (Host.negf : (⟨S1x256, .f32⟩ : BufTy).Contents (Elt F) → (⟨S1x256, .f32⟩ : BufTy).Contents (Elt F)),
    StableHlo.unary main_v152 main_v153 (Host.exp : (⟨S1x256, .f32⟩ : BufTy).Contents (Elt F) → (⟨S1x256, .f32⟩ : BufTy).Contents (Elt F)),
    StableHlo.nullary main_cst_29 (constant S_ .f32 0x3F800000#32),
    StableHlo.unary main_cst_29 main_v154 (broadcastInDim S1x256 ![] bcast_S_S1x256 : (⟨S_, .f32⟩ : BufTy).Contents (Elt F) → (⟨S1x256, .f32⟩ : BufTy).Contents (Elt F)),
    StableHlo.binary main_v154 main_v153 main_v155 (addf : (⟨S1x256, .f32⟩ : BufTy).Contents (Elt F) → (⟨S1x256, .f32⟩ : BufTy).Contents (Elt F) → (⟨S1x256, .f32⟩ : BufTy).Contents (Elt F)),
    StableHlo.nullary main_cst_30 (constant S_ .f32 0x3F800000#32),
    StableHlo.unary main_cst_30 main_v156 (broadcastInDim S1x256 ![] bcast_S_S1x256 : (⟨S_, .f32⟩ : BufTy).Contents (Elt F) → (⟨S1x256, .f32⟩ : BufTy).Contents (Elt F)),
    StableHlo.binary main_v156 main_v155 main_v157 (Host.divf : (⟨S1x256, .f32⟩ : BufTy).Contents (Elt F) → (⟨S1x256, .f32⟩ : BufTy).Contents (Elt F) → (⟨S1x256, .f32⟩ : BufTy).Contents (Elt F)),
    StableHlo.binary main_v144 main_v151 main_v158 (mulf : (⟨S1x256, .f32⟩ : BufTy).Contents (Elt F) → (⟨S1x256, .f32⟩ : BufTy).Contents (Elt F) → (⟨S1x256, .f32⟩ : BufTy).Contents (Elt F)),
    StableHlo.binary main_v157 main_v130 main_v159 (mulf : (⟨S1x256, .f32⟩ : BufTy).Contents (Elt F) → (⟨S1x256, .f32⟩ : BufTy).Contents (Elt F) → (⟨S1x256, .f32⟩ : BufTy).Contents (Elt F)),
    StableHlo.binary main_v158 main_v159 main_v160 (addf : (⟨S1x256, .f32⟩ : BufTy).Contents (Elt F) → (⟨S1x256, .f32⟩ : BufTy).Contents (Elt F) → (⟨S1x256, .f32⟩ : BufTy).Contents (Elt F)),
    StableHlo.unary main_v160 main_v161 (Host.tanh : (⟨S1x256, .f32⟩ : BufTy).Contents (Elt F) → (⟨S1x256, .f32⟩ : BufTy).Contents (Elt F)),
    StableHlo.binary main_v150 main_v161 main_v162 (mulf : (⟨S1x256, .f32⟩ : BufTy).Contents (Elt F) → (⟨S1x256, .f32⟩ : BufTy).Contents (Elt F) → (⟨S1x256, .f32⟩ : BufTy).Contents (Elt F)) ]

/-- The stretch is its four levels in order. -/
theorem ops_split : (hostOps4 : List (HloOp τ sig (Elt F))) = ops3 ++ (ops2 ++ (ops1 ++ ops0)) := rfl

theorem after_split (W : Valuation τ sig (Elt F)) :
    after hostOps4 W = after ops0 (after ops1 (after ops2 (after ops3 W))) := by
  rw [ops_split, after_append, after_append, after_append]

/-! ## The levels -/

set_option maxHeartbeats 4000000 in
/-- Level 3 (64 nodes): from any contents in which the arguments, the summed bias row and the level below are as
    stated, the level's operations leave its cell states and hidden states. -/
theorem lvl3 (W : Valuation τ sig (Elt Ideal)) (E : Fin 21845 → Fin 256 → EReal) (wx wh : Fin 256 → Fin 1024 → EReal)
    (bx bh : Fin 1024 → EReal) (hp cp : Fin 256 → Fin 256 → EReal)
    (hE : (W (Proc.devRef .tc main_arg0) : S21845x256.Idx → EReal) = toArr2 E)
    (hwx : (W (Proc.devRef .tc main_arg1) : S256x1024.Idx → EReal) = toArr2 wx)
    (hwh : (W (Proc.devRef .tc main_arg3) : S256x1024.Idx → EReal) = toArr2 wh)
    (hb : ∀ (u : Fin 1) (q : Fin 1024), (W (Proc.devRef .tc main_v1) : S1x1024.Idx → EReal) (ix2 u q) = bx q + bh q)
    (hhp : (W (Proc.devRef .tc main_v11_0) : S256x256.Idx → EReal) = toArr2 hp)
    (hcp : (W (Proc.devRef .tc main_v11_1) : S256x256.Idx → EReal) = toArr2 cp) :
    (after (ops3 (F := Ideal)) W (Proc.devRef .tc main_v47) : S64x256.Idx → EReal)
        = toArr2 (nodeC wx wh bx bh (by norm_num : 256 = 4 * 64) (rows E 21 64 (by norm_num)) hp cp)
      ∧ (after (ops3 (F := Ideal)) W (Proc.devRef .tc main_v49) : S64x256.Idx → EReal)
        = toArr2 (nodeH wx wh bx bh (by norm_num : 256 = 4 * 64) (rows E 21 64 (by norm_num)) hp cp) := by
  have hk : 256 = 4 * 64 := by norm_num
  have hoff : 21 + 64 ≤ 21845 := by norm_num
  -- the pre-activation array
  have hiou : ∀ (p : Fin 64) (q : Fin 1024), (after (ops3 (F := Ideal)) W (Proc.devRef .tc main_v21) : S64x1024.Idx → EReal) (ix2 p q)
      = iouNode wx wh bx bh (rows E 21 64 hoff p) (sum4 hk hp p) q := by
    intro p q
    simp only [ops3]
    after_results_simp
    exact iou_apply hk 21 hoff _ _ _ _ _ E wx wh bx bh hp hE hwx hwh hb hhp _ rfl _ _ _ _ _ p q
  -- the children's cell-state sums
  have hcs : ∀ (p : Fin 64) (j : Fin 256), (after (ops3 (F := Ideal)) W (Proc.devRef .tc main_v16) : S64x256.Idx → EReal) (ix2 p j)
      = sum4 hk cp p j := by
    intro p j
    simp only [ops3]
    after_results_simp
    rw [hcp]
    exact sum4_apply hk _ _ _ _ p j
  -- the cell-state array is the cell of the two
  have hC : ∀ (p : Fin 64) (j : Fin 256), (after (ops3 (F := Ideal)) W (Proc.devRef .tc main_v47) : S64x256.Idx → EReal) (ix2 p j)
      = cellNode (cur2 (after (ops3 (F := Ideal)) W (Proc.devRef .tc main_v21) : S64x1024.Idx → EReal) p)
          (cur2 (after (ops3 (F := Ideal)) W (Proc.devRef .tc main_v16) : S64x256.Idx → EReal) p) j := by
    intro p j
    refine Eq.trans ?_ (hostC_apply (n := 64) ![] bcast_S_S64x256 slices_S64x1024_S64x256_0_0 slices_S64x1024_S64x256_0_512
      slices_S64x1024_S64x256_0_768 (after (ops3 (F := Ideal)) W (Proc.devRef .tc main_v21)) (after (ops3 (F := Ideal)) W (Proc.devRef .tc main_v16)) p j)
    unfold hostC hostCLeaf hostSig
    simp only [ops3]
    after_results_simp
    try rfl
  -- the hidden-state array is the output gate times tanh of the cell-state array
  have hH : ∀ (p : Fin 64) (j : Fin 256), (after (ops3 (F := Ideal)) W (Proc.devRef .tc main_v49) : S64x256.Idx → EReal) (ix2 p j)
      = hid (cur2 (after (ops3 (F := Ideal)) W (Proc.devRef .tc main_v21) : S64x1024.Idx → EReal) p)
          (cur2 (after (ops3 (F := Ideal)) W (Proc.devRef .tc main_v47) : S64x256.Idx → EReal) p) j := by
    intro p j
    refine Eq.trans ?_ (hostH_apply (n := 64) ![] bcast_S_S64x256 slices_S64x1024_S64x256_0_256
      (after (ops3 (F := Ideal)) W (Proc.devRef .tc main_v21)) (after (ops3 (F := Ideal)) W (Proc.devRef .tc main_v47)) p j)
    unfold hostH hostSig
    simp only [ops3]
    after_results_simp
    try rfl
  have eI : ∀ p : Fin 64, cur2 (after (ops3 (F := Ideal)) W (Proc.devRef .tc main_v21) : S64x1024.Idx → EReal) p
      = iouNode wx wh bx bh (rows E 21 64 hoff p) (sum4 hk hp p) := fun p => funext (hiou p)
  have eT : ∀ p : Fin 64, cur2 (after (ops3 (F := Ideal)) W (Proc.devRef .tc main_v16) : S64x256.Idx → EReal) p = sum4 hk cp p :=
    fun p => funext (hcs p)
  have hc : (after (ops3 (F := Ideal)) W (Proc.devRef .tc main_v47) : S64x256.Idx → EReal)
      = toArr2 (nodeC wx wh bx bh hk (rows E 21 64 hoff) hp cp) :=
    eq_toArr2 _ _ fun p j => by rw [hC, eI, eT]; rfl
  refine ⟨hc, eq_toArr2 _ _ fun p j => ?_⟩
  rw [hH, eI, hc]
  rfl

/-- Level 3's operations write neither an argument nor the summed bias row. -/
theorem keeps3 (W : Valuation τ sig (Elt Ideal)) :
    after (ops3 (F := Ideal)) W (Proc.devRef .tc main_arg0) = W (Proc.devRef .tc main_arg0)
      ∧ after (ops3 (F := Ideal)) W (Proc.devRef .tc main_arg1) = W (Proc.devRef .tc main_arg1)
      ∧ after (ops3 (F := Ideal)) W (Proc.devRef .tc main_arg3) = W (Proc.devRef .tc main_arg3)
      ∧ after (ops3 (F := Ideal)) W (Proc.devRef .tc main_v1) = W (Proc.devRef .tc main_v1) := by
  refine ⟨?_, ?_, ?_, ?_⟩ <;> (simp only [ops3]; after_results_simp)

set_option maxHeartbeats 4000000 in
/-- Level 2 (16 nodes): from any contents in which the arguments, the summed bias row and the level below are as
    stated, the level's operations leave its cell states and hidden states. -/
theorem lvl2 (W : Valuation τ sig (Elt Ideal)) (E : Fin 21845 → Fin 256 → EReal) (wx wh : Fin 256 → Fin 1024 → EReal)
    (bx bh : Fin 1024 → EReal) (hp cp : Fin 64 → Fin 256 → EReal)
    (hE : (W (Proc.devRef .tc main_arg0) : S21845x256.Idx → EReal) = toArr2 E)
    (hwx : (W (Proc.devRef .tc main_arg1) : S256x1024.Idx → EReal) = toArr2 wx)
    (hwh : (W (Proc.devRef .tc main_arg3) : S256x1024.Idx → EReal) = toArr2 wh)
    (hb : ∀ (u : Fin 1) (q : Fin 1024), (W (Proc.devRef .tc main_v1) : S1x1024.Idx → EReal) (ix2 u q) = bx q + bh q)
    (hhp : (W (Proc.devRef .tc main_v49) : S64x256.Idx → EReal) = toArr2 hp)
    (hcp : (W (Proc.devRef .tc main_v47) : S64x256.Idx → EReal) = toArr2 cp) :
    (after (ops2 (F := Ideal)) W (Proc.devRef .tc main_v85) : S16x256.Idx → EReal)
        = toArr2 (nodeC wx wh bx bh (by norm_num : 64 = 4 * 16) (rows E 5 16 (by norm_num)) hp cp)
      ∧ (after (ops2 (F := Ideal)) W (Proc.devRef .tc main_v87) : S16x256.Idx → EReal)
        = toArr2 (nodeH wx wh bx bh (by norm_num : 64 = 4 * 16) (rows E 5 16 (by norm_num)) hp cp) := by
  have hk : 64 = 4 * 16 := by norm_num
  have hoff : 5 + 16 ≤ 21845 := by norm_num
  -- the pre-activation array
  have hiou : ∀ (p : Fin 16) (q : Fin 1024), (after (ops2 (F := Ideal)) W (Proc.devRef .tc main_v59) : S16x1024.Idx → EReal) (ix2 p q)
      = iouNode wx wh bx bh (rows E 5 16 hoff p) (sum4 hk hp p) q := by
    intro p q
    simp only [ops2]
    after_results_simp
    exact iou_apply hk 5 hoff _ _ _ _ _ E wx wh bx bh hp hE hwx hwh hb hhp _ rfl _ _ _ _ _ p q
  -- the children's cell-state sums
  have hcs : ∀ (p : Fin 16) (j : Fin 256), (after (ops2 (F := Ideal)) W (Proc.devRef .tc main_v54) : S16x256.Idx → EReal) (ix2 p j)
      = sum4 hk cp p j := by
    intro p j
    simp only [ops2]
    after_results_simp
    rw [hcp]
    exact sum4_apply hk _ _ _ _ p j
  -- the cell-state array is the cell of the two
  have hC : ∀ (p : Fin 16) (j : Fin 256), (after (ops2 (F := Ideal)) W (Proc.devRef .tc main_v85) : S16x256.Idx → EReal) (ix2 p j)
      = cellNode (cur2 (after (ops2 (F := Ideal)) W (Proc.devRef .tc main_v59) : S16x1024.Idx → EReal) p)
          (cur2 (after (ops2 (F := Ideal)) W (Proc.devRef .tc main_v54) : S16x256.Idx → EReal) p) j := by
    intro p j
    refine Eq.trans ?_ (hostC_apply (n := 16) ![] bcast_S_S16x256 slices_S16x1024_S16x256_0_0 slices_S16x1024_S16x256_0_512
      slices_S16x1024_S16x256_0_768 (after (ops2 (F := Ideal)) W (Proc.devRef .tc main_v59)) (after (ops2 (F := Ideal)) W (Proc.devRef .tc main_v54)) p j)
    unfold hostC hostCLeaf hostSig
    simp only [ops2]
    after_results_simp
    try rfl
  -- the hidden-state array is the output gate times tanh of the cell-state array
  have hH : ∀ (p : Fin 16) (j : Fin 256), (after (ops2 (F := Ideal)) W (Proc.devRef .tc main_v87) : S16x256.Idx → EReal) (ix2 p j)
      = hid (cur2 (after (ops2 (F := Ideal)) W (Proc.devRef .tc main_v59) : S16x1024.Idx → EReal) p)
          (cur2 (after (ops2 (F := Ideal)) W (Proc.devRef .tc main_v85) : S16x256.Idx → EReal) p) j := by
    intro p j
    refine Eq.trans ?_ (hostH_apply (n := 16) ![] bcast_S_S16x256 slices_S16x1024_S16x256_0_256
      (after (ops2 (F := Ideal)) W (Proc.devRef .tc main_v59)) (after (ops2 (F := Ideal)) W (Proc.devRef .tc main_v85)) p j)
    unfold hostH hostSig
    simp only [ops2]
    after_results_simp
    try rfl
  have eI : ∀ p : Fin 16, cur2 (after (ops2 (F := Ideal)) W (Proc.devRef .tc main_v59) : S16x1024.Idx → EReal) p
      = iouNode wx wh bx bh (rows E 5 16 hoff p) (sum4 hk hp p) := fun p => funext (hiou p)
  have eT : ∀ p : Fin 16, cur2 (after (ops2 (F := Ideal)) W (Proc.devRef .tc main_v54) : S16x256.Idx → EReal) p = sum4 hk cp p :=
    fun p => funext (hcs p)
  have hc : (after (ops2 (F := Ideal)) W (Proc.devRef .tc main_v85) : S16x256.Idx → EReal)
      = toArr2 (nodeC wx wh bx bh hk (rows E 5 16 hoff) hp cp) :=
    eq_toArr2 _ _ fun p j => by rw [hC, eI, eT]; rfl
  refine ⟨hc, eq_toArr2 _ _ fun p j => ?_⟩
  rw [hH, eI, hc]
  rfl

/-- Level 2's operations write neither an argument nor the summed bias row. -/
theorem keeps2 (W : Valuation τ sig (Elt Ideal)) :
    after (ops2 (F := Ideal)) W (Proc.devRef .tc main_arg0) = W (Proc.devRef .tc main_arg0)
      ∧ after (ops2 (F := Ideal)) W (Proc.devRef .tc main_arg1) = W (Proc.devRef .tc main_arg1)
      ∧ after (ops2 (F := Ideal)) W (Proc.devRef .tc main_arg3) = W (Proc.devRef .tc main_arg3)
      ∧ after (ops2 (F := Ideal)) W (Proc.devRef .tc main_v1) = W (Proc.devRef .tc main_v1) := by
  refine ⟨?_, ?_, ?_, ?_⟩ <;> (simp only [ops2]; after_results_simp)

set_option maxHeartbeats 4000000 in
/-- Level 1 (4 nodes): from any contents in which the arguments, the summed bias row and the level below are as
    stated, the level's operations leave its cell states and hidden states. -/
theorem lvl1 (W : Valuation τ sig (Elt Ideal)) (E : Fin 21845 → Fin 256 → EReal) (wx wh : Fin 256 → Fin 1024 → EReal)
    (bx bh : Fin 1024 → EReal) (hp cp : Fin 16 → Fin 256 → EReal)
    (hE : (W (Proc.devRef .tc main_arg0) : S21845x256.Idx → EReal) = toArr2 E)
    (hwx : (W (Proc.devRef .tc main_arg1) : S256x1024.Idx → EReal) = toArr2 wx)
    (hwh : (W (Proc.devRef .tc main_arg3) : S256x1024.Idx → EReal) = toArr2 wh)
    (hb : ∀ (u : Fin 1) (q : Fin 1024), (W (Proc.devRef .tc main_v1) : S1x1024.Idx → EReal) (ix2 u q) = bx q + bh q)
    (hhp : (W (Proc.devRef .tc main_v87) : S16x256.Idx → EReal) = toArr2 hp)
    (hcp : (W (Proc.devRef .tc main_v85) : S16x256.Idx → EReal) = toArr2 cp) :
    (after (ops1 (F := Ideal)) W (Proc.devRef .tc main_v123) : S4x256.Idx → EReal)
        = toArr2 (nodeC wx wh bx bh (by norm_num : 16 = 4 * 4) (rows E 1 4 (by norm_num)) hp cp)
      ∧ (after (ops1 (F := Ideal)) W (Proc.devRef .tc main_v125) : S4x256.Idx → EReal)
        = toArr2 (nodeH wx wh bx bh (by norm_num : 16 = 4 * 4) (rows E 1 4 (by norm_num)) hp cp) := by
  have hk : 16 = 4 * 4 := by norm_num
  have hoff : 1 + 4 ≤ 21845 := by norm_num
  -- the pre-activation array
  have hiou : ∀ (p : Fin 4) (q : Fin 1024), (after (ops1 (F := Ideal)) W (Proc.devRef .tc main_v97) : S4x1024.Idx → EReal) (ix2 p q)
      = iouNode wx wh bx bh (rows E 1 4 hoff p) (sum4 hk hp p) q := by
    intro p q
    simp only [ops1]
    after_results_simp
    exact iou_apply hk 1 hoff _ _ _ _ _ E wx wh bx bh hp hE hwx hwh hb hhp _ rfl _ _ _ _ _ p q
  -- the children's cell-state sums
  have hcs : ∀ (p : Fin 4) (j : Fin 256), (after (ops1 (F := Ideal)) W (Proc.devRef .tc main_v92) : S4x256.Idx → EReal) (ix2 p j)
      = sum4 hk cp p j := by
    intro p j
    simp only [ops1]
    after_results_simp
    rw [hcp]
    exact sum4_apply hk _ _ _ _ p j
  -- the cell-state array is the cell of the two
  have hC : ∀ (p : Fin 4) (j : Fin 256), (after (ops1 (F := Ideal)) W (Proc.devRef .tc main_v123) : S4x256.Idx → EReal) (ix2 p j)
      = cellNode (cur2 (after (ops1 (F := Ideal)) W (Proc.devRef .tc main_v97) : S4x1024.Idx → EReal) p)
          (cur2 (after (ops1 (F := Ideal)) W (Proc.devRef .tc main_v92) : S4x256.Idx → EReal) p) j := by
    intro p j
    refine Eq.trans ?_ (hostC_apply (n := 4) ![] bcast_S_S4x256 slices_S4x1024_S4x256_0_0 slices_S4x1024_S4x256_0_512
      slices_S4x1024_S4x256_0_768 (after (ops1 (F := Ideal)) W (Proc.devRef .tc main_v97)) (after (ops1 (F := Ideal)) W (Proc.devRef .tc main_v92)) p j)
    unfold hostC hostCLeaf hostSig
    simp only [ops1]
    after_results_simp
    try rfl
  -- the hidden-state array is the output gate times tanh of the cell-state array
  have hH : ∀ (p : Fin 4) (j : Fin 256), (after (ops1 (F := Ideal)) W (Proc.devRef .tc main_v125) : S4x256.Idx → EReal) (ix2 p j)
      = hid (cur2 (after (ops1 (F := Ideal)) W (Proc.devRef .tc main_v97) : S4x1024.Idx → EReal) p)
          (cur2 (after (ops1 (F := Ideal)) W (Proc.devRef .tc main_v123) : S4x256.Idx → EReal) p) j := by
    intro p j
    refine Eq.trans ?_ (hostH_apply (n := 4) ![] bcast_S_S4x256 slices_S4x1024_S4x256_0_256
      (after (ops1 (F := Ideal)) W (Proc.devRef .tc main_v97)) (after (ops1 (F := Ideal)) W (Proc.devRef .tc main_v123)) p j)
    unfold hostH hostSig
    simp only [ops1]
    after_results_simp
    try rfl
  have eI : ∀ p : Fin 4, cur2 (after (ops1 (F := Ideal)) W (Proc.devRef .tc main_v97) : S4x1024.Idx → EReal) p
      = iouNode wx wh bx bh (rows E 1 4 hoff p) (sum4 hk hp p) := fun p => funext (hiou p)
  have eT : ∀ p : Fin 4, cur2 (after (ops1 (F := Ideal)) W (Proc.devRef .tc main_v92) : S4x256.Idx → EReal) p = sum4 hk cp p :=
    fun p => funext (hcs p)
  have hc : (after (ops1 (F := Ideal)) W (Proc.devRef .tc main_v123) : S4x256.Idx → EReal)
      = toArr2 (nodeC wx wh bx bh hk (rows E 1 4 hoff) hp cp) :=
    eq_toArr2 _ _ fun p j => by rw [hC, eI, eT]; rfl
  refine ⟨hc, eq_toArr2 _ _ fun p j => ?_⟩
  rw [hH, eI, hc]
  rfl

/-- Level 1's operations write neither an argument nor the summed bias row. -/
theorem keeps1 (W : Valuation τ sig (Elt Ideal)) :
    after (ops1 (F := Ideal)) W (Proc.devRef .tc main_arg0) = W (Proc.devRef .tc main_arg0)
      ∧ after (ops1 (F := Ideal)) W (Proc.devRef .tc main_arg1) = W (Proc.devRef .tc main_arg1)
      ∧ after (ops1 (F := Ideal)) W (Proc.devRef .tc main_arg3) = W (Proc.devRef .tc main_arg3)
      ∧ after (ops1 (F := Ideal)) W (Proc.devRef .tc main_v1) = W (Proc.devRef .tc main_v1) := by
  refine ⟨?_, ?_, ?_, ?_⟩ <;> (simp only [ops1]; after_results_simp)

set_option maxHeartbeats 4000000 in
/-- Level 0 (1 node): from any contents in which the arguments, the summed bias row and the level below are as
    stated, the level's operations leave its cell states and hidden states. -/
theorem lvl0 (W : Valuation τ sig (Elt Ideal)) (E : Fin 21845 → Fin 256 → EReal) (wx wh : Fin 256 → Fin 1024 → EReal)
    (bx bh : Fin 1024 → EReal) (hp cp : Fin 4 → Fin 256 → EReal)
    (hE : (W (Proc.devRef .tc main_arg0) : S21845x256.Idx → EReal) = toArr2 E)
    (hwx : (W (Proc.devRef .tc main_arg1) : S256x1024.Idx → EReal) = toArr2 wx)
    (hwh : (W (Proc.devRef .tc main_arg3) : S256x1024.Idx → EReal) = toArr2 wh)
    (hb : ∀ (u : Fin 1) (q : Fin 1024), (W (Proc.devRef .tc main_v1) : S1x1024.Idx → EReal) (ix2 u q) = bx q + bh q)
    (hhp : (W (Proc.devRef .tc main_v125) : S4x256.Idx → EReal) = toArr2 hp)
    (hcp : (W (Proc.devRef .tc main_v123) : S4x256.Idx → EReal) = toArr2 cp) :
    (after (ops0 (F := Ideal)) W (Proc.devRef .tc main_v160) : S1x256.Idx → EReal)
        = toArr2 (nodeC wx wh bx bh (by norm_num : 4 = 4 * 1) (rows E 0 1 (by norm_num)) hp cp)
      ∧ (after (ops0 (F := Ideal)) W (Proc.devRef .tc main_v162) : S1x256.Idx → EReal)
        = toArr2 (nodeH wx wh bx bh (by norm_num : 4 = 4 * 1) (rows E 0 1 (by norm_num)) hp cp) := by
  have hk : 4 = 4 * 1 := by norm_num
  have hoff : 0 + 1 ≤ 21845 := by norm_num
  -- the pre-activation array
  have hiou : ∀ (p : Fin 1) (q : Fin 1024), (after (ops0 (F := Ideal)) W (Proc.devRef .tc main_v134) : S1x1024.Idx → EReal) (ix2 p q)
      = iouNode wx wh bx bh (rows E 0 1 hoff p) (sum4 hk hp p) q := by
    intro p q
    simp only [ops0]
    after_results_simp
    exact iou_apply_root hk hoff _ _ _ _ _ E wx wh bx bh hp hE hwx hwh hb hhp _ rfl _ _ _ _ p q
  -- the children's cell-state sums
  have hcs : ∀ (p : Fin 1) (j : Fin 256), (after (ops0 (F := Ideal)) W (Proc.devRef .tc main_v130) : S1x256.Idx → EReal) (ix2 p j)
      = sum4 hk cp p j := by
    intro p j
    simp only [ops0]
    after_results_simp
    rw [hcp]
    exact sum4_apply hk _ _ _ _ p j
  -- the cell-state array is the cell of the two
  have hC : ∀ (p : Fin 1) (j : Fin 256), (after (ops0 (F := Ideal)) W (Proc.devRef .tc main_v160) : S1x256.Idx → EReal) (ix2 p j)
      = cellNode (cur2 (after (ops0 (F := Ideal)) W (Proc.devRef .tc main_v134) : S1x1024.Idx → EReal) p)
          (cur2 (after (ops0 (F := Ideal)) W (Proc.devRef .tc main_v130) : S1x256.Idx → EReal) p) j := by
    intro p j
    refine Eq.trans ?_ (hostC_apply (n := 1) ![] bcast_S_S1x256 slices_S1x1024_S1x256_0_0 slices_S1x1024_S1x256_0_512
      slices_S1x1024_S1x256_0_768 (after (ops0 (F := Ideal)) W (Proc.devRef .tc main_v134)) (after (ops0 (F := Ideal)) W (Proc.devRef .tc main_v130)) p j)
    unfold hostC hostCLeaf hostSig
    simp only [ops0]
    after_results_simp
    try rfl
  -- the hidden-state array is the output gate times tanh of the cell-state array
  have hH : ∀ (p : Fin 1) (j : Fin 256), (after (ops0 (F := Ideal)) W (Proc.devRef .tc main_v162) : S1x256.Idx → EReal) (ix2 p j)
      = hid (cur2 (after (ops0 (F := Ideal)) W (Proc.devRef .tc main_v134) : S1x1024.Idx → EReal) p)
          (cur2 (after (ops0 (F := Ideal)) W (Proc.devRef .tc main_v160) : S1x256.Idx → EReal) p) j := by
    intro p j
    refine Eq.trans ?_ (hostH_apply (n := 1) ![] bcast_S_S1x256 slices_S1x1024_S1x256_0_256
      (after (ops0 (F := Ideal)) W (Proc.devRef .tc main_v134)) (after (ops0 (F := Ideal)) W (Proc.devRef .tc main_v160)) p j)
    unfold hostH hostSig
    simp only [ops0]
    after_results_simp
    try rfl
  have eI : ∀ p : Fin 1, cur2 (after (ops0 (F := Ideal)) W (Proc.devRef .tc main_v134) : S1x1024.Idx → EReal) p
      = iouNode wx wh bx bh (rows E 0 1 hoff p) (sum4 hk hp p) := fun p => funext (hiou p)
  have eT : ∀ p : Fin 1, cur2 (after (ops0 (F := Ideal)) W (Proc.devRef .tc main_v130) : S1x256.Idx → EReal) p = sum4 hk cp p :=
    fun p => funext (hcs p)
  have hc : (after (ops0 (F := Ideal)) W (Proc.devRef .tc main_v160) : S1x256.Idx → EReal)
      = toArr2 (nodeC wx wh bx bh hk (rows E 0 1 hoff) hp cp) :=
    eq_toArr2 _ _ fun p j => by rw [hC, eI, eT]; rfl
  refine ⟨hc, eq_toArr2 _ _ fun p j => ?_⟩
  rw [hH, eI, hc]
  rfl

/-- Level 0's operations write neither an argument nor the summed bias row. -/
theorem keeps0 (W : Valuation τ sig (Elt Ideal)) :
    after (ops0 (F := Ideal)) W (Proc.devRef .tc main_arg0) = W (Proc.devRef .tc main_arg0)
      ∧ after (ops0 (F := Ideal)) W (Proc.devRef .tc main_arg1) = W (Proc.devRef .tc main_arg1)
      ∧ after (ops0 (F := Ideal)) W (Proc.devRef .tc main_arg3) = W (Proc.devRef .tc main_arg3)
      ∧ after (ops0 (F := Ideal)) W (Proc.devRef .tc main_v1) = W (Proc.devRef .tc main_v1) := by
  refine ⟨?_, ?_, ?_, ?_⟩ <;> (simp only [ops0]; after_results_simp)

end Cert.KernelIdeal.Tail

end
-- ==== Proof.KTail.lean ====
/-
  The root's two states after the last stretch of host operations: the four highest levels applied one after the other to
  what region 3 leaves (level 4's hidden and cell states), the arguments and the summed bias row being found unchanged.
-/
import proofs.«148979_j61349312856636_2_alg».proof.Proof.KBound
import proofs.«148979_j61349312856636_2_alg».proof.Proof.KChain
import proofs.«148979_j61349312856636_2_alg».proof.Proof.KTailLevels

set_option maxRecDepth 16384

noncomputable section

namespace Cert.KernelIdeal.Tail

open Cert.KernelIdeal Cert.KernelIdeal.Gen Cert.KernelIdeal.Bound Cert.KernelIdeal.Chain Cert.TreeSpec Cert.HostIdx
open Idealize.ShloMosaic Idealize.ShloMosaic.ValueIdx Idealize.ShloMosaic.TcCoe Idealize.SL.Sem Idealize.ShloMosaic.StableHlo

/-! ## The root's states after the stretch -/

variable (m : (ℓ : Loc nD τ sig) → Buf (Elt Ideal) ℓ) (ρ : Dev nD → PrngReg) (c : Dev nD)

/-- After the last stretch the two result buffers hold the root's cell state and hidden state of the specification. -/
theorem results :
    (W9 m ρ c (Proc.devRef .tc main_v160) : S1x256.Idx → EReal) = toArr2 (C0 (aE m c) (aWx m c) (aWh m c) (aBx m c) (aBh m c))
      ∧ (W9 m ρ c (Proc.devRef .tc main_v162) : S1x256.Idx → EReal) = toArr2 (H0 (aE m c) (aWx m c) (aWh m c) (aBx m c) (aBh m c)) := by
  have hE8 : (W8 m ρ c (Proc.devRef .tc main_arg0) : S21845x256.Idx → EReal) = toArr2 (aE m c) :=
    (W8_arg0 m ρ c).trans (toArr2_cur2 _).symm
  have hwx8 : (W8 m ρ c (Proc.devRef .tc main_arg1) : S256x1024.Idx → EReal) = toArr2 (aWx m c) :=
    (W8_arg1 m ρ c).trans (toArr2_cur2 _).symm
  have hwh8 : (W8 m ρ c (Proc.devRef .tc main_arg3) : S256x1024.Idx → EReal) = toArr2 (aWh m c) :=
    (W8_arg3 m ρ c).trans (toArr2_cur2 _).symm
  show after hostOps4 (W8 m ρ c) (Proc.devRef .tc main_v160) = _ ∧ after hostOps4 (W8 m ρ c) (Proc.devRef .tc main_v162) = _
  rw [after_split]
  obtain ⟨c3, h3⟩ := lvl3 (W8 m ρ c) (aE m c) (aWx m c) (aWh m c) (aBx m c) (aBh m c) (H4 (aE m c) (aWx m c) (aWh m c) (aBx m c) (aBh m c)) (C4 (aE m c) (aWx m c) (aWh m c) (aBx m c) (aBh m c))
    hE8 hwx8 hwh8 (W8_v1 m ρ c) (W8_h4 m ρ c) (W8_c4 m ρ c)
  obtain ⟨a3, b3, d3, v3⟩ := keeps3 (W8 m ρ c)
  have hb3 : ∀ (u : Fin 1) (q : Fin 1024), (after (ops3 (F := Ideal)) (W8 m ρ c) (Proc.devRef .tc main_v1) : S1x1024.Idx → EReal) (ix2 u q)
      = aBx m c q + aBh m c q := fun u q => (congrFun v3 (ix2 u q)).trans (W8_v1 m ρ c u q)
  obtain ⟨c2, h2⟩ := lvl2 (after ops3 (W8 m ρ c)) (aE m c) (aWx m c) (aWh m c) (aBx m c) (aBh m c) (H3 (aE m c) (aWx m c) (aWh m c) (aBx m c) (aBh m c)) (C3 (aE m c) (aWx m c) (aWh m c) (aBx m c) (aBh m c))
    (a3.trans hE8) (b3.trans hwx8) (d3.trans hwh8) hb3 h3 c3
  obtain ⟨a2, b2, d2, v2⟩ := keeps2 (after ops3 (W8 m ρ c))
  have hb2 : ∀ (u : Fin 1) (q : Fin 1024), (after (ops2 (F := Ideal)) (after ops3 (W8 m ρ c)) (Proc.devRef .tc main_v1) : S1x1024.Idx → EReal) (ix2 u q)
      = aBx m c q + aBh m c q := fun u q => (congrFun v2 (ix2 u q)).trans (hb3 u q)
  obtain ⟨c1, h1⟩ := lvl1 (after ops2 (after ops3 (W8 m ρ c))) (aE m c) (aWx m c) (aWh m c) (aBx m c) (aBh m c) (H2 (aE m c) (aWx m c) (aWh m c) (aBx m c) (aBh m c)) (C2 (aE m c) (aWx m c) (aWh m c) (aBx m c) (aBh m c))
    (a2.trans (a3.trans hE8)) (b2.trans (b3.trans hwx8)) (d2.trans (d3.trans hwh8)) hb2 h2 c2
  obtain ⟨a1, b1, d1, v1⟩ := keeps1 (after ops2 (after ops3 (W8 m ρ c)))
  have hb1 : ∀ (u : Fin 1) (q : Fin 1024), (after (ops1 (F := Ideal)) (after ops2 (after ops3 (W8 m ρ c))) (Proc.devRef .tc main_v1) : S1x1024.Idx → EReal) (ix2 u q)
      = aBx m c q + aBh m c q := fun u q => (congrFun v1 (ix2 u q)).trans (hb2 u q)
  exact lvl0 (after ops1 (after ops2 (after ops3 (W8 m ρ c)))) (aE m c) (aWx m c) (aWh m c) (aBx m c) (aBh m c) (H1 (aE m c) (aWx m c) (aWh m c) (aBx m c) (aBh m c)) (C1 (aE m c) (aWx m c) (aWh m c) (aBx m c) (aBh m c))
    (a1.trans (a2.trans (a3.trans hE8))) (b1.trans (b2.trans (b3.trans hwx8))) (d1.trans (d2.trans (d3.trans hwh8))) hb1 h1 c1

theorem result_c : (W9 m ρ c (Proc.devRef .tc main_v160) : S1x256.Idx → EReal) = toArr2 (C0 (aE m c) (aWx m c) (aWh m c) (aBx m c) (aBh m c)) := (results m ρ c).1
theorem result_h : (W9 m ρ c (Proc.devRef .tc main_v162) : S1x256.Idx → EReal) = toArr2 (H0 (aE m c) (aWx m c) (aWh m c) (aBx m c) (aBh m c)) := (results m ρ c).2

end Cert.KernelIdeal.Tail

end
-- ==== Proof.HostRead.lean ====
/-
  The host operations of one level of the tree, each read at a row and a column in the vocabulary of the tree's
  specification: the logistic function as a program spells it with elementary operations (one over one plus the
  exponential of the negation), the 256 columns of one gate of a pre-activation array, the rows of one level of an
  array, the sum over a node's four children (a reshape of 4n rows to n groups of 4, then a sum over the group axis),
  a row times a weight matrix, a bias row laid along every row. Then one step each for the cell state of a leaf, the
  cell state of an internal node, the hidden state, and the pre-activation rows of a level of leaves, of a level of
  internal nodes and of the root. Everything is stated for any number n of rows and for any evidence of the shape
  conditions the operations carry, so that a lemma applies to an operation at every level of the tree.
-/
import proofs.«148979_j61349312856636_2_alg».proof.Proof.TreeSpec
import Idealize.ShloMosaic.Lib.ValueIdx
import Idealize.ShloMosaic.Lib.IdealHost
import Idealize.ShloMosaic.Lib.Pipeline.Value
import Idealize.ShloMosaic.Lib.StackMember
import Idealize.ShloMosaic.PureOps.Ideal.Laws

noncomputable section

namespace Cert.HostRead

open Idealize.ShloMosaic Idealize.ShloMosaic.ValueIdx Cert.TreeSpec

/- The logistic function of an array x as elementary operations: the array of ones divided by the sum of the array
   of ones and the exponential of −x. -/
set_option quotPrecheck false in
local notation "hσ⟪" t ", " d ", " h ", " x "⟫" =>
  Host.divf (broadcastInDim t d h (constant (F := Ideal) ⟨0, ![]⟩ .f32 0x3F800000#32))
    (addf (broadcastInDim t d h (constant (F := Ideal) ⟨0, ![]⟩ .f32 0x3F800000#32)) (Host.exp (Host.negf x)))

/-! ## Single operations -/

/-- One over one plus the exponential of −x, entry by entry, is the logistic function of the entry. -/
theorem sgm_apply {t : Shape} (dims : Fin (⟨0, ![]⟩ : Shape).rank → Fin t.rank)
    (h : (⟨0, ![]⟩ : Shape).BroadcastsInDim t dims) (x : FVec Ideal t .f32) (j : t.Idx) :
    hσ⟪t, dims, h, x⟫ j = sgm (x j) := by
  show Ideal.div (Ideal.ofBits .f32 0x3F800000#32) (Ideal.ofBits .f32 0x3F800000#32 + Ideal.exp (-(x j : EReal)))
    = sgm (x j)
  rw [ofBits_one]
  rfl

/-- Columns o .. o+255 of an array of 1024 columns: entry (p, j) is entry (p, o + j). -/
theorem colSlice_apply {n : ℕ} (o : ℕ) (ho : o ≤ 768) (x : FVec Ideal ⟨2, ![n, 1024]⟩ .f32)
    (h : (⟨2, ![n, 1024]⟩ : Shape).Slices ![0, o] ⟨2, ![n, 256]⟩) (p : Fin n) (j : Fin 256) :
    extractStridedSlice ⟨2, ![n, 256]⟩ ![0, o] x h (ix2 p j) = x (ix2 p (col o ho j)) := by
  refine extractStridedSlice_apply ![0, o] x h (ix2 p j) (ix2 p (col o ho j)) fun a => ?_
  match a with
  | ⟨0, _⟩ => show p.val = 0 + p.val; omega
  | ⟨1, _⟩ => rfl

/-- Rows off .. off+n−1 of an array: entry (p, q) is entry (off + p, q). -/
theorem rowSlice_apply {N n c : ℕ} (off : ℕ) (hb : off + n ≤ N) (x : FVec Ideal ⟨2, ![N, c]⟩ .f32)
    (h : (⟨2, ![N, c]⟩ : Shape).Slices ![off, 0] ⟨2, ![n, c]⟩) (p : Fin n) (q : Fin c) :
    extractStridedSlice ⟨2, ![n, c]⟩ ![off, 0] x h (ix2 p q)
      = x (ix2 ⟨off + p.val, by have := p.isLt; omega⟩ q) := by
  refine extractStridedSlice_apply ![off, 0] x h (ix2 p q) (ix2 ⟨off + p.val, by have := p.isLt; omega⟩ q) fun a => ?_
  match a with
  | ⟨0, _⟩ => rfl
  | ⟨1, _⟩ => show q.val = 0 + q.val; omega

/-- The sum over the four children: 4n rows regrouped as n groups of 4 rows and summed over the group axis from
    zero; entry (p, k) is the sum of rows 4p .. 4p+3 at column k. -/
theorem sum4_apply {m n : ℕ} (hm : m = 4 * n) (x : FVec Ideal ⟨2, ![m, 256]⟩ .f32)
    (hc : (⟨2, ![m, 256]⟩ : Shape).ShapeCasts ⟨3, ![n, 4, 256]⟩)
    (hr : (⟨3, ![n, 4, 256]⟩ : Shape).ReducesTo [1] ⟨2, ![n, 256]⟩) (hS : 0 < (⟨0, ![]⟩ : Shape).numel)
    (p : Fin n) (k : Fin 256) :
    Host.reduceAdd (shapeCast ⟨3, ![n, 4, 256]⟩ x hc) (constant (F := Ideal) ⟨0, ![]⟩ .f32 0x00000000#32) hr hS (ix2 p k)
      = sum4 hm (cur2 x) p k := by
  have hr' : (⟨3, ![n, 4, 256]⟩ : Shape).Reduces [1] ⟨2, ![n, 256]⟩ := ⟨hr.1, Nat.two_pos, hr.2⟩
  refine (hostReduceAdd_apply _ _ hr hS (ix2 p k)).trans ?_
  refine (Ideal.hostReduceAdd_single hr hr' _ _ (ix2 p k)).trans ?_
  show Ideal.ofBits .f32 0x00000000#32 + _ = _
  rw [Ideal.ofBits_zero_f32, zero_add]
  unfold sum4
  refine Finset.sum_congr rfl fun a _ => ?_
  refine shapeCast_apply x hc (hr'.lift (ix2 p k) a) (ix2 ⟨4 * p.val + a.val, by have := p.isLt; have h4 : a.val < 4 := a.isLt; omega⟩ k) ?_
  rw [Shape.rowMajor_val_two, Shape.rowMajor_val_three]
  show (4 * p.val + a.val) * 256 + k.val = (p.val * 4 + a.val) * 256 + k.val
  omega

/-- The same as a row: row p of the children's sum. -/
theorem cur2_sum4 {m n : ℕ} (hm : m = 4 * n) (x : FVec Ideal ⟨2, ![m, 256]⟩ .f32)
    (hc : (⟨2, ![m, 256]⟩ : Shape).ShapeCasts ⟨3, ![n, 4, 256]⟩)
    (hr : (⟨3, ![n, 4, 256]⟩ : Shape).ReducesTo [1] ⟨2, ![n, 256]⟩) (hS : 0 < (⟨0, ![]⟩ : Shape).numel) (p : Fin n) :
    cur2 (Host.reduceAdd (shapeCast ⟨3, ![n, 4, 256]⟩ x hc) (constant (F := Ideal) ⟨0, ![]⟩ .f32 0x00000000#32) hr hS) p
      = sum4 hm (cur2 x) p :=
  funext fun k => sum4_apply hm x hc hr hS p k

/-- An n×256 array times a 256×1024 matrix: entry (p, q) is row p times the matrix at column q. -/
theorem dot_apply {n : ℕ} {φ₁ φ₂ : FTy} (D : DotDims ⟨2, ![n, 256]⟩ ⟨2, ![256, 1024]⟩ ⟨2, ![n, 1024]⟩)
    (hD : D = DotDims.plain n 256 1024) (A : FVec Ideal ⟨2, ![n, 256]⟩ φ₁) (B : FVec Ideal ⟨2, ![256, 1024]⟩ φ₂)
    (p : Fin n) (q : Fin 1024) :
    Host.dotGeneral D none A B (ix2 p q) = proj (cur2 B) (cur2 A p) q := by
  subst hD
  exact StackMember.dotGeneral_plain_apply none A B p q

/-- A row of 1024 entries as a one-row array: entry (u, q) is entry q. -/
theorem biasRow_apply (b : FVec Ideal ⟨1, ![1024]⟩ .f32)
    (h1 : (⟨1, ![1024]⟩ : Shape).BroadcastsInDim ⟨2, ![1, 1024]⟩ ![1]) (u : Fin 1) (q : Fin 1024) :
    broadcastInDim ⟨2, ![1, 1024]⟩ ![1] h1 b (ix2 u q) = b (ix1 q) := by
  refine broadcastInDim_apply ![1] h1 b (ix2 u q) (ix1 q) fun a => ?_
  match a with
  | ⟨0, _⟩ => rfl

/-- A one-row array laid along n rows: entry (p, q) is entry (0, q). -/
theorem rowBcast_apply {n : ℕ} (v : FVec Ideal ⟨2, ![1, 1024]⟩ .f32)
    (h2 : (⟨2, ![1, 1024]⟩ : Shape).BroadcastsInDim ⟨2, ![n, 1024]⟩ ![0, 1]) (p : Fin n) (q : Fin 1024) :
    broadcastInDim ⟨2, ![n, 1024]⟩ ![0, 1] h2 v (ix2 p q) = v (ix2 (0 : Fin 1) q) := by
  refine broadcastInDim_apply ![0, 1] h2 v (ix2 p q) (ix2 (0 : Fin 1) q) fun a => ?_
  match a with
  | ⟨0, _⟩ => rfl
  | ⟨1, _⟩ => rfl

/-- A row of 1024 entries laid along n rows (through a one-row array): entry (p, q) is entry q. -/
theorem bias_apply {n : ℕ} (b : FVec Ideal ⟨1, ![1024]⟩ .f32)
    (h1 : (⟨1, ![1024]⟩ : Shape).BroadcastsInDim ⟨2, ![1, 1024]⟩ ![1])
    (h2 : (⟨2, ![1, 1024]⟩ : Shape).BroadcastsInDim ⟨2, ![n, 1024]⟩ ![0, 1]) (p : Fin n) (q : Fin 1024) :
    broadcastInDim ⟨2, ![n, 1024]⟩ ![0, 1] h2 (broadcastInDim ⟨2, ![1, 1024]⟩ ![1] h1 b) (ix2 p q) = b (ix1 q) :=
  (rowBcast_apply _ h2 p q).trans (biasRow_apply b h1 0 q)

/-! ## One step of a level -/

section Steps
variable {n : ℕ} (dims : Fin (⟨0, ![]⟩ : Shape).rank → Fin (⟨2, ![n, 256]⟩ : Shape).rank)
  (hb : (⟨0, ![]⟩ : Shape).BroadcastsInDim ⟨2, ![n, 256]⟩ dims)

/-- The cell state of a leaf from the pre-activation array: σ(i) · tanh(u). -/
theorem cellLeaf_apply (iou : FVec Ideal ⟨2, ![n, 1024]⟩ .f32)
    (h0 : (⟨2, ![n, 1024]⟩ : Shape).Slices ![0, 0] ⟨2, ![n, 256]⟩)
    (h512 : (⟨2, ![n, 1024]⟩ : Shape).Slices ![0, 512] ⟨2, ![n, 256]⟩) (p : Fin n) (j : Fin 256) :
    mulf hσ⟪⟨2, ![n, 256]⟩, dims, hb, extractStridedSlice ⟨2, ![n, 256]⟩ ![0, 0] iou h0⟫
        (Host.tanh (extractStridedSlice ⟨2, ![n, 256]⟩ ![0, 512] iou h512)) (ix2 p j)
      = cellLeaf (cur2 iou p) j := by
  refine (mulf_apply _ _ _).trans ?_
  exact congrArg₂ (· * ·)
    ((sgm_apply dims hb _ (ix2 p j)).trans (congrArg sgm (colSlice_apply 0 (by omega) iou h0 p j)))
    (congrArg Ideal.tanh (colSlice_apply 512 (by omega) iou h512 p j))

/-- The cell state of an internal node from the pre-activation array and the array t of the children's cell-state
    sums: σ(i) · tanh(u) + σ(f) · t. -/
theorem cellNode_apply (iou : FVec Ideal ⟨2, ![n, 1024]⟩ .f32) (t : FVec Ideal ⟨2, ![n, 256]⟩ .f32)
    (h0 : (⟨2, ![n, 1024]⟩ : Shape).Slices ![0, 0] ⟨2, ![n, 256]⟩)
    (h512 : (⟨2, ![n, 1024]⟩ : Shape).Slices ![0, 512] ⟨2, ![n, 256]⟩)
    (h768 : (⟨2, ![n, 1024]⟩ : Shape).Slices ![0, 768] ⟨2, ![n, 256]⟩) (p : Fin n) (j : Fin 256) :
    addf (mulf hσ⟪⟨2, ![n, 256]⟩, dims, hb, extractStridedSlice ⟨2, ![n, 256]⟩ ![0, 0] iou h0⟫
          (Host.tanh (extractStridedSlice ⟨2, ![n, 256]⟩ ![0, 512] iou h512)))
        (mulf hσ⟪⟨2, ![n, 256]⟩, dims, hb, extractStridedSlice ⟨2, ![n, 256]⟩ ![0, 768] iou h768⟫ t) (ix2 p j)
      = cellNode (cur2 iou p) (cur2 t p) j := by
  refine (addf_apply _ _ _).trans ?_
  refine congrArg₂ (· + ·) (cellLeaf_apply dims hb iou h0 h512 p j) ?_
  refine (mulf_apply _ _ _).trans ?_
  exact congrArg (· * t (ix2 p j))
    ((sgm_apply dims hb _ (ix2 p j)).trans (congrArg sgm (colSlice_apply 768 (by omega) iou h768 p j)))

/-- The cell state of an internal node with the children's cell-state sum written out: cp is the array of the 4n
    children's cell states. -/
theorem cellNodeSum_apply {m : ℕ} (hm : m = 4 * n) (iou : FVec Ideal ⟨2, ![n, 1024]⟩ .f32)
    (cp : FVec Ideal ⟨2, ![m, 256]⟩ .f32)
    (h0 : (⟨2, ![n, 1024]⟩ : Shape).Slices ![0, 0] ⟨2, ![n, 256]⟩)
    (h512 : (⟨2, ![n, 1024]⟩ : Shape).Slices ![0, 512] ⟨2, ![n, 256]⟩)
    (h768 : (⟨2, ![n, 1024]⟩ : Shape).Slices ![0, 768] ⟨2, ![n, 256]⟩)
    (hc : (⟨2, ![m, 256]⟩ : Shape).ShapeCasts ⟨3, ![n, 4, 256]⟩)
    (hr : (⟨3, ![n, 4, 256]⟩ : Shape).ReducesTo [1] ⟨2, ![n, 256]⟩) (hS : 0 < (⟨0, ![]⟩ : Shape).numel)
    (p : Fin n) (j : Fin 256) :
    addf (mulf hσ⟪⟨2, ![n, 256]⟩, dims, hb, extractStridedSlice ⟨2, ![n, 256]⟩ ![0, 0] iou h0⟫
          (Host.tanh (extractStridedSlice ⟨2, ![n, 256]⟩ ![0, 512] iou h512)))
        (mulf hσ⟪⟨2, ![n, 256]⟩, dims, hb, extractStridedSlice ⟨2, ![n, 256]⟩ ![0, 768] iou h768⟫
          (Host.reduceAdd (shapeCast ⟨3, ![n, 4, 256]⟩ cp hc) (constant (F := Ideal) ⟨0, ![]⟩ .f32 0x00000000#32) hr hS))
        (ix2 p j)
      = cellNode (cur2 iou p) (sum4 hm (cur2 cp) p) j :=
  (cellNode_apply dims hb iou _ h0 h512 h768 p j).trans
    (congrArg (fun t => cellNode (cur2 iou p) t j) (cur2_sum4 hm cp hc hr hS p))

/-- The hidden state from the pre-activation array and the cell-state array: σ(o) · tanh(c). -/
theorem hid_apply (iou : FVec Ideal ⟨2, ![n, 1024]⟩ .f32) (c : FVec Ideal ⟨2, ![n, 256]⟩ .f32)
    (h256 : (⟨2, ![n, 1024]⟩ : Shape).Slices ![0, 256] ⟨2, ![n, 256]⟩) (p : Fin n) (j : Fin 256) :
    mulf hσ⟪⟨2, ![n, 256]⟩, dims, hb, extractStridedSlice ⟨2, ![n, 256]⟩ ![0, 256] iou h256⟫ (Host.tanh c) (ix2 p j)
      = hid (cur2 iou p) (cur2 c p) j := by
  refine (mulf_apply _ _ _).trans ?_
  exact congrArg (· * Ideal.tanh (c (ix2 p j)))
    ((sgm_apply dims hb _ (ix2 p j)).trans (congrArg sgm (colSlice_apply 256 (by omega) iou h256 p j)))

/-- The hidden state of an internal node with its cell state written out. -/
theorem hidNodeSum_apply {m : ℕ} (hm : m = 4 * n) (iou : FVec Ideal ⟨2, ![n, 1024]⟩ .f32)
    (cp : FVec Ideal ⟨2, ![m, 256]⟩ .f32)
    (h0 : (⟨2, ![n, 1024]⟩ : Shape).Slices ![0, 0] ⟨2, ![n, 256]⟩)
    (h256 : (⟨2, ![n, 1024]⟩ : Shape).Slices ![0, 256] ⟨2, ![n, 256]⟩)
    (h512 : (⟨2, ![n, 1024]⟩ : Shape).Slices ![0, 512] ⟨2, ![n, 256]⟩)
    (h768 : (⟨2, ![n, 1024]⟩ : Shape).Slices ![0, 768] ⟨2, ![n, 256]⟩)
    (hc : (⟨2, ![m, 256]⟩ : Shape).ShapeCasts ⟨3, ![n, 4, 256]⟩)
    (hr : (⟨3, ![n, 4, 256]⟩ : Shape).ReducesTo [1] ⟨2, ![n, 256]⟩) (hS : 0 < (⟨0, ![]⟩ : Shape).numel)
    (p : Fin n) (j : Fin 256) :
    mulf hσ⟪⟨2, ![n, 256]⟩, dims, hb, extractStridedSlice ⟨2, ![n, 256]⟩ ![0, 256] iou h256⟫
        (Host.tanh
          (addf (mulf hσ⟪⟨2, ![n, 256]⟩, dims, hb, extractStridedSlice ⟨2, ![n, 256]⟩ ![0, 0] iou h0⟫
                (Host.tanh (extractStridedSlice ⟨2, ![n, 256]⟩ ![0, 512] iou h512)))
              (mulf hσ⟪⟨2, ![n, 256]⟩, dims, hb, extractStridedSlice ⟨2, ![n, 256]⟩ ![0, 768] iou h768⟫
                (Host.reduceAdd (shapeCast ⟨3, ![n, 4, 256]⟩ cp hc) (constant (F := Ideal) ⟨0, ![]⟩ .f32 0x00000000#32) hr hS))))
        (ix2 p j)
      = hid (cur2 iou p) (cellNode (cur2 iou p) (sum4 hm (cur2 cp) p)) j :=
  (hid_apply dims hb iou _ h256 p j).trans
    (congrArg (fun c => hid (cur2 iou p) c j)
      (funext fun j' => cellNodeSum_apply dims hb hm iou cp h0 h512 h768 hc hr hS p j'))

end Steps

/-! ## The pre-activation rows of a level

x3 is the array of every node's embedding row times wx plus bx (N rows); a level is its n rows from row off. -/

/-- A level of leaves: the level's rows of x3 plus the bias row b. -/
theorem preLeaf_apply {N n : ℕ} (off : ℕ) (hb : off + n ≤ N) (x3 : FVec Ideal ⟨2, ![N, 1024]⟩ .f32)
    (hs : (⟨2, ![N, 1024]⟩ : Shape).Slices ![off, 0] ⟨2, ![n, 1024]⟩)
    (b : FVec Ideal ⟨1, ![1024]⟩ .f32) (h1 : (⟨1, ![1024]⟩ : Shape).BroadcastsInDim ⟨2, ![1, 1024]⟩ ![1])
    (h2 : (⟨2, ![1, 1024]⟩ : Shape).BroadcastsInDim ⟨2, ![n, 1024]⟩ ![0, 1]) (p : Fin n) (q : Fin 1024) :
    addf (extractStridedSlice ⟨2, ![n, 1024]⟩ ![off, 0] x3 hs)
        (broadcastInDim ⟨2, ![n, 1024]⟩ ![0, 1] h2 (broadcastInDim ⟨2, ![1, 1024]⟩ ![1] h1 b)) (ix2 p q)
      = x3 (ix2 ⟨off + p.val, by have := p.isLt; omega⟩ q) + b (ix1 q) := by
  refine (addf_apply _ _ _).trans ?_
  exact congrArg₂ (· + ·) (rowSlice_apply off hb x3 hs p q) (bias_apply b h1 h2 p q)

/-- The level's rows of x3 plus the children's hidden-state sum times w: the part of an internal node's
    pre-activation before the bias row. hp is the array of the 4n children's hidden states. -/
theorem preSum_apply {N n m : ℕ} (off : ℕ) (hb : off + n ≤ N) (x3 : FVec Ideal ⟨2, ![N, 1024]⟩ .f32)
    (hs : (⟨2, ![N, 1024]⟩ : Shape).Slices ![off, 0] ⟨2, ![n, 1024]⟩)
    (hm : m = 4 * n) (hp : FVec Ideal ⟨2, ![m, 256]⟩ .f32) {φ : FTy} (w : FVec Ideal ⟨2, ![256, 1024]⟩ φ)
    (D : DotDims ⟨2, ![n, 256]⟩ ⟨2, ![256, 1024]⟩ ⟨2, ![n, 1024]⟩) (hD : D = DotDims.plain n 256 1024)
    (hc : (⟨2, ![m, 256]⟩ : Shape).ShapeCasts ⟨3, ![n, 4, 256]⟩)
    (hr : (⟨3, ![n, 4, 256]⟩ : Shape).ReducesTo [1] ⟨2, ![n, 256]⟩) (hS : 0 < (⟨0, ![]⟩ : Shape).numel)
    (p : Fin n) (q : Fin 1024) :
    addf (extractStridedSlice ⟨2, ![n, 1024]⟩ ![off, 0] x3 hs)
        (Host.dotGeneral D none
          (Host.reduceAdd (shapeCast ⟨3, ![n, 4, 256]⟩ hp hc) (constant (F := Ideal) ⟨0, ![]⟩ .f32 0x00000000#32) hr hS) w)
        (ix2 p q)
      = x3 (ix2 ⟨off + p.val, by have := p.isLt; omega⟩ q) + proj (cur2 w) (sum4 hm (cur2 hp) p) q := by
  refine (addf_apply _ _ _).trans ?_
  refine congrArg₂ (· + ·) (rowSlice_apply off hb x3 hs p q) ?_
  refine (dot_apply D hD _ w p q).trans ?_
  exact congrArg (fun s => proj (cur2 w) s q) (cur2_sum4 hm hp hc hr hS p)

/-- A level of internal nodes: the level's rows of x3, plus the children's hidden-state sum times w, plus the bias
    row b laid along the level's rows. -/
theorem preNode_apply {N n m : ℕ} (off : ℕ) (hb : off + n ≤ N) (x3 : FVec Ideal ⟨2, ![N, 1024]⟩ .f32)
    (hs : (⟨2, ![N, 1024]⟩ : Shape).Slices ![off, 0] ⟨2, ![n, 1024]⟩)
    (hm : m = 4 * n) (hp : FVec Ideal ⟨2, ![m, 256]⟩ .f32) {φ : FTy} (w : FVec Ideal ⟨2, ![256, 1024]⟩ φ)
    (D : DotDims ⟨2, ![n, 256]⟩ ⟨2, ![256, 1024]⟩ ⟨2, ![n, 1024]⟩) (hD : D = DotDims.plain n 256 1024)
    (hc : (⟨2, ![m, 256]⟩ : Shape).ShapeCasts ⟨3, ![n, 4, 256]⟩)
    (hr : (⟨3, ![n, 4, 256]⟩ : Shape).ReducesTo [1] ⟨2, ![n, 256]⟩) (hS : 0 < (⟨0, ![]⟩ : Shape).numel)
    (b : FVec Ideal ⟨1, ![1024]⟩ .f32) (h1 : (⟨1, ![1024]⟩ : Shape).BroadcastsInDim ⟨2, ![1, 1024]⟩ ![1])
    (h2 : (⟨2, ![1, 1024]⟩ : Shape).BroadcastsInDim ⟨2, ![n, 1024]⟩ ![0, 1]) (p : Fin n) (q : Fin 1024) :
    addf (addf (extractStridedSlice ⟨2, ![n, 1024]⟩ ![off, 0] x3 hs)
          (Host.dotGeneral D none
            (Host.reduceAdd (shapeCast ⟨3, ![n, 4, 256]⟩ hp hc) (constant (F := Ideal) ⟨0, ![]⟩ .f32 0x00000000#32) hr hS) w))
        (broadcastInDim ⟨2, ![n, 1024]⟩ ![0, 1] h2 (broadcastInDim ⟨2, ![1, 1024]⟩ ![1] h1 b)) (ix2 p q)
      = (x3 (ix2 ⟨off + p.val, by have := p.isLt; omega⟩ q) + proj (cur2 w) (sum4 hm (cur2 hp) p) q) + b (ix1 q) := by
  refine (addf_apply _ _ _).trans ?_
  exact congrArg₂ (· + ·) (preSum_apply off hb x3 hs hm hp w D hD hc hr hS p q) (bias_apply b h1 h2 p q)

/-- The root (one row): the same with the bias row as a one-row array. -/
theorem preRoot_apply {N m : ℕ} (off : ℕ) (hb : off + 1 ≤ N) (x3 : FVec Ideal ⟨2, ![N, 1024]⟩ .f32)
    (hs : (⟨2, ![N, 1024]⟩ : Shape).Slices ![off, 0] ⟨2, ![1, 1024]⟩)
    (hm : m = 4 * 1) (hp : FVec Ideal ⟨2, ![m, 256]⟩ .f32) {φ : FTy} (w : FVec Ideal ⟨2, ![256, 1024]⟩ φ)
    (D : DotDims ⟨2, ![1, 256]⟩ ⟨2, ![256, 1024]⟩ ⟨2, ![1, 1024]⟩) (hD : D = DotDims.plain 1 256 1024)
    (hc : (⟨2, ![m, 256]⟩ : Shape).ShapeCasts ⟨3, ![1, 4, 256]⟩)
    (hr : (⟨3, ![1, 4, 256]⟩ : Shape).ReducesTo [1] ⟨2, ![1, 256]⟩) (hS : 0 < (⟨0, ![]⟩ : Shape).numel)
    (b : FVec Ideal ⟨1, ![1024]⟩ .f32) (h1 : (⟨1, ![1024]⟩ : Shape).BroadcastsInDim ⟨2, ![1, 1024]⟩ ![1])
    (p : Fin 1) (q : Fin 1024) :
    addf (addf (extractStridedSlice ⟨2, ![1, 1024]⟩ ![off, 0] x3 hs)
          (Host.dotGeneral D none
            (Host.reduceAdd (shapeCast ⟨3, ![1, 4, 256]⟩ hp hc) (constant (F := Ideal) ⟨0, ![]⟩ .f32 0x00000000#32) hr hS) w))
        (broadcastInDim ⟨2, ![1, 1024]⟩ ![1] h1 b) (ix2 p q)
      = (x3 (ix2 ⟨off + p.val, by have := p.isLt; omega⟩ q) + proj (cur2 w) (sum4 hm (cur2 hp) p) q) + b (ix1 q) := by
  refine (addf_apply _ _ _).trans ?_
  exact congrArg₂ (· + ·) (preSum_apply off hb x3 hs hm hp w D hD hc hr hS p q) (biasRow_apply b h1 p q)

/-! ## The same with the children's hidden states written out

iouP and cP are the pre-activation array and the cell-state array of the 4n children; their hidden states are
σ(o) · tanh(c). -/

/-- A level of internal nodes over the children's pre-activations and cell states. -/
theorem preNodeH_apply {N n m : ℕ} (off : ℕ) (hb : off + n ≤ N) (x3 : FVec Ideal ⟨2, ![N, 1024]⟩ .f32)
    (hs : (⟨2, ![N, 1024]⟩ : Shape).Slices ![off, 0] ⟨2, ![n, 1024]⟩) (hm : m = 4 * n)
    (dims : Fin (⟨0, ![]⟩ : Shape).rank → Fin (⟨2, ![m, 256]⟩ : Shape).rank)
    (hbc : (⟨0, ![]⟩ : Shape).BroadcastsInDim ⟨2, ![m, 256]⟩ dims)
    (iouP : FVec Ideal ⟨2, ![m, 1024]⟩ .f32) (cP : FVec Ideal ⟨2, ![m, 256]⟩ .f32)
    (h256 : (⟨2, ![m, 1024]⟩ : Shape).Slices ![0, 256] ⟨2, ![m, 256]⟩)
    {φ : FTy} (w : FVec Ideal ⟨2, ![256, 1024]⟩ φ)
    (D : DotDims ⟨2, ![n, 256]⟩ ⟨2, ![256, 1024]⟩ ⟨2, ![n, 1024]⟩) (hD : D = DotDims.plain n 256 1024)
    (hc : (⟨2, ![m, 256]⟩ : Shape).ShapeCasts ⟨3, ![n, 4, 256]⟩)
    (hr : (⟨3, ![n, 4, 256]⟩ : Shape).ReducesTo [1] ⟨2, ![n, 256]⟩) (hS : 0 < (⟨0, ![]⟩ : Shape).numel)
    (b : FVec Ideal ⟨1, ![1024]⟩ .f32) (h1 : (⟨1, ![1024]⟩ : Shape).BroadcastsInDim ⟨2, ![1, 1024]⟩ ![1])
    (h2 : (⟨2, ![1, 1024]⟩ : Shape).BroadcastsInDim ⟨2, ![n, 1024]⟩ ![0, 1]) (p : Fin n) (q : Fin 1024) :
    addf (addf (extractStridedSlice ⟨2, ![n, 1024]⟩ ![off, 0] x3 hs)
          (Host.dotGeneral D none
            (Host.reduceAdd (shapeCast ⟨3, ![n, 4, 256]⟩
                (mulf hσ⟪⟨2, ![m, 256]⟩, dims, hbc, extractStridedSlice ⟨2, ![m, 256]⟩ ![0, 256] iouP h256⟫ (Host.tanh cP)) hc)
              (constant (F := Ideal) ⟨0, ![]⟩ .f32 0x00000000#32) hr hS) w))
        (broadcastInDim ⟨2, ![n, 1024]⟩ ![0, 1] h2 (broadcastInDim ⟨2, ![1, 1024]⟩ ![1] h1 b)) (ix2 p q)
      = (x3 (ix2 ⟨off + p.val, by have := p.isLt; omega⟩ q)
          + proj (cur2 w) (sum4 hm (fun r j => hid (cur2 iouP r) (cur2 cP r) j) p) q) + b (ix1 q) :=
  (preNode_apply off hb x3 hs hm _ w D hD hc hr hS b h1 h2 p q).trans
    (congrArg (fun h => (x3 (ix2 ⟨off + p.val, by have := p.isLt; omega⟩ q) + proj (cur2 w) (sum4 hm h p) q) + b (ix1 q))
      (funext fun r => funext fun j => hid_apply dims hbc iouP cP h256 r j))

/-- The root over its four children's pre-activations and cell states. -/
theorem preRootH_apply {N m : ℕ} (off : ℕ) (hb : off + 1 ≤ N) (x3 : FVec Ideal ⟨2, ![N, 1024]⟩ .f32)
    (hs : (⟨2, ![N, 1024]⟩ : Shape).Slices ![off, 0] ⟨2, ![1, 1024]⟩) (hm : m = 4 * 1)
    (dims : Fin (⟨0, ![]⟩ : Shape).rank → Fin (⟨2, ![m, 256]⟩ : Shape).rank)
    (hbc : (⟨0, ![]⟩ : Shape).BroadcastsInDim ⟨2, ![m, 256]⟩ dims)
    (iouP : FVec Ideal ⟨2, ![m, 1024]⟩ .f32) (cP : FVec Ideal ⟨2, ![m, 256]⟩ .f32)
    (h256 : (⟨2, ![m, 1024]⟩ : Shape).Slices ![0, 256] ⟨2, ![m, 256]⟩)
    {φ : FTy} (w : FVec Ideal ⟨2, ![256, 1024]⟩ φ)
    (D : DotDims ⟨2, ![1, 256]⟩ ⟨2, ![256, 1024]⟩ ⟨2, ![1, 1024]⟩) (hD : D = DotDims.plain 1 256 1024)
    (hc : (⟨2, ![m, 256]⟩ : Shape).ShapeCasts ⟨3, ![1, 4, 256]⟩)
    (hr : (⟨3, ![1, 4, 256]⟩ : Shape).ReducesTo [1] ⟨2, ![1, 256]⟩) (hS : 0 < (⟨0, ![]⟩ : Shape).numel)
    (b : FVec Ideal ⟨1, ![1024]⟩ .f32) (h1 : (⟨1, ![1024]⟩ : Shape).BroadcastsInDim ⟨2, ![1, 1024]⟩ ![1])
    (p : Fin 1) (q : Fin 1024) :
    addf (addf (extractStridedSlice ⟨2, ![1, 1024]⟩ ![off, 0] x3 hs)
          (Host.dotGeneral D none
            (Host.reduceAdd (shapeCast ⟨3, ![1, 4, 256]⟩
                (mulf hσ⟪⟨2, ![m, 256]⟩, dims, hbc, extractStridedSlice ⟨2, ![m, 256]⟩ ![0, 256] iouP h256⟫ (Host.tanh cP)) hc)
              (constant (F := Ideal) ⟨0, ![]⟩ .f32 0x00000000#32) hr hS) w))
        (broadcastInDim ⟨2, ![1, 1024]⟩ ![1] h1 b) (ix2 p q)
      = (x3 (ix2 ⟨off + p.val, by have := p.isLt; omega⟩ q)
          + proj (cur2 w) (sum4 hm (fun r j => hid (cur2 iouP r) (cur2 cP r) j) p) q) + b (ix1 q) :=
  (preRoot_apply off hb x3 hs hm _ w D hD hc hr hS b h1 p q).trans
    (congrArg (fun h => (x3 (ix2 ⟨off + p.val, by have := p.isLt; omega⟩ q) + proj (cur2 w) (sum4 hm h p) q) + b (ix1 q))
      (funext fun r => funext fun j => hid_apply dims hbc iouP cP h256 r j))

end Cert.HostRead

end
-- ==== Proof.RefValue.lean ====
/-
  The plain program computes the tree's specification. Its run names one array per level for the pre-activation rows
  and one for the cell states (the hidden states appear inside the next level's pre-activation); level by level, from
  the leaves to the root, each of them is the array of the specification's function of that level, and so are the two
  results. The program adds bx to every node's projected embedding row first and takes a level's rows afterwards; a
  level's pre-activation is then ((that + s·wh) + bh), the specification's own order of the four terms.
-/
import proofs.«148979_j61349312856636_2_alg».proof.Proof.Gen.ReferenceIdeal.Run
import proofs.«148979_j61349312856636_2_alg».proof.Proof.HostRead
import proofs.«148979_j61349312856636_2_alg».proof.Proof.TreeSpec

noncomputable section

namespace Cert.ReferenceIdeal.RefValue

open Idealize.ShloMosaic Idealize.ShloMosaic.ValueIdx Idealize.SL.Sem Idealize.ShloMosaic.StableHlo
open Cert.ReferenceIdeal Cert.ReferenceIdeal.Gen Cert.ReferenceIdeal.Value Cert.TreeSpec Cert.HostRead

/-! ## The pre-activation rows of each level, as the specification writes them -/

section Pre
variable (E : Fin 21845 → Fin 256 → EReal) (wx wh : Fin 256 → Fin 1024 → EReal) (bx bh : Fin 1024 → EReal)

/-- Every node's embedding row times wx, plus bx. -/
def X3 (p : Fin 21845) (q : Fin 1024) : EReal := proj wx (E p) q + bx q

/-- The leaves (level 7). -/
def P7 (r : Fin 16384) : Fin 1024 → EReal := iouLeaf wx bx bh (TreeSpec.rows E 5461 16384 (by norm_num) r)
/-- Level 6 over the leaves' hidden states. -/
def P6 (r : Fin 4096) : Fin 1024 → EReal :=
  iouNode wx wh bx bh (TreeSpec.rows E 1365 4096 (by norm_num) r) (sum4 (by norm_num) (H7 E wx bx bh) r)
/-- Level 5. -/
def P5 (r : Fin 1024) : Fin 1024 → EReal :=
  iouNode wx wh bx bh (TreeSpec.rows E 341 1024 (by norm_num) r) (sum4 (by norm_num) (H6 E wx wh bx bh) r)
/-- Level 4. -/
def P4 (r : Fin 256) : Fin 1024 → EReal :=
  iouNode wx wh bx bh (TreeSpec.rows E 85 256 (by norm_num) r) (sum4 (by norm_num) (H5 E wx wh bx bh) r)
/-- Level 3. -/
def P3 (r : Fin 64) : Fin 1024 → EReal :=
  iouNode wx wh bx bh (TreeSpec.rows E 21 64 (by norm_num) r) (sum4 (by norm_num) (H4 E wx wh bx bh) r)
/-- Level 2. -/
def P2 (r : Fin 16) : Fin 1024 → EReal :=
  iouNode wx wh bx bh (TreeSpec.rows E 5 16 (by norm_num) r) (sum4 (by norm_num) (H3 E wx wh bx bh) r)
/-- Level 1. -/
def P1 (r : Fin 4) : Fin 1024 → EReal :=
  iouNode wx wh bx bh (TreeSpec.rows E 1 4 (by norm_num) r) (sum4 (by norm_num) (H2 E wx wh bx bh) r)
/-- The root. -/
def P0 (r : Fin 1) : Fin 1024 → EReal :=
  iouNode wx wh bx bh (TreeSpec.rows E 0 1 (by norm_num) r) (sum4 (by norm_num) (H1 E wx wh bx bh) r)

end Pre

/-! ## The run, level by level -/

section Run
variable {E : Fin 21845 → Fin 256 → EReal} {wx wh : Fin 256 → Fin 1024 → EReal} {bx bh : Fin 1024 → EReal}
  (V0 : Valuation τ sig (Elt Ideal))
  (hE : (V0 (Proc.devRef .tc main_arg0) : S21845x256.Idx → EReal) = toArr2 E)
  (hwx : (V0 (Proc.devRef .tc main_arg1) : S256x1024.Idx → EReal) = toArr2 wx)
  (hbx : ∀ q, (V0 (Proc.devRef .tc main_arg2) : S1024.Idx → EReal) (ix1 q) = bx q)
  (hwh : (V0 (Proc.devRef .tc main_arg3) : S256x1024.Idx → EReal) = toArr2 wh)
  (hbh : ∀ q, (V0 (Proc.devRef .tc main_arg4) : S1024.Idx → EReal) (ix1 q) = bh q)
include hE hwx hbx hwh hbh

/-- The embedding array by rows and columns. -/
theorem cur2_E : cur2 (V0 (Proc.devRef .tc main_arg0)) = E := (congrArg cur2 hE).trans rfl
/-- The input weights by rows and columns. -/
theorem cur2_wx : cur2 (V0 (Proc.devRef .tc main_arg1)) = wx := (congrArg cur2 hwx).trans rfl
/-- The recurrent weights by rows and columns. -/
theorem cur2_wh : cur2 (V0 (Proc.devRef .tc main_arg3)) = wh := (congrArg cur2 hwh).trans rfl

/-- Every node's embedding row times wx, plus bx. -/
theorem v3_apply (p : Fin 21845) (q : Fin 1024) : res_main_v3 V0 (ix2 p q) = X3 E wx bx p q := by
  unfold res_main_v3
  refine (addf_apply _ _ _).trans ?_
  refine congrArg₂ (· + ·) ((dot_apply dot_S21845x256_S256x1024_S21845x1024_1_0_0_1_n_n rfl _ _ p q).trans ?_)
    ((bias_apply _ _ _ p q).trans (hbx q))
  rw [cur2_E V0 hE hwx hbx hwh hbh, cur2_wx V0 hE hwx hbx hwh hbh]

/-- The leaves' pre-activation rows. -/
theorem v7_eq : res_main_v7 V0 = toArr2 (P7 E wx bx bh) := by
  refine eq_toArr2 _ _ fun p q => ?_
  unfold res_main_v7
  refine (preLeaf_apply 5461 (by norm_num) _ _ _ _ _ p q).trans ?_
  rw [v3_apply V0 hE hwx hbx hwh hbh, hbh q]
  rfl

/-- The leaves' cell states. -/
theorem v31_eq : res_main_v31 V0 = toArr2 (C7 E wx bx bh) := by
  refine eq_toArr2 _ _ fun p j => ?_
  unfold res_main_v31
  rw [v7_eq V0 hE hwx hbx hwh hbh]
  exact cellLeaf_apply _ _ _ _ _ p j

/-- Level 6's pre-activation rows. -/
theorem v43_eq : res_main_v43 V0 = toArr2 (P6 E wx wh bx bh) := by
  refine eq_toArr2 _ _ fun p q => ?_
  unfold res_main_v43
  rw [v7_eq V0 hE hwx hbx hwh hbh, v31_eq V0 hE hwx hbx hwh hbh]
  refine (preNodeH_apply 1365 (by norm_num) _ _ (by norm_num) _ _ _ _ _ _ _ rfl _ _ _ _ _ _ p q).trans ?_
  rw [v3_apply V0 hE hwx hbx hwh hbh, hbh q, cur2_wh V0 hE hwx hbx hwh hbh]
  rfl

/-- Level 6's cell states. -/
theorem v69_eq : res_main_v69 V0 = toArr2 (C6 E wx wh bx bh) := by
  refine eq_toArr2 _ _ fun p j => ?_
  unfold res_main_v69
  rw [v43_eq V0 hE hwx hbx hwh hbh, v31_eq V0 hE hwx hbx hwh hbh]
  exact cellNodeSum_apply _ _ (by norm_num) _ _ _ _ _ _ _ _ p j

/-- Level 5's pre-activation rows. -/
theorem v81_eq : res_main_v81 V0 = toArr2 (P5 E wx wh bx bh) := by
  refine eq_toArr2 _ _ fun p q => ?_
  unfold res_main_v81
  rw [v43_eq V0 hE hwx hbx hwh hbh, v69_eq V0 hE hwx hbx hwh hbh]
  refine (preNodeH_apply 341 (by norm_num) _ _ (by norm_num) _ _ _ _ _ _ _ rfl _ _ _ _ _ _ p q).trans ?_
  rw [v3_apply V0 hE hwx hbx hwh hbh, hbh q, cur2_wh V0 hE hwx hbx hwh hbh]
  rfl

/-- Level 5's cell states. -/
theorem v107_eq : res_main_v107 V0 = toArr2 (C5 E wx wh bx bh) := by
  refine eq_toArr2 _ _ fun p j => ?_
  unfold res_main_v107
  rw [v81_eq V0 hE hwx hbx hwh hbh, v69_eq V0 hE hwx hbx hwh hbh]
  exact cellNodeSum_apply _ _ (by norm_num) _ _ _ _ _ _ _ _ p j

/-- Level 4's pre-activation rows. -/
theorem v119_eq : res_main_v119 V0 = toArr2 (P4 E wx wh bx bh) := by
  refine eq_toArr2 _ _ fun p q => ?_
  unfold res_main_v119
  rw [v81_eq V0 hE hwx hbx hwh hbh, v107_eq V0 hE hwx hbx hwh hbh]
  refine (preNodeH_apply 85 (by norm_num) _ _ (by norm_num) _ _ _ _ _ _ _ rfl _ _ _ _ _ _ p q).trans ?_
  rw [v3_apply V0 hE hwx hbx hwh hbh, hbh q, cur2_wh V0 hE hwx hbx hwh hbh]
  rfl

/-- Level 4's cell states. -/
theorem v145_eq : res_main_v145 V0 = toArr2 (C4 E wx wh bx bh) := by
  refine eq_toArr2 _ _ fun p j => ?_
  unfold res_main_v145
  rw [v119_eq V0 hE hwx hbx hwh hbh, v107_eq V0 hE hwx hbx hwh hbh]
  exact cellNodeSum_apply _ _ (by norm_num) _ _ _ _ _ _ _ _ p j

/-- Level 3's pre-activation rows. -/
theorem v157_eq : res_main_v157 V0 = toArr2 (P3 E wx wh bx bh) := by
  refine eq_toArr2 _ _ fun p q => ?_
  unfold res_main_v157
  rw [v119_eq V0 hE hwx hbx hwh hbh, v145_eq V0 hE hwx hbx hwh hbh]
  refine (preNodeH_apply 21 (by norm_num) _ _ (by norm_num) _ _ _ _ _ _ _ rfl _ _ _ _ _ _ p q).trans ?_
  rw [v3_apply V0 hE hwx hbx hwh hbh, hbh q, cur2_wh V0 hE hwx hbx hwh hbh]
  rfl

/-- Level 3's cell states. -/
theorem v183_eq : res_main_v183 V0 = toArr2 (C3 E wx wh bx bh) := by
  refine eq_toArr2 _ _ fun p j => ?_
  unfold res_main_v183
  rw [v157_eq V0 hE hwx hbx hwh hbh, v145_eq V0 hE hwx hbx hwh hbh]
  exact cellNodeSum_apply _ _ (by norm_num) _ _ _ _ _ _ _ _ p j

/-- Level 2's pre-activation rows. -/
theorem v195_eq : res_main_v195 V0 = toArr2 (P2 E wx wh bx bh) := by
  refine eq_toArr2 _ _ fun p q => ?_
  unfold res_main_v195
  rw [v157_eq V0 hE hwx hbx hwh hbh, v183_eq V0 hE hwx hbx hwh hbh]
  refine (preNodeH_apply 5 (by norm_num) _ _ (by norm_num) _ _ _ _ _ _ _ rfl _ _ _ _ _ _ p q).trans ?_
  rw [v3_apply V0 hE hwx hbx hwh hbh, hbh q, cur2_wh V0 hE hwx hbx hwh hbh]
  rfl

/-- Level 2's cell states. -/
theorem v221_eq : res_main_v221 V0 = toArr2 (C2 E wx wh bx bh) := by
  refine eq_toArr2 _ _ fun p j => ?_
  unfold res_main_v221
  rw [v195_eq V0 hE hwx hbx hwh hbh, v183_eq V0 hE hwx hbx hwh hbh]
  exact cellNodeSum_apply _ _ (by norm_num) _ _ _ _ _ _ _ _ p j

/-- Level 1's pre-activation rows. -/
theorem v233_eq : res_main_v233 V0 = toArr2 (P1 E wx wh bx bh) := by
  refine eq_toArr2 _ _ fun p q => ?_
  unfold res_main_v233
  rw [v195_eq V0 hE hwx hbx hwh hbh, v221_eq V0 hE hwx hbx hwh hbh]
  refine (preNodeH_apply 1 (by norm_num) _ _ (by norm_num) _ _ _ _ _ _ _ rfl _ _ _ _ _ _ p q).trans ?_
  rw [v3_apply V0 hE hwx hbx hwh hbh, hbh q, cur2_wh V0 hE hwx hbx hwh hbh]
  rfl

/-- Level 1's cell states. -/
theorem v259_eq : res_main_v259 V0 = toArr2 (C1 E wx wh bx bh) := by
  refine eq_toArr2 _ _ fun p j => ?_
  unfold res_main_v259
  rw [v233_eq V0 hE hwx hbx hwh hbh, v221_eq V0 hE hwx hbx hwh hbh]
  exact cellNodeSum_apply _ _ (by norm_num) _ _ _ _ _ _ _ _ p j

/-- The root's pre-activation row. -/
theorem v270_eq : res_main_v270 V0 = toArr2 (P0 E wx wh bx bh) := by
  refine eq_toArr2 _ _ fun p q => ?_
  unfold res_main_v270
  rw [v233_eq V0 hE hwx hbx hwh hbh, v259_eq V0 hE hwx hbx hwh hbh]
  refine (preRootH_apply 0 (by norm_num) _ _ (by norm_num) _ _ _ _ _ _ _ rfl _ _ _ _ _ p q).trans ?_
  rw [v3_apply V0 hE hwx hbx hwh hbh, hbh q, cur2_wh V0 hE hwx hbx hwh hbh]
  rfl

/-- The second result is the root's cell state. -/
theorem result_c : val7 V0 (Proc.devRef .tc main_v296) = toArr2 (C0 E wx wh bx bh) := by
  refine (val7_main_v296 V0).trans ?_
  rw [v270_eq V0 hE hwx hbx hwh hbh, v259_eq V0 hE hwx hbx hwh hbh]
  refine eq_toArr2 _ _ fun p j => ?_
  exact cellNodeSum_apply _ _ (by norm_num) _ _ _ _ _ _ _ _ p j

/-- The first result is the root's hidden state. -/
theorem result_h : val7 V0 (Proc.devRef .tc main_v298) = toArr2 (H0 E wx wh bx bh) := by
  refine (val7_main_v298 V0).trans ?_
  rw [v270_eq V0 hE hwx hbx hwh hbh, v259_eq V0 hE hwx hbx hwh hbh]
  refine eq_toArr2 _ _ fun p j => ?_
  exact hidNodeSum_apply _ _ (by norm_num) _ _ _ _ _ _ _ _ _ p j

end Run

end Cert.ReferenceIdeal.RefValue

end
-- ==== Proof.lean ====
/-
  A complete 4-ary tree of depth 8 evaluated bottom-up with the child-sum Tree-LSTM cell. The kernel evaluates the four
  lowest levels in four kernel regions (operands passed to the matrix unit through a change of float format, the two biases
  added once into one row, the children's sums taken inside the kernel) and the four highest levels with host operations;
  the reference evaluates every level with host operations from one projection of all the embedding rows. On the extended
  reals a change of float format is the identity, the logistic function is 1 / (1 + e^(−x)) in both spellings, a matrix
  product is the same sum however its rows are cut into blocks, and addition is associative and commutative: both
  programs end with the root's hidden state and cell state of the specification (Proof/TreeSpec.lean), hence with equal
  results. The ideal pass rewrote no operation, so the idealized kernel is the kernel's own text.
-/
import proofs.«148979_j61349312856636_2_alg».proof.Defs
import proofs.«148979_j61349312856636_2_alg».proof.Proof.Gen.Kernel
import proofs.«148979_j61349312856636_2_alg».proof.Proof.Gen.Kernel.Frame
import proofs.«148979_j61349312856636_2_alg».proof.Proof.Gen.KernelIdeal
import proofs.«148979_j61349312856636_2_alg».proof.Proof.Gen.KernelIdeal.Frame
import proofs.«148979_j61349312856636_2_alg».proof.Proof.Gen.ReferenceIdeal
import proofs.«148979_j61349312856636_2_alg».proof.Proof.Gen.ReferenceIdeal.Run
import proofs.«148979_j61349312856636_2_alg».proof.Proof.Gen.Pre_finite_inputs
import proofs.«148979_j61349312856636_2_alg».proof.Proof.TreeSpec
import proofs.«148979_j61349312856636_2_alg».proof.Proof.HostIdx
import proofs.«148979_j61349312856636_2_alg».proof.Proof.KRun
import proofs.«148979_j61349312856636_2_alg».proof.Proof.KBound
import proofs.«148979_j61349312856636_2_alg».proof.Proof.KTail
import proofs.«148979_j61349312856636_2_alg».proof.Proof.RefValue
import Idealize.ShloMosaic.Adequacy
import Idealize.ShloMosaic.Init

noncomputable section

namespace Cert.Proof

open Idealize.ShloMosaic Idealize.ShloMosaic.ValueIdx Idealize.ShloMosaic.TcCoe Idealize.SL.Sem Idealize.ShloMosaic.StableHlo
open Cert.TreeSpec

/-- From memories that agree on the five arguments both idealized programs run to the end, the root's hidden state and
    cell state of the specification in their result buffers, the arguments as launched. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => toArr2 (H0 (Cert.KernelIdeal.Bound.aE m c) (Cert.KernelIdeal.Bound.aWx m c) (Cert.KernelIdeal.Bound.aWh m c) (Cert.KernelIdeal.Bound.aBx m c) (Cert.KernelIdeal.Bound.aBh m c)), fun c => toArr2 (C0 (Cert.KernelIdeal.Bound.aE m c) (Cert.KernelIdeal.Bound.aWx m c) (Cert.KernelIdeal.Bound.aWh m c) (Cert.KernelIdeal.Bound.aBx m c) (Cert.KernelIdeal.Bound.aBh m c)), ?_, ?_⟩
  · exact (θ_run Cert.KernelIdeal.defs _ _).mono
      (fun _ h c => ⟨(h c).1.trans (Cert.KernelIdeal.Tail.result_h m ρ c),
        (h c).2.1.trans (Cert.KernelIdeal.Tail.result_c m ρ c), (h c).2.2⟩)
      (Cert.KernelIdeal.Run.run_results (F := Ideal) m ρ)
  · refine (θ_run Cert.ReferenceIdeal.defs _ _).mono (fun _ h c => ?_)
      (Cert.ReferenceIdeal.Value.run (F := Ideal) m' ρ')
    obtain ⟨a0, a1, a2, a3, a4⟩ := hagree c
    have hE : (launchContents m' c (Proc.devRef .tc Cert.ReferenceIdeal.main_arg0) : Cert.ReferenceIdeal.S21845x256.Idx → EReal)
        = toArr2 (Cert.KernelIdeal.Bound.aE m c) := a0.trans (Cert.HostIdx.toArr2_cur2 _).symm
    have hwx : (launchContents m' c (Proc.devRef .tc Cert.ReferenceIdeal.main_arg1) : Cert.ReferenceIdeal.S256x1024.Idx → EReal)
        = toArr2 (Cert.KernelIdeal.Bound.aWx m c) := a1.trans (Cert.HostIdx.toArr2_cur2 _).symm
    have hbx : ∀ q, (launchContents m' c (Proc.devRef .tc Cert.ReferenceIdeal.main_arg2) : Cert.ReferenceIdeal.S1024.Idx → EReal) (ix1 q)
        = Cert.KernelIdeal.Bound.aBx m c q := fun q => congrFun a2 (ix1 q)
    have hwh : (launchContents m' c (Proc.devRef .tc Cert.ReferenceIdeal.main_arg3) : Cert.ReferenceIdeal.S256x1024.Idx → EReal)
        = toArr2 (Cert.KernelIdeal.Bound.aWh m c) := a3.trans (Cert.HostIdx.toArr2_cur2 _).symm
    have hbh : ∀ q, (launchContents m' c (Proc.devRef .tc Cert.ReferenceIdeal.main_arg4) : Cert.ReferenceIdeal.S1024.Idx → EReal) (ix1 q)
        = Cert.KernelIdeal.Bound.aBh m c q := fun q => congrFun a4 (ix1 q)
    exact ⟨(h c).1.trans ((Cert.ReferenceIdeal.Value.val7_main_v298 (launchContents m' c)).symm.trans
        (Cert.ReferenceIdeal.RefValue.result_h (launchContents m' c) hE hwx hbx hwh hbh)),
      (h c).2.1.trans ((Cert.ReferenceIdeal.Value.val7_main_v296 (launchContents m' c)).symm.trans
        (Cert.ReferenceIdeal.RefValue.result_c (launchContents m' c) hE hwx hbx hwh hbh)),
      (h c).2.2⟩

/-- The five claims: each program terminates without a fault with its arguments as launched (the two kernels by their
    frames over the regions, the reference by its run with the results dropped); the idealization rewrote nothing; and
    the two idealized programs end with equal results. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2)
      (Cert.ReferenceIdeal.Value.run (F := Ideal) m ρ),
    trivial,
    algebraic⟩

end Cert.Proof

end
